-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4x64 : Shape := ⟨3, ![1024, 4, 64]⟩
abbrev S10000x64 : Shape := ⟨2, ![10000, 64]⟩
abbrev S1x10000 : Shape := ⟨2, ![1, 10000]⟩
abbrev S64x10000 : Shape := ⟨2, ![64, 10000]⟩
abbrev S_ : Shape := ⟨0, ![]⟩

class Facts : Prop where
  bcast_S_S1024x4x64 : S_.BroadcastsInDim S1024x4x64 (![] : Fin 0 → Fin S1024x4x64.rank)
  reducesTo_S1024x4x64_S_d0_1_2 : S1024x4x64.ReducesTo [0, 1, 2] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S1x10000 : S_.BroadcastsInDim S1x10000 (![] : Fin 0 → Fin S1x10000.rank)
  reducesTo_S1x10000_S_d0_1 : S1x10000.ReducesTo [0, 1] S_
  bcast_S_S64x10000 : S_.BroadcastsInDim S64x10000 (![] : Fin 0 → Fin S64x10000.rank)
  reducesTo_S64x10000_S_d0_1 : S64x10000.ReducesTo [0, 1] S_

variable [Facts]

def fn_part1 {F : FTy → Type} [FloatOps F] (main_v13 : IVec S_ 1) (main_v16 : IVec S64x10000 1) : IVec S_ 1 :=
  let main_c_5 : IVec S_ 1 := constantI S_ 1 1#1
  let main_v17 : IVec S_ 1 := (fun x v => Host.reduce IntOp.andi x v reducesTo_S64x10000_S_d0_1 h_S_) main_v16 main_c_5
  let main_v18 : IVec S_ 1 := andi main_v13 main_v17
  main_v18

def fn {F : FTy → Type} [FloatOps F] (main_arg0 : FVec F S1024x4x64 .f32) (main_arg1 : FVec F S10000x64 .f32) (main_arg2 : FVec F S1x10000 .f32) (main_arg3 : FVec F S64x10000 .f32) : IVec S_ 1 :=
  let main_v0 : FVec F S1024x4x64 .f32 := Host.absf main_arg0
  let main_cst : FVec F S_ .f32 := constant S_ .f32 0x7F800000#32
  let main_v1 : FVec F S1024x4x64 .f32 := broadcastInDim S1024x4x64 ![] bcast_S_S1024x4x64 main_cst
  let main_v2 : IVec S1024x4x64 1 := cmpf .olt main_v0 main_v1
  let main_c : IVec S_ 1 := constantI S_ 1 1#1
  let main_v3 : IVec S_ 1 := (fun x v => Host.reduce IntOp.andi x v reducesTo_S1024x4x64_S_d0_1_2 h_S_) main_v2 main_c
  let main_v4 : FVec F S10000x64 .f32 := Host.absf main_arg1
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S1x10000 .f32 := Host.absf main_arg2
  let main_cst_2 : FVec F S_ .f32 := constant S_ .f32 0x7F800000#32
  let main_v10 : FVec F S1x10000 .f32 := broadcastInDim S1x10000 ![] bcast_S_S1x10000 main_cst_2
  let main_v11 : IVec S1x10000 1 := cmpf .olt main_v9 main_v10
  let main_c_3 : IVec S_ 1 := constantI S_ 1 1#1
  let main_v12 : IVec S_ 1 := (fun x v => Host.reduce IntOp.andi x v reducesTo_S1x10000_S_d0_1 h_S_) main_v11 main_c_3
  let main_v13 : IVec S_ 1 := andi main_v8 main_v12
  let main_v14 : FVec F S64x10000 .f32 := Host.absf main_arg3
  let main_cst_4 : FVec F S_ .f32 := constant S_ .f32 0x7F800000#32
  let main_v15 : FVec F S64x10000 .f32 := broadcastInDim S64x10000 ![] bcast_S_S64x10000 main_cst_4
  let main_v16 : IVec S64x10000 1 := cmpf .olt main_v14 main_v15
  fn_part1 (F := F) main_v13 main_v16
-- ==== Kernel.lean ====
abbrev S1024x4x64 : Shape := ⟨3, ![1024, 4, 64]⟩
abbrev S10000x64 : Shape := ⟨2, ![10000, 64]⟩
abbrev S1x10000 : Shape := ⟨2, ![1, 10000]⟩
abbrev S64x10000 : Shape := ⟨2, ![64, 10000]⟩
abbrev S_ : Shape := ⟨0, ![]⟩
abbrev S10240x64 : Shape := ⟨2, ![10240, 64]⟩
abbrev S1x10240 : Shape := ⟨2, ![1, 10240]⟩
abbrev S64x10240 : Shape := ⟨2, ![64, 10240]⟩
abbrev S1024x64 : Shape := ⟨2, ![1024, 64]⟩
abbrev S256x4x64 : Shape := ⟨3, ![256, 4, 64]⟩
abbrev S1x1024 : Shape := ⟨2, ![1, 1024]⟩
abbrev S64x1024 : Shape := ⟨2, ![64, 1024]⟩
abbrev S256x64 : Shape := ⟨2, ![256, 64]⟩
abbrev S256x1 : Shape := ⟨2, ![256, 1]⟩
abbrev S1x64 : Shape := ⟨2, ![1, 64]⟩
abbrev S256x1024 : Shape := ⟨2, ![256, 1024]⟩
abbrev S256x1x64 : Shape := ⟨3, ![256, 1, 64]⟩
abbrev S256 : Shape := ⟨1, ![256]⟩
abbrev S64 : Shape := ⟨1, ![64]⟩
abbrev S64x1 : Shape := ⟨2, ![64, 1]⟩

abbrev nBuf : Space → Nat
  | .hbm => 14
  | .vmem => 13
  | .smem => 0
  | _ => 0

abbrev bufTy : (tb : Table) → Fin (tcTables nBuf tb) → BufTy
  | .hbm, ⟨0, _⟩ => ⟨S1024x4x64, .f32⟩
  | .hbm, ⟨1, _⟩ => ⟨S10000x64, .f32⟩
  | .hbm, ⟨2, _⟩ => ⟨S1x10000, .f32⟩
  | .hbm, ⟨3, _⟩ => ⟨S64x10000, .f32⟩
  | .hbm, ⟨4, _⟩ => ⟨S_, .i32⟩
  | .hbm, ⟨5, _⟩ => ⟨S_, .f32⟩
  | .hbm, ⟨6, _⟩ => ⟨S10240x64, .f32⟩
  | .hbm, ⟨7, _⟩ => ⟨S_, .i32⟩
  | .hbm, ⟨8, _⟩ => ⟨S_, .f32⟩
  | .hbm, ⟨9, _⟩ => ⟨S1x10240, .f32⟩
  | .hbm, ⟨10, _⟩ => ⟨S_, .i32⟩
  | .hbm, ⟨11, _⟩ => ⟨S_, .f32⟩
  | .hbm, ⟨12, _⟩ => ⟨S64x10240, .f32⟩
  | .hbm, ⟨13, _⟩ => ⟨S1024x64, .f32⟩
  | .local _ .vmem, ⟨0, _⟩ => ⟨S256x4x64, .f32⟩
  | .local _ .vmem, ⟨1, _⟩ => ⟨S256x4x64, .f32⟩
  | .local _ .vmem, ⟨2, _⟩ => ⟨S1024x64, .f32⟩
  | .local _ .vmem, ⟨3, _⟩ => ⟨S1024x64, .f32⟩
  | .local _ .vmem, ⟨4, _⟩ => ⟨S1x1024, .f32⟩
  | .local _ .vmem, ⟨5, _⟩ => ⟨S1x1024, .f32⟩
  | .local _ .vmem, ⟨6, _⟩ => ⟨S64x1024, .f32⟩
  | .local _ .vmem, ⟨7, _⟩ => ⟨S64x1024, .f32⟩
  | .local _ .vmem, ⟨8, _⟩ => ⟨S256x64, .f32⟩
  | .local _ .vmem, ⟨9, _⟩ => ⟨S256x64, .f32⟩
  | .local _ .vmem, ⟨10, _⟩ => ⟨S256x64, .f32⟩
  | .local _ .vmem, ⟨11, _⟩ => ⟨S256x1, .f32⟩
  | .local _ .vmem, ⟨12, _⟩ => ⟨S1x64, .f32⟩
  | _, _ => ⟨S1024x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_call0_v0 : Ref sig .tc := ⟨.hbm, 5, rfl⟩
abbrev main_call0_v0 : Ref sig .tc := ⟨.hbm, 6, rfl⟩
abbrev main_call0_c_0 : Ref sig .tc := ⟨.hbm, 7, rfl⟩
abbrev main_call0_call1_v0 : Ref sig .tc := ⟨.hbm, 8, rfl⟩
abbrev main_call0_v1 : Ref sig .tc := ⟨.hbm, 9, rfl⟩
abbrev main_call0_c_1 : Ref sig .tc := ⟨.hbm, 10, rfl⟩
abbrev main_call0_call2_v0 : Ref sig .tc := ⟨.hbm, 11, rfl⟩
abbrev main_call0_v2 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 10], ![false, false]⟩

def k0_cond2 (i : grid0.Coords) : BitVec 1 :=
  let arg1 : BitVec 32 := BitVec.ofNat 32 (i 1).val
  let c9_i32 : BitVec 32 := 9#32
  let v77 : BitVec 1 := Scalar.cmpi .eq arg1 c9_i32
  let v78 : BitVec 32 := Scalar.extui v77
  let c0_i32_40 : BitVec 32 := 0#32
  let v79 : BitVec 1 := Scalar.cmpi .ne v78 c0_i32_40
  v79

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  pads_S10000x64_S10240x64_02400_000 : S10000x64.Pads (![0, 0] : Fin 2 → Nat) ![240, 0] ![0, 0] S10240x64
  h_S_ : 0 < S_.numel
  pads_S1x10000_S1x10240_000_02400 : S1x10000.Pads (![0, 0] : Fin 2 → Nat) ![0, 240] ![0, 0] S1x10240
  pads_S64x10000_S64x10240_000_02400 : S64x10000.Pads (![0, 0] : Fin 2 → Nat) ![0, 240] ![0, 0] S64x10240
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S256x4x64_S256x1x64_0_0_0 : ∀ a, (![0, 0, 0] : Fin 3 → Nat) a + S256x1x64.size a ≤ S256x4x64.size a
  h_S256x1x64 : 0 < S256x1x64.numel
  shapeCasts_S256x1x64_S256x64 : S256x1x64.ShapeCasts S256x64
  broadcasts_S1x1024_S256x1024 : S1x1024.Broadcasts S256x1024
  inb_S256x4x64_S256x1x64_0_1_0 : ∀ a, (![0, 1, 0] : Fin 3 → Nat) a + S256x1x64.size a ≤ S256x4x64.size a
  inb_S256x4x64_S256x1x64_0_2_0 : ∀ a, (![0, 2, 0] : Fin 3 → Nat) a + S256x1x64.size a ≤ S256x4x64.size a
  inb_S256x4x64_S256x1x64_0_3_0 : ∀ a, (![0, 3, 0] : Fin 3 → Nat) a + S256x1x64.size a ≤ S256x4x64.size a
  reduces_S256x1024_S256 : S256x1024.Reduces [1] S256
  shapeCasts_S256_S256x1 : S256.ShapeCasts S256x1
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  reduces_S64x1024_S64 : S64x1024.Reduces [1] S64
  shapeCasts_S64_S64x1 : S64.ShapeCasts S64x1
  shapeCasts_S64x1_S1x64 : S64x1.ShapeCasts S1x64
  broadcasts_S256x1_S256x64 : S256x1.Broadcasts S256x64
  broadcasts_S1x64_S256x64 : S1x64.Broadcasts S256x64
  dot_S256x64_S1024x64_S256x1024_1_1_0_0_n_n_wf : DotDims.WF S256x64 S1024x64 S256x1024 [1] [1] [0] [0] [] []
  dot_S256x1024_S64x1024_S256x64_1_1_0_0_n_n_wf : DotDims.WF S256x1024 S64x1024 S256x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4x64.size a ≤ S1024x4x64.size a
  hwx0_0 : ∀ i : grid0.Coords, EltTy.bits .f32 = 32 ∨ (Rect.block (s := S1024x4x64) S256x4x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S10240x64.size a
  hwx0_1 : ∀ i : grid0.Coords, EltTy.bits .f32 = 32 ∨ (Rect.block (s := S10240x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x10240.size a
  hwx0_2 : ∀ i : grid0.Coords, EltTy.bits .f32 = 32 ∨ (Rect.block (s := S1x10240) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x10240.size a
  hwx0_3 : ∀ i : grid0.Coords, EltTy.bits .f32 = 32 ∨ (Rect.block (s := S64x10240) S64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S1024x64.size a
  hwx0_4 : ∀ i : grid0.Coords, EltTy.bits .f32 = 32 ∨ (Rect.block (s := S1024x64) S256x64.size (cc0_transform_4 i) (hinb0_4 i)).WholeWords (EltTy.packing .f32)

variable [Facts₀]

def dot_S256x64_S1024x64_S256x1024_1_1_0_0_n_n : DotDims S256x64 S1024x64 S256x1024 where
  lhsContracting := [1]
  rhsContracting := [1]
  lhsNonContracting := [0]
  rhsNonContracting := [0]
  lhsBatch := []
  rhsBatch := []
  wf := dot_S256x64_S1024x64_S256x1024_1_1_0_0_n_n_wf
def dot_S256x1024_S64x1024_S256x64_1_1_0_0_n_n : DotDims S256x1024 S64x1024 S256x64 where
  lhsContracting := [1]
  rhsContracting := [1]
  lhsNonContracting := [0]
  rhsNonContracting := [0]
  lhsBatch := []
  rhsBatch := []
  wf := dot_S256x1024_S64x1024_S256x64_1_1_0_0_n_n_wf

abbrev win0_0 : Pipeline.Window sig grid0 :=
  Pipeline.Window.ofSpec (Memref.whole main_arg0) S256x4x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1024x4x64 : Shape := ⟨3, ![1024, 4, 64]⟩
abbrev S10000x64 : Shape := ⟨2, ![10000, 64]⟩
abbrev S1x10000 : Shape := ⟨2, ![1, 10000]⟩
abbrev S64x10000 : Shape := ⟨2, ![64, 10000]⟩
abbrev S1024x4x10000 : Shape := ⟨3, ![1024, 4, 10000]⟩
abbrev S1x1x10000 : Shape := ⟨3, ![1, 1, 10000]⟩
abbrev S10000 : Shape := ⟨1, ![10000]⟩
abbrev S_ : Shape := ⟨0, ![]⟩
abbrev S4 : Shape := ⟨1, ![4]⟩
abbrev S4x1 : Shape := ⟨2, ![4, 1]⟩
abbrev S4x10000 : Shape := ⟨2, ![4, 10000]⟩
abbrev S4x10000x1 : Shape := ⟨3, ![4, 10000, 1]⟩
abbrev S4x10000x2 : Shape := ⟨3, ![4, 10000, 2]⟩
abbrev S1024x10000 : Shape := ⟨2, ![1024, 10000]⟩
abbrev S1024 : Shape := ⟨1, ![1024]⟩
abbrev S1024x1 : Shape := ⟨2, ![1024, 1]⟩
abbrev S64 : Shape := ⟨1, ![64]⟩
abbrev S64x1 : Shape := ⟨2, ![64, 1]⟩
abbrev S1024x64 : Shape := ⟨2, ![1024, 64]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S1024x4x64, .f32⟩
  | .hbm, ⟨1, _⟩ => ⟨S10000x64, .f32⟩
  | .hbm, ⟨2, _⟩ => ⟨S1x10000, .f32⟩
  | .hbm, ⟨3, _⟩ => ⟨S64x10000, .f32⟩
  | .hbm, ⟨4, _⟩ => ⟨S1024x4x10000, .f32⟩
  | .hbm, ⟨5, _⟩ => ⟨S1x1x10000, .f32⟩
  | .hbm, ⟨6, _⟩ => ⟨S1024x4x10000, .f32⟩
  | .hbm, ⟨7, _⟩ => ⟨S1024x4x10000, .f32⟩
  | .hbm, ⟨8, _⟩ => ⟨S1024x4x10000, .f32⟩
  | .hbm, ⟨9, _⟩ => ⟨S1024x4x10000, .f32⟩
  | .hbm, ⟨10, _⟩ => ⟨S1024x4x10000, .f32⟩
  | .hbm, ⟨11, _⟩ => ⟨S10000, .i32⟩
  | .hbm, ⟨12, _⟩ => ⟨S_, .i32⟩
  | .hbm, ⟨13, _⟩ => ⟨S10000, .i32⟩
  | .hbm, ⟨14, _⟩ => ⟨S10000, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S10000, .i32⟩
  | .hbm, ⟨22, _⟩ => ⟨S10000, .i32⟩
  | .hbm, ⟨23, _⟩ => ⟨S_, .i32⟩
  | .hbm, ⟨24, _⟩ => ⟨S10000, .i32⟩
  | .hbm, ⟨25, _⟩ => ⟨S10000, .i1⟩
  | .hbm, ⟨26, _⟩ => ⟨S_, .i32⟩
  | .hbm, ⟨27, _⟩ => ⟨S10000, .i32⟩
  | .hbm, ⟨28, _⟩ => ⟨S10000, .i1⟩
  | .hbm, ⟨29, _⟩ => ⟨S_, .i32⟩
  | .hbm, ⟨30, _⟩ => ⟨S_, .i1⟩
  | .hbm, ⟨31, _⟩ => ⟨S10000, .i1⟩
  | .hbm, ⟨32, _⟩ => ⟨S10000, .i1⟩
  | .hbm, ⟨33, _⟩ => ⟨S10000, .i1⟩
  | .hbm, ⟨34, _⟩ => ⟨S10000, .i32⟩
  | .hbm, ⟨35, _⟩ => ⟨S10000, .i32⟩
  | .hbm, ⟨36, _⟩ => ⟨S10000, .i32⟩
  | .hbm, ⟨37, _⟩ => ⟨S4, .i32⟩
  | .hbm, ⟨38, _⟩ => ⟨S4x1, .i32⟩
  | .hbm, ⟨39, _⟩ => ⟨S1x10000, .i32⟩
  | .hbm, ⟨40, _⟩ => ⟨S4x10000, .i32⟩
  | .hbm, ⟨41, _⟩ => ⟨S4x10000, .i32⟩
  | .hbm, ⟨42, _⟩ => ⟨S4x10000, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S4x10000, .i32⟩
  | .hbm, ⟨50, _⟩ => ⟨S4x10000, .i32⟩
  | .hbm, ⟨51, _⟩ => ⟨S_, .i32⟩
  | .hbm, ⟨52, _⟩ => ⟨S4x10000, .i32⟩
  | .hbm, ⟨53, _⟩ => ⟨S4x10000, .i1⟩
  | .hbm, ⟨54, _⟩ => ⟨S_, .i32⟩
  | .hbm, ⟨55, _⟩ => ⟨S4x10000, .i32⟩
  | .hbm, ⟨56, _⟩ => ⟨S4x10000, .i1⟩
  | .hbm, ⟨57, _⟩ => ⟨S_, .i32⟩
  | .hbm, ⟨58, _⟩ => ⟨S_, .i1⟩
  | .hbm, ⟨59, _⟩ => ⟨S4x10000, .i1⟩
  | .hbm, ⟨60, _⟩ => ⟨S4x10000, .i1⟩
  | .hbm, ⟨61, _⟩ => ⟨S4x10000, .i1⟩
  | .hbm, ⟨62, _⟩ => ⟨S4x10000, .i32⟩
  | .hbm, ⟨63, _⟩ => ⟨S4x10000, .i32⟩
  | .hbm, ⟨64, _⟩ => ⟨S4x10000, .i32⟩
  | .hbm, ⟨65, _⟩ => ⟨S1x10000, .i32⟩
  | .hbm, ⟨66, _⟩ => ⟨S_, .i32⟩
  | .hbm, ⟨67, _⟩ => ⟨S4x10000, .i32⟩
  | .hbm, ⟨68, _⟩ => ⟨S4x10000, .i1⟩
  | .hbm, ⟨69, _⟩ => ⟨S_, .i32⟩
  | .hbm, ⟨70, _⟩ => ⟨S4x10000, .i32⟩
  | .hbm, ⟨71, _⟩ => ⟨S4x10000, .i32⟩
  | .hbm, ⟨72, _⟩ => ⟨S4x10000, .i32⟩
  | .hbm, ⟨73, _⟩ => ⟨S_, .i32⟩
  | .hbm, ⟨74, _⟩ => ⟨S1x10000, .i32⟩
  | .hbm, ⟨75, _⟩ => ⟨S1x10000, .i1⟩
  | .hbm, ⟨76, _⟩ => ⟨S_, .i32⟩
  | .hbm, ⟨77, _⟩ => ⟨S1x10000, .i32⟩
  | .hbm, ⟨78, _⟩ => ⟨S1x10000, .i32⟩
  | .hbm, ⟨79, _⟩ => ⟨S1x10000, .i32⟩
  | .hbm, ⟨80, _⟩ => ⟨S4x10000, .i32⟩
  | .hbm, ⟨81, _⟩ => ⟨S4x10000x1, .i32⟩
  | .hbm, ⟨82, _⟩ => ⟨S4x10000x1, .i32⟩
  | .hbm, ⟨83, _⟩ => ⟨S4x10000x2, .i32⟩
  | .hbm, ⟨84, _⟩ => ⟨S1024x4x10000, .f32⟩
  | .hbm, ⟨85, _⟩ => ⟨S_, .f32⟩
  | .hbm, ⟨86, _⟩ => ⟨S1024x10000, .f32⟩
  | .hbm, ⟨87, _⟩ => ⟨S1024x10000, .f32⟩
  | .hbm, ⟨88, _⟩ => ⟨S1024x10000, .f32⟩
  | .hbm, ⟨89, _⟩ => ⟨S_, .f32⟩
  | .hbm, ⟨90, _⟩ => ⟨S1024, .f32⟩
  | .hbm, ⟨91, _⟩ => ⟨S1024x1, .f32⟩
  | .hbm, ⟨92, _⟩ => ⟨S1024x1, .f32⟩
  | .hbm, ⟨93, _⟩ => ⟨S64x10000, .f32⟩
  | .hbm, ⟨94, _⟩ => ⟨S_, .f32⟩
  | .hbm, ⟨95, _⟩ => ⟨S64, .f32⟩
  | .hbm, ⟨96, _⟩ => ⟨S64x1, .f32⟩
  | .hbm, ⟨97, _⟩ => ⟨S64x1, .f32⟩
  | .hbm, ⟨98, _⟩ => ⟨S10000x64, .f32⟩
  | .hbm, ⟨99, _⟩ => ⟨S1024x64, .f32⟩
  | .hbm, ⟨100, _⟩ => ⟨S1x64, .f32⟩
  | .hbm, ⟨101, _⟩ => ⟨S1024x64, .f32⟩
  | .hbm, ⟨102, _⟩ => ⟨S1024x64, .f32⟩
  | .hbm, ⟨103, _⟩ => ⟨S1024x64, .f32⟩
  | .hbm, ⟨104, _⟩ => ⟨S_, .f32⟩
  | .hbm, ⟨105, _⟩ => ⟨S1024x64, .f32⟩
  | .hbm, ⟨106, _⟩ => ⟨S1024x64, .f32⟩
  | .hbm, ⟨107, _⟩ => ⟨S1024x64, .f32⟩
  | _, _ => ⟨S1024x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_1 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v17 : Ref sig .tc := ⟨.hbm, 64, rfl⟩
abbrev main_v18 : Ref sig .tc := ⟨.hbm, 65, rfl⟩
abbrev main_c_2 : Ref sig .tc := ⟨.hbm, 66, rfl⟩
abbrev main_v19 : Ref sig .tc := ⟨.hbm, 67, rfl⟩
abbrev main_v20 : Ref sig .tc := ⟨.hbm, 68, rfl⟩
abbrev main_c_3 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_c_4 : Ref sig .tc := ⟨.hbm, 73, rfl⟩
abbrev main_v24 : Ref sig .tc := ⟨.hbm, 74, rfl⟩
abbrev main_v25 : Ref sig .tc := ⟨.hbm, 75, rfl⟩
abbrev main_c_5 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_cst : Ref sig .tc := ⟨.hbm, 85, rfl⟩
abbrev main_v34 : Ref sig .tc := ⟨.hbm, 86, rfl⟩
abbrev main_v35 : Ref sig .tc := ⟨.hbm, 87, rfl⟩
abbrev main_call2_v0 : Ref sig .tc := ⟨.hbm, 88, rfl⟩
abbrev main_call2_cst : Ref sig .tc := ⟨.hbm, 89, rfl⟩
abbrev main_call2_v1 : Ref sig .tc := ⟨.hbm, 90, rfl⟩
abbrev main_call2_v2 : Ref sig .tc := ⟨.hbm, 91, rfl⟩
abbrev main_v36 : Ref sig .tc := ⟨.hbm, 92, rfl⟩
abbrev main_call3_v0 : Ref sig .tc := ⟨.hbm, 93, rfl⟩
abbrev main_call3_cst : Ref sig .tc := ⟨.hbm, 94, rfl⟩
abbrev main_call3_v1 : Ref sig .tc := ⟨.hbm, 95, rfl⟩
abbrev main_call3_v2 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_cst_6 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩

abbrev nD : Nat := 1
abbrev τ : Topo := Topo.v7x

variable {F : FTy → Type} [FloatOps F]

class Facts₀ : Prop where
  bcast_S1x10000_S1x1x10000_1_2 : S1x10000.BroadcastsInDim S1x1x10000 (![1, 2] : Fin 2 → Fin S1x1x10000.rank)
  bcast_S1x1x10000_S1024x4x10000_0_1_2 : S1x1x10000.BroadcastsInDim S1024x4x10000 (![0, 1, 2] : Fin 3 → Fin S1024x4x10000.rank)
  bcast_S_S10000 : S_.BroadcastsInDim S10000 (![] : Fin 0 → Fin S10000.rank)
  bcast_S4_S4x1_0 : S4.BroadcastsInDim S4x1 (![0] : Fin 1 → Fin S4x1.rank)
  bcast_S10000_S1x10000_1 : S10000.BroadcastsInDim S1x10000 (![1] : Fin 1 → Fin S1x10000.rank)
  bcast_S4x1_S4x10000_0_1 : S4x1.BroadcastsInDim S4x10000 (![0, 1] : Fin 2 → Fin S4x10000.rank)
  bcast_S1x10000_S4x10000_0_1 : S1x10000.BroadcastsInDim S4x10000 (![0, 1] : Fin 2 → Fin S4x10000.rank)
  bcast_S_S4x10000 : S_.BroadcastsInDim S4x10000 (![] : Fin 0 → Fin S4x10000.rank)
  bcast_S_S1x10000 : S_.BroadcastsInDim S1x10000 (![] : Fin 0 → Fin S1x10000.rank)
  bcast_S4x10000_S4x10000x1_0_1 : S4x10000.BroadcastsInDim S4x10000x1 (![0, 1] : Fin 2 → Fin S4x10000x1.rank)
  concatenates_S4x10000x1_S4x10000x1_S4x10000x2_d2 : Shape.Concatenates [S4x10000x1, S4x10000x1] S4x10000x2 2
  reducesTo_S1024x4x10000_S1024x10000_d1 : S1024x4x10000.ReducesTo [1] S1024x10000
  h_S_ : 0 < S_.numel
  reducesTo_S1024x10000_S1024_d1 : S1024x10000.ReducesTo [1] S1024
  bcast_S1024_S1024x1_0 : S1024.BroadcastsInDim S1024x1 (![0] : Fin 1 → Fin S1024x1.rank)
  reducesTo_S64x10000_S64_d1 : S64x10000.ReducesTo [1] S64
  bcast_S64_S64x1_0 : S64.BroadcastsInDim S64x1 (![0] : Fin 1 → Fin S64x1.rank)
  transposes_S64x10000_S10000x64_1_0 : S64x10000.Transposes [1, 0] S10000x64
  transposes_S64x1_S1x64_1_0 : S64x1.Transposes [1, 0] S1x64
  bcast_S1024x1_S1024x64_0_1 : S1024x1.BroadcastsInDim S1024x64 (![0, 1] : Fin 2 → Fin S1024x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  dot_S1024x4x64_S10000x64_S1024x4x10000_2_1_01_0_n_n_wf : DotDims.WF S1024x4x64 S10000x64 S1024x4x10000 [2] [1] [0, 1] [0] [] []
  gather_S1024x4x10000_S4x10000x2_S1024x4x10000_0_12_n_n_12_2_102411_wf : GatherDims.WF S1024x4x10000 S4x10000x2 S1024x4x10000 [0] [1, 2] [] [1, 2] [] 2 ![1024, 1, 1]
  dot_S1024x10000_S10000x64_S1024x64_1_0_0_1_n_n_wf : DotDims.WF S1024x10000 S10000x64 S1024x64 [1] [0] [0] [1] [] []

variable [Facts₀]

def dot_S1024x4x64_S10000x64_S1024x4x10000_2_1_01_0_n_n : DotDims S1024x4x64 S10000x64 S1024x4x10000 where
  lhsContracting := [2]
  rhsContracting := [1]
  lhsNonContracting := [0, 1]
  rhsNonContracting := [0]
  lhsBatch := []
  rhsBatch := []
  wf := dot_S1024x4x64_S10000x64_S1024x4x10000_2_1_01_0_n_n_wf
def gather_S1024x4x10000_S4x10000x2_S1024x4x10000_0_12_n_n_12_2_102411 : GatherDims S1024x4x10000 S4x10000x2 S1024x4x10000 where
  offsetDims := [0]
  collapsedSliceDims := [1, 2]
  operandBatchingDims := []
  startIndicesBatchingDims := []
  startIndexMap := [1, 2]
  indexVectorDim := 2
  sliceSizes := ![1024, 1, 1]
  wf := gather_S1024x4x10000_S4x10000x2_S1024x4x10000_0_12_n_n_12_2_102411_wf
def dot_S1024x10000_S10000x64_S1024x64_1_0_0_1_n_n : DotDims S1024x10000 S10000x64 S1024x64 where
  lhsContracting := [1]
  rhsContracting := [0]
  lhsNonContracting := [0]
  rhsNonContracting := [1]
  lhsBatch := []
  rhsBatch := []
  wf := dot_S1024x10000_S10000x64_S1024x64_1_0_0_1_n_n_wf

class Facts : Prop extends Facts₀ where

variable [Facts]
-- ==== Proof.Pieces.lean ====
/-
  What one grid point leaves in the three accumulators and in the output block, as pure functions of the blocks it is
  handed: with x0 the block of 256 samples, x1 the tile of 1024 directions, x2 their phases and x3 the tile of the
  class vectors, a point adds to the first accumulator the product of the quantised encoding with the class tile, to
  the second the squared length of the quantised encoding along the tile, to the third the squared length of the class
  vectors along the tile; at the first tile the accumulators start from zero, and at the last tile the output block is
  the first accumulator divided by the product of the square roots of the other two plus the additive literal.
-/
import proofs.«156150_g34050500723079_cont_8to1_b_1240_2_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem

namespace Cert.KernelIdeal.Pieces

open Cert.KernelIdeal Cert.KernelIdeal.Gen

variable {F : FTy → Type} [FloatOps F]
variable (c : Dev nD) (i : grid0.Coords)
  (arg2 : Memref sig .tc .vmem S256x4x64 .f32) (harg2 : arg2.IsWhole) (arg3 : Memref sig .tc .vmem S1024x64 .f32) (harg3 : arg3.IsWhole)
  (arg4 : Memref sig .tc .vmem S1x1024 .f32) (harg4 : arg4.IsWhole) (arg5 : Memref sig .tc .vmem S64x1024 .f32) (harg5 : arg5.IsWhole)
  (arg6 : Memref sig .tc .vmem S256x64 .f32) (harg6 : arg6.IsWhole) (arg7 : Memref sig .tc .vmem S256x64 .f32) (harg7 : arg7.IsWhole)
  (arg8 : Memref sig .tc .vmem S256x1 .f32) (harg8 : arg8.IsWhole) (arg9 : Memref sig .tc .vmem S1x64 .f32) (harg9 : arg9.IsWhole)
  (x0 : Vec F S256x4x64 .f32) (x1 : Vec F S1024x64 .f32) (x2 : Vec F S1x1024 .f32) (x3 : Vec F S64x1024 .f32)
  (xs0 : Vec F S256x64 .f32) (xs1 : Vec F S256x1 .f32) (xs2 : Vec F S1x64 .f32)

theorem hz2 : (![0, 0] : Fin 2 → Nat) = fun _ => 0 := funext fun a => by fin_cases a <;> rfl

theorem hz3 : (![0, 0, 0] : Fin 3 → Nat) = fun _ => 0 := funext fun a => by fin_cases a <;> rfl

/-- Channel `0` … `3` of the sample block: the rows of the block at that channel. -/
def ch0 (x0 : Vec F S256x4x64 .f32) : Vec F S256x1x64 .f32 :=
  View.ld x0 (Rect.unit (s := S256x4x64) ![0, 0, 0] S256x1x64.size inb_S256x4x64_S256x1x64_0_0_0)
def ch1 (x0 : Vec F S256x4x64 .f32) : Vec F S256x1x64 .f32 :=
  View.ld x0 (Rect.unit (s := S256x4x64) ![0, 1, 0] S256x1x64.size inb_S256x4x64_S256x1x64_0_1_0)
def ch2 (x0 : Vec F S256x4x64 .f32) : Vec F S256x1x64 .f32 :=
  View.ld x0 (Rect.unit (s := S256x4x64) ![0, 2, 0] S256x1x64.size inb_S256x4x64_S256x1x64_0_2_0)
def ch3 (x0 : Vec F S256x4x64 .f32) : Vec F S256x1x64 .f32 :=
  View.ld x0 (Rect.unit (s := S256x4x64) ![0, 3, 0] S256x1x64.size inb_S256x4x64_S256x1x64_0_3_0)

/-- The first three channels' sines added up, over the tile. -/
def part3 (x0 : Vec F S256x4x64 .f32) (x1 : Vec F S1024x64 .f32) (x2 : Vec F S1x1024 .f32) : FVec F S256x1024 .f32 :=
  k0_pay8 x1 x2 (ch0 x0) (ch1 x0) (ch2 x0)

/-- The quantised encoding of the sample block along the tile. -/
def qblk (x0 : Vec F S256x4x64 .f32) (x1 : Vec F S1024x64 .f32) (x2 : Vec F S1x1024 .f32) : FVec F S256x1024 .f32 :=
  k0_pay9 (k0_pay6 x1) (k0_pay7 x2) (part3 x0 x1 x2) (ch3 x0)

/-- One point's update of the inner-product accumulator. -/
def step0 (x0 : Vec F S256x4x64 .f32) (x1 : Vec F S1024x64 .f32) (x2 : Vec F S1x1024 .f32) (x3 : Vec F S64x1024 .f32)
    (acc : Vec F S256x64 .f32) : Vec F S256x64 .f32 :=
  k0_pay12 (k0_pay6 x1) (k0_pay7 x2) (part3 x0 x1 x2) (ch3 x0) x3 acc

/-- One point's update of the accumulator of the encoding's squared length. -/
def step1 (x0 : Vec F S256x4x64 .f32) (x1 : Vec F S1024x64 .f32) (x2 : Vec F S1x1024 .f32)
    (acc : Vec F S256x1 .f32) : Vec F S256x1 .f32 :=
  k0_pay10 (k0_pay6 x1) (k0_pay7 x2) (part3 x0 x1 x2) (ch3 x0) acc

/-- One point's update of the accumulator of the class vectors' squared lengths. -/
def step2 (x3 : Vec F S64x1024 .f32) (acc : Vec F S1x64 .f32) : Vec F S1x64 .f32 :=
  k0_pay1 acc (k0_pay13 x3)

/-! ## A channel of the block read at an index: row `r`, feature `f` of channel `c` is the block's entry `(r, c, f)` -/

theorem ch0_apply (x0 : Vec F S256x4x64 .f32) (r : Fin 256) (f : Fin 64) :
    ch0 x0 (ValueIdx.ix3 r (0 : Fin 1) f) = x0 (ValueIdx.ix3 r (0 : Fin 4) f) := by
  show x0 _ = x0 _
  refine congrArg x0 (funext fun a => Fin.ext ?_)
  match a with
  | ⟨0, _⟩ => show 0 + 1 * r.val = r.val; omega
  | ⟨1, _⟩ => show 0 + 1 * 0 = 0; rfl
  | ⟨2, _⟩ => show 0 + 1 * f.val = f.val; omega

theorem ch1_apply (x0 : Vec F S256x4x64 .f32) (r : Fin 256) (f : Fin 64) :
    ch1 x0 (ValueIdx.ix3 r (0 : Fin 1) f) = x0 (ValueIdx.ix3 r (1 : Fin 4) f) := by
  show x0 _ = x0 _
  refine congrArg x0 (funext fun a => Fin.ext ?_)
  match a with
  | ⟨0, _⟩ => show 0 + 1 * r.val = r.val; omega
  | ⟨1, _⟩ => show 1 + 1 * 0 = 1; rfl
  | ⟨2, _⟩ => show 0 + 1 * f.val = f.val; omega

theorem ch2_apply (x0 : Vec F S256x4x64 .f32) (r : Fin 256) (f : Fin 64) :
    ch2 x0 (ValueIdx.ix3 r (0 : Fin 1) f) = x0 (ValueIdx.ix3 r (2 : Fin 4) f) := by
  show x0 _ = x0 _
  refine congrArg x0 (funext fun a => Fin.ext ?_)
  match a with
  | ⟨0, _⟩ => show 0 + 1 * r.val = r.val; omega
  | ⟨1, _⟩ => show 2 + 1 * 0 = 2; rfl
  | ⟨2, _⟩ => show 0 + 1 * f.val = f.val; omega

theorem ch3_apply (x0 : Vec F S256x4x64 .f32) (r : Fin 256) (f : Fin 64) :
    ch3 x0 (ValueIdx.ix3 r (0 : Fin 1) f) = x0 (ValueIdx.ix3 r (3 : Fin 4) f) := by
  show x0 _ = x0 _
  refine congrArg x0 (funext fun a => Fin.ext ?_)
  match a with
  | ⟨0, _⟩ => show 0 + 1 * r.val = r.val; omega
  | ⟨1, _⟩ => show 3 + 1 * 0 = 3; rfl
  | ⟨2, _⟩ => show 0 + 1 * f.val = f.val; omega

/-! ## Case A: the first tile — the accumulators are zeroed, read back, and added into -/

theorem sout_A_0 (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 = step0 x0 x1 x2 x3 k0_pay3 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S256x64) hz2]
  simp only [View.readCov_unit_zero (S := S256x64) _ hz2, View.readCov_unit_zero (S := S256x1) _ hz2, View.readCov_unit_zero (S := S1x64) _ hz2]
  simp only [View.readAt_eq_ld, harg2.read_unread, harg3.read_unread, harg4.read_unread, harg5.read_unread, harg7.read_unread, harg8.read_unread, harg9.read_unread,
    View.ld_unit_zero (S := S1024x64) hz2, View.ld_unit_zero (S := S1x1024) hz2, View.ld_unit_zero (S := S64x1024) hz2, View.ld_unit_zero (S := S256x64) hz2,
    View.ld_unit_zero (S := S256x1) hz2, View.ld_unit_zero (S := S1x64) hz2]
  rfl

theorem sout_A_1 (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 x3 = step1 x0 x1 x2 k0_pay4 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S256x1) hz2]
  simp only [View.readCov_unit_zero (S := S256x64) _ hz2, View.readCov_unit_zero (S := S256x1) _ hz2, View.readCov_unit_zero (S := S1x64) _ hz2]
  simp only [View.readAt_eq_ld, harg2.read_unread, harg3.read_unread, harg4.read_unread, harg5.read_unread, harg7.read_unread, harg8.read_unread, harg9.read_unread,
    View.ld_unit_zero (S := S1024x64) hz2, View.ld_unit_zero (S := S1x1024) hz2, View.ld_unit_zero (S := S64x1024) hz2, View.ld_unit_zero (S := S256x64) hz2,
    View.ld_unit_zero (S := S256x1) hz2, View.ld_unit_zero (S := S1x64) hz2]
  rfl

theorem sout_A_2 (hc0 : cond0_0 i) (hc1 : ¬cond0_1 i) :
    sout0_A_2 c i arg2 harg2 arg3 harg3 arg4 harg4 arg5 harg5 arg6 harg6 arg7 harg7 arg8 harg8 arg9 harg9 hc0 hc1 x0 x1 x2 x3 = step2 x3 k0_pay5 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x64) hz2]
  simp only [View.readCov_unit_zero (S := S256x64) _ hz2, View.readCov_unit_zero (S := S256x1) _ hz2, View.readCov_unit_zero (S := S1x64) _ hz2]
  simp only [View.readAt_eq_ld, harg2.read_unread, harg3.read_unread, harg4.read_unread, harg5.read_unread, harg7.read_unread, harg8.read_unread, harg9.read_unread,
    View.ld_unit_zero (S := S1024x64) hz2, View.ld_unit_zero (S := S1x1024) hz2, View.ld_unit_zero (S := S64x1024) hz2, View.ld_unit_zero (S := S256x64) hz2,
    View.ld_unit_zero (S := S256x1) hz2, View.ld_unit_zero (S := S1x64) hz2]
  rfl

/-! ## Case B -/

theorem sout_B_0 (hc0 : ¬cond0_0 i) (hc1 : ¬cond0_1 i) :
    sout0_B_0 c i arg2 harg2 arg3 harg3 arg4 harg4 arg5 harg5 arg6 harg6 arg7 harg7 arg8 harg8 arg9 harg9 hc0 hc1 x0 x1 x2 x3 xs0 xs1 xs2 = step0 x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread,
    View.ld_unit_zero (S := S1024x64) hz2, View.ld_unit_zero (S := S1x1024) hz2, View.ld_unit_zero (S := S64x1024) hz2, View.ld_unit_zero (S := S256x64) hz2,
    View.ld_unit_zero (S := S256x1) hz2, View.ld_unit_zero (S := S1x64) hz2]
  rfl

theorem sout_B_1 (hc0 : ¬cond0_0 i) (hc1 : ¬cond0_1 i) :
    sout0_B_1 c i arg2 harg2 arg3 harg3 arg4 harg4 arg5 harg5 arg6 harg6 arg7 harg7 arg8 harg8 arg9 harg9 hc0 hc1 x0 x1 x2 x3 xs0 xs1 xs2 = step1 x0 x1 x2 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread,
    View.ld_unit_zero (S := S1024x64) hz2, View.ld_unit_zero (S := S1x1024) hz2, View.ld_unit_zero (S := S64x1024) hz2, View.ld_unit_zero (S := S256x64) hz2,
    View.ld_unit_zero (S := S256x1) hz2, View.ld_unit_zero (S := S1x64) hz2]
  rfl

theorem sout_B_2 (hc0 : ¬cond0_0 i) (hc1 : ¬cond0_1 i) :
    sout0_B_2 c i arg2 harg2 arg3 harg3 arg4 harg4 arg5 harg5 arg6 harg6 arg7 harg7 arg8 harg8 arg9 harg9 hc0 hc1 x0 x1 x2 x3 xs0 xs1 xs2 = step2 x3 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread,
    View.ld_unit_zero (S := S1024x64) hz2, View.ld_unit_zero (S := S1x1024) hz2, View.ld_unit_zero (S := S64x1024) hz2, View.ld_unit_zero (S := S256x64) hz2,
    View.ld_unit_zero (S := S256x1) hz2, View.ld_unit_zero (S := S1x64) hz2]
  rfl

/-! ## Case C -/

theorem sout_C_0 (hc0 : ¬cond0_0 i) (hc1 : cond0_1 i) :
    sout0_C_0 c i arg2 harg2 arg3 harg3 arg4 harg4 arg5 harg5 arg6 harg6 arg7 harg7 arg8 harg8 arg9 harg9 hc0 hc1 x0 x1 x2 x3 xs0 xs1 xs2 = step0 x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread,
    View.ld_unit_zero (S := S1024x64) hz2, View.ld_unit_zero (S := S1x1024) hz2, View.ld_unit_zero (S := S64x1024) hz2, View.ld_unit_zero (S := S256x64) hz2,
    View.ld_unit_zero (S := S256x1) hz2, View.ld_unit_zero (S := S1x64) hz2]
  rfl

theorem sout_C_1 (hc0 : ¬cond0_0 i) (hc1 : cond0_1 i) :
    sout0_C_1 c i arg2 harg2 arg3 harg3 arg4 harg4 arg5 harg5 arg6 harg6 arg7 harg7 arg8 harg8 arg9 harg9 hc0 hc1 x0 x1 x2 x3 xs0 xs1 xs2 = step1 x0 x1 x2 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread,
    View.ld_unit_zero (S := S1024x64) hz2, View.ld_unit_zero (S := S1x1024) hz2, View.ld_unit_zero (S := S64x1024) hz2, View.ld_unit_zero (S := S256x64) hz2,
    View.ld_unit_zero (S := S256x1) hz2, View.ld_unit_zero (S := S1x64) hz2]
  rfl

theorem sout_C_2 (hc0 : ¬cond0_0 i) (hc1 : cond0_1 i) :
    sout0_C_2 c i arg2 harg2 arg3 harg3 arg4 harg4 arg5 harg5 arg6 harg6 arg7 harg7 arg8 harg8 arg9 harg9 hc0 hc1 x0 x1 x2 x3 xs0 xs1 xs2 = step2 x3 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread,
    View.ld_unit_zero (S := S1024x64) hz2, View.ld_unit_zero (S := S1x1024) hz2, View.ld_unit_zero (S := S64x1024) hz2, View.ld_unit_zero (S := S256x64) hz2,
    View.ld_unit_zero (S := S256x1) hz2, View.ld_unit_zero (S := S1x64) hz2]
  rfl

/-- At the last tile the output block is the quotient of the three accumulators just updated. -/
theorem out_C_4 (hc0 : ¬cond0_0 i) (hc1 : cond0_1 i) :
    out0_C_4 c i arg2 harg2 arg3 harg3 arg4 harg4 arg5 harg5 arg6 harg6 arg7 harg7 arg8 harg8 arg9 harg9 hc0 hc1 x0 x1 x2 x3 xs0 xs1 xs2 = k0_pay2 (step1 x0 x1 x2 xs1) (step2 x3 xs2) (step0 x0 x1 x2 x3 xs0) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readCov_unit_zero (S := S256x64) _ hz2, View.readCov_unit_zero (S := S256x1) _ hz2, View.readCov_unit_zero (S := S1x64) _ hz2]
  simp only [View.readAt_eq_ld, harg2.read_unread, harg3.read_unread, harg4.read_unread, harg5.read_unread, harg7.read_unread, harg8.read_unread, harg9.read_unread,
    View.ld_unit_zero (S := S1024x64) hz2, View.ld_unit_zero (S := S1x1024) hz2, View.ld_unit_zero (S := S64x1024) hz2, View.ld_unit_zero (S := S256x64) hz2,
    View.ld_unit_zero (S := S256x1) hz2, View.ld_unit_zero (S := S1x64) hz2]
  rfl

end Cert.KernelIdeal.Pieces
end
-- ==== Proof.Spec.lean ====
/-
  The function both programs compute, written once over the four argument arrays and read index by index.

  With x : [1024, 4, 64] the samples, E : [10000, 64] the encoder weights, β : [1, 10000] the phases and
  W : [64, 10000] the class weights:
    proj b c d   = Σ_f x[b,c,f] · E[d,f]                         (the projection of channel c of sample b on direction d)
    summed b d   = Σ_c cos (proj b c d + β_d) · sin (proj b c d)   (the channels added up)
    quant b d    = tanh (summed b d)
    out b k      = (Σ_d quant b d · W[k,d]) / (√(Σ_d quant b d²) · √(Σ_d W[k,d]²) + ε)
  — a cosine similarity of the quantised encoding with each class vector, ε the shared literal.
-/
import Idealize.ShloMosaic.PureOps.Ideal
import Idealize.ShloMosaic.Lib.ValueIdx

open scoped BigOperators

noncomputable section

namespace Cert.Spec

open Idealize.ShloMosaic Idealize.ShloMosaic.ValueIdx

abbrev SX : Shape := ⟨3, ![1024, 4, 64]⟩
abbrev SE : Shape := ⟨2, ![10000, 64]⟩
abbrev SB : Shape := ⟨2, ![1, 10000]⟩
abbrev SW : Shape := ⟨2, ![64, 10000]⟩
abbrev SO : Shape := ⟨2, ![1024, 64]⟩

/-- The shared additive literal of the denominator. -/
def eps : EReal := Ideal.ofBits .f32 0x2B8CBCCC#32

variable (x : SX.Idx → EReal) (E : SE.Idx → EReal) (β : SB.Idx → EReal) (W : SW.Idx → EReal)

/-- Channel `c` of sample `b` projected on direction `d`. -/
def proj (b : Fin 1024) (c : Fin 4) (d : Fin 10000) : EReal :=
  ∑ f : Fin 64, x (ix3 b c f) * E (ix2 d f)

/-- One channel's encoding: cosine of the shifted projection times sine of the projection. -/
def enc (b : Fin 1024) (c : Fin 4) (d : Fin 10000) : EReal :=
  Ideal.cos (proj x E b c d + β (ix2 (0 : Fin 1) d)) * Ideal.sin (proj x E b c d)

/-- The four channels added. -/
def summed (b : Fin 1024) (d : Fin 10000) : EReal := ∑ c : Fin 4, enc x E β b c d

/-- The quantised encoding. -/
def quant (b : Fin 1024) (d : Fin 10000) : EReal := Ideal.tanh (summed x E β b d)

/-- The inner product of the quantised encoding with class `k`. -/
def num (b : Fin 1024) (k : Fin 64) : EReal := ∑ d : Fin 10000, quant x E β b d * W (ix2 k d)

/-- The squared length of the quantised encoding of sample `b`. -/
def qn2 (b : Fin 1024) : EReal := ∑ d : Fin 10000, quant x E β b d * quant x E β b d

/-- The squared length of class vector `k`. -/
def wn2 (k : Fin 64) : EReal := ∑ d : Fin 10000, W (ix2 k d) * W (ix2 k d)

/-- The result at sample `b`, class `k`. -/
def out (b : Fin 1024) (k : Fin 64) : EReal :=
  Ideal.div (num x E β W b k) (Ideal.sqrt (qn2 x E β b) * Ideal.sqrt (wn2 W k) + eps)

/-- The result array. -/
def G : SO.Idx → EReal := fun i => out x E β W (i 0) (i 1)

theorem G_ix2 (b : Fin 1024) (k : Fin 64) : G x E β W (ix2 b k) = out x E β W b k := rfl

end Cert.Spec

end
-- ==== Proof.SpecK.lean ====
/-
  The same result as the tiled program accumulates it: over arrays padded along the direction axis from 10000 to
  10240 = 10 · 1024 columns, the encoding written with the doubled angle,
    summedK b n = ½ · ((((0 + sin (2·p₀ + β)) + sin (2·p₁ + β)) + sin (2·p₂ + β)) + sin (2·p₃ + β)) − 2 · sin β,
  and the three sums over directions taken tile by tile (ten tiles of 1024 columns).
-/
import Idealize.ShloMosaic.PureOps.Ideal
import Idealize.ShloMosaic.Lib.ValueIdx
import proofs.«156150_g34050500723079_cont_8to1_b_1240_2_alg».proof.Proof.Spec

open scoped BigOperators

noncomputable section

namespace Cert.Spec

open Idealize.ShloMosaic Idealize.ShloMosaic.ValueIdx

abbrev SEp : Shape := ⟨2, ![10240, 64]⟩
abbrev SBp : Shape := ⟨2, ![1, 10240]⟩
abbrev SWp : Shape := ⟨2, ![64, 10240]⟩

/-- The literals of the tiled program: one half, two, zero. -/
def half : EReal := Ideal.ofBits .f32 0x3F000000#32
def two : EReal := Ideal.ofBits .f32 0x40000000#32
def zero : EReal := Ideal.ofBits .f32 0x00000000#32

/-- Column `j` of tile `dd`. -/
def col (dd : Fin 10) (j : Fin 1024) : Fin 10240 := ⟨1024 * dd.val + j.val, by have := dd.isLt; have := j.isLt; omega⟩

variable (x : SX.Idx → EReal) (Ep : SEp.Idx → EReal) (Bp : SBp.Idx → EReal) (Wp : SWp.Idx → EReal)

def projK (b : Fin 1024) (c : Fin 4) (n : Fin 10240) : EReal :=
  ∑ f : Fin 64, x (ix3 b c f) * Ep (ix2 n f)

def sinK (b : Fin 1024) (c : Fin 4) (n : Fin 10240) : EReal :=
  Ideal.sin (two * projK x Ep b c n + Bp (ix2 (0 : Fin 1) n))

def summedK (b : Fin 1024) (n : Fin 10240) : EReal :=
  half * ((((zero + sinK x Ep Bp b 0 n) + sinK x Ep Bp b 1 n) + sinK x Ep Bp b 2 n) + sinK x Ep Bp b 3 n)
    - two * Ideal.sin (Bp (ix2 (0 : Fin 1) n))

def quantK (b : Fin 1024) (n : Fin 10240) : EReal := Ideal.tanh (summedK x Ep Bp b n)

/-- One tile's contribution to the inner product with class `k`. -/
def numTile (b : Fin 1024) (k : Fin 64) (dd : Fin 10) : EReal :=
  ∑ j : Fin 1024, quantK x Ep Bp b (col dd j) * Wp (ix2 k (col dd j))

def qn2Tile (b : Fin 1024) (dd : Fin 10) : EReal :=
  ∑ j : Fin 1024, quantK x Ep Bp b (col dd j) * quantK x Ep Bp b (col dd j)

def wn2Tile (k : Fin 64) (dd : Fin 10) : EReal :=
  ∑ j : Fin 1024, Wp (ix2 k (col dd j)) * Wp (ix2 k (col dd j))

def numK (b : Fin 1024) (k : Fin 64) : EReal := ∑ dd : Fin 10, numTile x Ep Bp Wp b k dd
def qn2K (b : Fin 1024) : EReal := ∑ dd : Fin 10, qn2Tile x Ep Bp b dd
def wn2K (k : Fin 64) : EReal := ∑ dd : Fin 10, wn2Tile Wp k dd

def outK (b : Fin 1024) (k : Fin 64) : EReal :=
  Ideal.div (numK x Ep Bp Wp b k) (Ideal.sqrt (qn2K x Ep Bp b) * Ideal.sqrt (wn2K Wp k) + eps)

/-- What it means for `Ap` to be `A` padded with zeros along an axis from 10000 to 10240: stated per array. -/
def PadE (E : SE.Idx → EReal) : Prop :=
  ∀ (n : Fin 10240) (f : Fin 64), Ep (ix2 n f) = if h : n.val < 10000 then E (ix2 (⟨n.val, h⟩ : Fin 10000) f) else 0
def PadB (β : SB.Idx → EReal) : Prop :=
  ∀ (n : Fin 10240), Bp (ix2 (0 : Fin 1) n) = if h : n.val < 10000 then β (ix2 (0 : Fin 1) (⟨n.val, h⟩ : Fin 10000)) else 0
def PadW (W : SW.Idx → EReal) : Prop :=
  ∀ (k : Fin 64) (n : Fin 10240), Wp (ix2 k n) = if h : n.val < 10000 then W (ix2 k (⟨n.val, h⟩ : Fin 10000)) else 0

/-- An array all of whose entries are real numbers. -/
def Finite {s : Shape} (a : s.Idx → EReal) : Prop := ∀ i, ∃ r : ℝ, a i = (r : EReal)

end Cert.Spec

end
-- ==== Proof.PayA.lean ====
import proofs.«156150_g34050500723079_cont_8to1_b_1240_2_alg».proof.Proof.Gen.KernelIdeal.Skeleton
import proofs.«156150_g34050500723079_cont_8to1_b_1240_2_alg».proof.Proof.SpecK
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Pay

open Cert.KernelIdeal Cert.KernelIdeal.Gen Idealize.ShloMosaic Idealize.ShloMosaic.ValueIdx

/-! ## The casts to the same shape -/

theorem pay6_eq (v3 : Vec Ideal S1024x64 .f32) : k0_pay6 (F := Ideal) v3 = v3 := shapeCast_self _ _

theorem pay7_eq (v5 : Vec Ideal S1x1024 .f32) : k0_pay7 (F := Ideal) v5 = v5 := shapeCast_self _ _

/-! ## One channel's projection onto the direction tile -/

local notation "D₁" => dot_S256x64_S1024x64_S256x1024_1_1_0_0_n_n

/-- A `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- The left operand's index of the product at `(r, c)` and contraction coordinate `f` is `(r, f)`. -/
theorem D1_lhs (r : Fin 256) (c : Fin 1024) (f : Fin 64) :
    DotDims.lhsIdx D₁ (ix2 r c) ((contrEquiv1 D₁ 64 rfl rfl).symm f) = ix2 r f := by
  funext a
  match a with
  | ⟨0, _⟩ => exact Fin.ext rfl
  | ⟨1, _⟩ => exact Fin.ext ((DotDims.lhsIdx_val_of_single D₁ (cl := 1) rfl _ _).trans (contrEquiv1_symm_val D₁ 64 rfl rfl f))

/-- The right operand's index there is `(c, f)`: the right operand enters transposed. -/
theorem D1_rhs (r : Fin 256) (c : Fin 1024) (f : Fin 64) :
    DotDims.rhsIdx D₁ (ix2 r c) ((contrEquiv1 D₁ 64 rfl rfl).symm f) = ix2 c f := by
  funext a
  match a with
  | ⟨0, _⟩ => exact Fin.ext rfl
  | ⟨1, _⟩ => exact Fin.ext ((DotDims.rhsIdx_val_of_single D₁ (cr := 1) rfl _ _).trans (contrEquiv1_symm_val D₁ 64 rfl rfl f))

/-- The product of a `[256, 64]` array by the transpose of a `[1024, 64]` one into the zero accumulator, at `(r, c)`. -/
theorem matmul1_apply (l : FVec Ideal S256x64 .f32) (w : FVec Ideal S1024x64 .f32) (r : Fin 256) (c : Fin 1024) :
    matmul (F := Ideal) D₁ none l w (constant (F := Ideal) S256x1024 .f32 0x00000000#32) (ix2 r c)
      = ∑ f : Fin 64, l (ix2 r f) * w (ix2 c f) := by
  refine (Ideal.matmul_constant_zero_apply D₁ none l w (ix2 r c)).trans ?_
  refine (Equiv.sum_comp (contrEquiv1 D₁ 64 rfl rfl).symm _).symm.trans ?_
  refine Finset.sum_congr rfl fun f _ => ?_
  rw [D1_lhs, D1_rhs]

/-- One direction tile's projection: the rows of a `[256, 1, 64]` slab against the rows of `w`. -/
theorem proj_apply (x : Vec Ideal S256x1x64 .f32) (w : FVec Ideal S1024x64 .f32) (r : Fin 256) (c : Fin 1024) :
    matmul (F := Ideal) D₁ none (shapeCast S256x64 x shapeCasts_S256x1x64_S256x64 : FVec Ideal S256x64 .f32) w
        (constant (F := Ideal) S256x1024 .f32 0x00000000#32) (ix2 r c)
      = ∑ f : Fin 64, x (ix3 r (0 : Fin 1) f) * w (ix2 c f) := by
  refine (matmul1_apply _ w r c).trans ?_
  refine Finset.sum_congr rfl fun f _ => ?_
  exact congrArg (· * w (ix2 c f)) (shapeCast_a1b_ab_apply x _ r f)

/-- One channel's term of the encoding at `(r, c)`: the sine of twice the projection plus the phase. -/
theorem term_apply (x : Vec Ideal S256x1x64 .f32) (w : FVec Ideal S1024x64 .f32) (β : FVec Ideal S1x1024 .f32) (r : Fin 256) (c : Fin 1024) :
    sin (F := Ideal) (addf (mulf (broadcast S256x1024 (Scalar.ofBits (F := Ideal) .f32 0x40000000#32))
          (matmul (F := Ideal) D₁ none (shapeCast S256x64 x shapeCasts_S256x1x64_S256x64 : FVec Ideal S256x64 .f32) w
            (constant (F := Ideal) S256x1024 .f32 0x00000000#32)))
        (broadcastTo S256x1024 β broadcasts_S1x1024_S256x1024)) (ix2 r c)
      = Ideal.sin (Cert.Spec.two * (∑ f : Fin 64, x (ix3 r (0 : Fin 1) f) * w (ix2 c f)) + β (ix2 (0 : Fin 1) c)) := by
  refine congrArg Ideal.sin ?_
  refine congrArg₂ (fun x y => Cert.Spec.two * x + y) ?_ ?_
  · exact proj_apply x w r c
  · exact broadcastTo_1b_ab_apply _ _ r c

/-! ## The encoding -/

/-- The first three channels' terms, summed from zero. -/
theorem pay8_apply (v3 : Vec Ideal S1024x64 .f32) (v5 : Vec Ideal S1x1024 .f32) (v8 v17 v26 : Vec Ideal S256x1x64 .f32) (r : Fin 256) (j : Fin 1024) :
    k0_pay8 (F := Ideal) v3 v5 v8 v17 v26 (ix2 r j)
      = ((Cert.Spec.zero + Ideal.sin (Cert.Spec.two * (∑ f : Fin 64, v8 (ix3 r (0 : Fin 1) f) * v3 (ix2 j f)) + v5 (ix2 (0 : Fin 1) j)))
          + Ideal.sin (Cert.Spec.two * (∑ f : Fin 64, v17 (ix3 r (0 : Fin 1) f) * v3 (ix2 j f)) + v5 (ix2 (0 : Fin 1) j)))
          + Ideal.sin (Cert.Spec.two * (∑ f : Fin 64, v26 (ix3 r (0 : Fin 1) f) * v3 (ix2 j f)) + v5 (ix2 (0 : Fin 1) j)) := by
  unfold Gen.k0_pay8
  rw [pay6_eq, pay7_eq]
  refine congrArg₂ (· + ·) (congrArg₂ (· + ·) (congrArg (Cert.Spec.zero + ·) ?_) ?_) ?_
  · exact term_apply v8 v3 v5 r j
  · exact term_apply v17 v3 v5 r j
  · exact term_apply v26 v3 v5 r j

/-- The fourth channel's term joins them; the encoding is the hyperbolic tangent of half the sum less twice the phase's sine. -/
theorem pay9_apply (v4 : FVec Ideal S1024x64 .f32) (v6 : FVec Ideal S1x1024 .f32) (v34 : FVec Ideal S256x1024 .f32) (v35 : Vec Ideal S256x1x64 .f32) (r : Fin 256) (j : Fin 1024) :
    k0_pay9 (F := Ideal) v4 v6 v34 v35 (ix2 r j)
      = Ideal.tanh (Cert.Spec.half * (v34 (ix2 r j) + Ideal.sin (Cert.Spec.two * (∑ f : Fin 64, v35 (ix3 r (0 : Fin 1) f) * v4 (ix2 j f)) + v6 (ix2 (0 : Fin 1) j)))
                    - Cert.Spec.two * Ideal.sin (v6 (ix2 (0 : Fin 1) j))) := by
  unfold Gen.k0_pay9
  refine congrArg Ideal.tanh ?_
  refine congrArg₂ (fun x y => Cert.Spec.half * (v34 (ix2 r j) + Ideal.sin x) - y) ?_ ?_
  · refine congrArg₂ (fun x y => Cert.Spec.two * x + y) ?_ ?_
    · exact proj_apply v35 v4 r j
    · exact broadcastTo_1b_ab_apply _ _ r j
  · exact broadcastTo_1b_ab_apply _ _ r j

end Cert.KernelIdeal.Pay
-- ==== Proof.PayB.lean ====
import proofs.«156150_g34050500723079_cont_8to1_b_1240_2_alg».proof.Proof.Gen.KernelIdeal.Skeleton
import proofs.«156150_g34050500723079_cont_8to1_b_1240_2_alg».proof.Proof.SpecK
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Pay

open Cert.KernelIdeal Cert.KernelIdeal.Gen Idealize.ShloMosaic Idealize.ShloMosaic.ValueIdx

/-! ## Layout operations at an index: the column forms -/

/-- An `[a]` array cast to a column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a row `[1, a]` reads, at `(u, i)`, the operand at `(i, 0)`. -/
theorem shapeCast_a1_1a_apply {α : Type} {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the operand's one entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The casts to the same shape, and the zero splats -/

theorem pay11_eq (v60 : Vec Ideal S64x1024 .f32) : k0_pay11 (F := Ideal) v60 = v60 := shapeCast_self _ _

theorem pay3_apply (i : S256x64.Idx) : k0_pay3 (F := Ideal) i = Cert.Spec.zero := by
  unfold Gen.k0_pay3
  rw [shapeCast_self]
  rfl

theorem pay4_apply (i : S256x1.Idx) : k0_pay4 (F := Ideal) i = Cert.Spec.zero := by
  unfold Gen.k0_pay4
  rw [shapeCast_self]
  rfl

theorem pay5_apply (i : S1x64.Idx) : k0_pay5 (F := Ideal) i = Cert.Spec.zero := by
  unfold Gen.k0_pay5
  rw [shapeCast_self]
  rfl

/-! ## The lane sums -/

/-- The index a sum over the columns of a `[64, 1024]` array inserts at row `k`, column `j`. -/
theorem lift_S64x1024 (k : Fin 64) (j : Fin 1024) :
    reduces_S64x1024_S64.lift (ix1 k) j = ix2 k j := by
  funext a
  match a with
  | ⟨0, _⟩ => rfl
  | ⟨1, _⟩ => rfl

/-- The same for a `[256, 1024]` array. -/
theorem lift_S256x1024 (r : Fin 256) (j : Fin 1024) :
    reduces_S256x1024_S256.lift (ix1 r) j = ix2 r j := by
  funext a
  match a with
  | ⟨0, _⟩ => rfl
  | ⟨1, _⟩ => rfl

/-- The squared norm of row `k` of the class tile. -/
theorem pay13_apply (v60 : Vec Ideal S64x1024 .f32) (k : Fin 64) :
    k0_pay13 (F := Ideal) v60 (ix1 k) = ∑ j : Fin 1024, v60 (ix2 k j) * v60 (ix2 k j) := by
  unfold Gen.k0_pay13
  refine (Ideal.multiReduction_add_single _ 0x00000000#32 reduces_S64x1024_S64 (.inl rfl) rfl (ix1 k)).trans ?_
  refine Finset.sum_congr rfl fun j _ => ?_
  rw [pay11_eq]
  exact congrArg (fun i => v60 i * v60 i) (lift_S64x1024 k j)

/-- The running squared norm of row `r` of the encoding: what was there plus this tile's lane sum. -/
theorem pay10_apply (v4 : FVec Ideal S1024x64 .f32) (v6 : FVec Ideal S1x1024 .f32) (v34 : FVec Ideal S256x1024 .f32) (v35 : Vec Ideal S256x1x64 .f32) (v52 : Vec Ideal S256x1 .f32) (r : Fin 256) :
    k0_pay10 (F := Ideal) v4 v6 v34 v35 v52 (ix2 r (0 : Fin 1))
      = v52 (ix2 r (0 : Fin 1)) + ∑ j : Fin 1024, k0_pay9 (F := Ideal) v4 v6 v34 v35 (ix2 r j) * k0_pay9 (F := Ideal) v4 v6 v34 v35 (ix2 r j) := by
  unfold Gen.k0_pay10
  rw [shapeCast_self]
  refine congrArg (v52 (ix2 r (0 : Fin 1)) + ·) ?_
  refine (shapeCast_a_a1_apply _ _ r (0 : Fin 1)).trans ?_
  refine (Ideal.multiReduction_add_single _ 0x00000000#32 reduces_S256x1024_S256 (.inl rfl) rfl (ix1 r)).trans ?_
  refine Finset.sum_congr rfl fun j _ => ?_
  exact congrArg (fun i => k0_pay9 (F := Ideal) v4 v6 v34 v35 i * k0_pay9 (F := Ideal) v4 v6 v34 v35 i) (lift_S256x1024 r j)

/-! ## The product with the class tile -/

local notation "D₂" => dot_S256x1024_S64x1024_S256x64_1_1_0_0_n_n

/-- The left operand's index of the product at `(r, k)` and contraction coordinate `j` is `(r, j)`. -/
theorem D2_lhs (r : Fin 256) (k : Fin 64) (j : Fin 1024) :
    DotDims.lhsIdx D₂ (ix2 r k) ((contrEquiv1 D₂ 1024 rfl rfl).symm j) = ix2 r j := by
  funext a
  match a with
  | ⟨0, _⟩ => exact Fin.ext rfl
  | ⟨1, _⟩ => exact Fin.ext ((DotDims.lhsIdx_val_of_single D₂ (cl := 1) rfl _ _).trans (contrEquiv1_symm_val D₂ 1024 rfl rfl j))

/-- The right operand's index there is `(k, j)`: the right operand enters transposed. -/
theorem D2_rhs (r : Fin 256) (k : Fin 64) (j : Fin 1024) :
    DotDims.rhsIdx D₂ (ix2 r k) ((contrEquiv1 D₂ 1024 rfl rfl).symm j) = ix2 k j := by
  funext a
  match a with
  | ⟨0, _⟩ => exact Fin.ext rfl
  | ⟨1, _⟩ => exact Fin.ext ((DotDims.rhsIdx_val_of_single D₂ (cr := 1) rfl _ _).trans (contrEquiv1_symm_val D₂ 1024 rfl rfl j))

/-- The product of a `[256, 1024]` array by the transpose of a `[64, 1024]` one into the zero accumulator, at `(r, k)`. -/
theorem matmul2_apply (l : FVec Ideal S256x1024 .f32) (w : FVec Ideal S64x1024 .f32) (r : Fin 256) (k : Fin 64) :
    matmul (F := Ideal) D₂ none l w (constant (F := Ideal) S256x64 .f32 0x00000000#32) (ix2 r k)
      = ∑ j : Fin 1024, l (ix2 r j) * w (ix2 k j) := by
  refine (Ideal.matmul_constant_zero_apply D₂ none l w (ix2 r k)).trans ?_
  refine (Equiv.sum_comp (contrEquiv1 D₂ 1024 rfl rfl).symm _).symm.trans ?_
  refine Finset.sum_congr rfl fun j _ => ?_
  rw [D2_lhs, D2_rhs]

/-- The running inner product of row `r` of the encoding with class `k`: what was there plus this tile's part. -/
theorem pay12_apply (v4 : FVec Ideal S1024x64 .f32) (v6 : FVec Ideal S1x1024 .f32) (v34 : FVec Ideal S256x1024 .f32) (v35 : Vec Ideal S256x1x64 .f32) (v60 : Vec Ideal S64x1024 .f32) (v62 : Vec Ideal S256x64 .f32) (r : Fin 256) (k : Fin 64) :
    k0_pay12 (F := Ideal) v4 v6 v34 v35 v60 v62 (ix2 r k)
      = v62 (ix2 r k) + ∑ j : Fin 1024, k0_pay9 (F := Ideal) v4 v6 v34 v35 (ix2 r j) * v60 (ix2 k j) := by
  unfold Gen.k0_pay12
  rw [shapeCast_self, pay11_eq]
  exact congrArg (v62 (ix2 r k) + ·) (matmul2_apply _ v60 r k)

/-! ## The last step: the class norms gathered into a row, and the quotient -/

theorem pay1_apply (v68 : Vec Ideal S1x64 .f32) (v70 : FVec Ideal S64 .f32) (k : Fin 64) :
    k0_pay1 (F := Ideal) v68 v70 (ix2 (0 : Fin 1) k) = v68 (ix2 (0 : Fin 1) k) + v70 (ix1 k) := by
  unfold Gen.k0_pay1
  rw [shapeCast_self]
  refine congrArg (v68 (ix2 (0 : Fin 1) k) + ·) ?_
  refine (shapeCast_a1_1a_apply _ _ (0 : Fin 1) k).trans ?_
  exact shapeCast_a_a1_apply _ _ k (0 : Fin 1)

theorem pay2_apply (v80 : Vec Ideal S256x1 .f32) (v82 : Vec Ideal S1x64 .f32) (v84 : Vec Ideal S256x64 .f32) (r : Fin 256) (k : Fin 64) :
    k0_pay2 (F := Ideal) v80 v82 v84 (ix2 r k)
      = Ideal.div (v84 (ix2 r k)) (Ideal.sqrt (v80 (ix2 r (0 : Fin 1))) * Ideal.sqrt (v82 (ix2 (0 : Fin 1) k)) + Cert.Spec.eps) := by
  unfold Gen.k0_pay2
  refine congrArg (Ideal.div (v84 (ix2 r k))) ?_
  refine congrArg₂ (fun x y => x * y + Cert.Spec.eps) ?_ ?_
  · exact broadcastTo_a1_ab_apply _ _ r k
  · exact broadcastTo_1b_ab_apply _ _ r k

end Cert.KernelIdeal.Pay
-- ==== Proof.StepValue.lean ====
/-
  One grid point's three updates read at an index, when the blocks it is handed are pieces of the arrays: rows
  `row r` of the samples and columns `cl j` of the padded direction axis. The quantised encoding of the block is then
  the quantised encoding of the arrays at those rows and columns, and each accumulator grows by the tile's share of
  its sum.
-/
import proofs.«156150_g34050500723079_cont_8to1_b_1240_2_alg».proof.Proof.Pieces
import proofs.«156150_g34050500723079_cont_8to1_b_1240_2_alg».proof.Proof.PayA
import proofs.«156150_g34050500723079_cont_8to1_b_1240_2_alg».proof.Proof.PayB
import proofs.«156150_g34050500723079_cont_8to1_b_1240_2_alg».proof.Proof.SpecK

noncomputable section

open Idealize.ShloMosaic Idealize.ShloMosaic.ValueIdx
open scoped BigOperators

namespace Cert.KernelIdeal.Step

open Cert.KernelIdeal Cert.KernelIdeal.Gen Cert.KernelIdeal.Pieces

/- The blocks a point is handed are pieces of the arrays: rows `row r` of the samples, columns `cl j` of the padded
   direction axis. -/
variable (X : Cert.Spec.SX.Idx → EReal) (Ep : Cert.Spec.SEp.Idx → EReal) (Bp : Cert.Spec.SBp.Idx → EReal) (Wp : Cert.Spec.SWp.Idx → EReal)
  (row : Fin 256 → Fin 1024) (cl : Fin 1024 → Fin 10240)
  (x0 : Vec Ideal S256x4x64 .f32) (x1 : Vec Ideal S1024x64 .f32) (x2 : Vec Ideal S1x1024 .f32) (x3 : Vec Ideal S64x1024 .f32)

/-- The quantised encoding of the block is the quantised encoding of the arrays at the block's rows and columns. -/
theorem qblk_apply
    (h0 : ∀ (r : Fin 256) (cc : Fin 4) (f : Fin 64), x0 (ix3 r cc f) = X (ix3 (row r) cc f))
    (h1 : ∀ (j : Fin 1024) (f : Fin 64), x1 (ix2 j f) = Ep (ix2 (cl j) f))
    (h2 : ∀ (j : Fin 1024), x2 (ix2 (0 : Fin 1) j) = Bp (ix2 (0 : Fin 1) (cl j)))
    (r : Fin 256) (j : Fin 1024) :
    qblk (F := Ideal) x0 x1 x2 (ix2 r j) = Cert.Spec.quantK X Ep Bp (row r) (cl j) := by
  unfold qblk part3
  rw [Pay.pay9_apply, Pay.pay8_apply, Pay.pay6_eq, Pay.pay7_eq]
  simp only [ch0_apply, ch1_apply, ch2_apply, ch3_apply, h0, h1, h2]
  rfl

/-- One point adds to the inner-product accumulator the tile's share of the inner product. -/
theorem step0_apply
    (h0 : ∀ (r : Fin 256) (cc : Fin 4) (f : Fin 64), x0 (ix3 r cc f) = X (ix3 (row r) cc f))
    (h1 : ∀ (j : Fin 1024) (f : Fin 64), x1 (ix2 j f) = Ep (ix2 (cl j) f))
    (h2 : ∀ (j : Fin 1024), x2 (ix2 (0 : Fin 1) j) = Bp (ix2 (0 : Fin 1) (cl j)))
    (h3 : ∀ (k : Fin 64) (j : Fin 1024), x3 (ix2 k j) = Wp (ix2 k (cl j)))
    (acc : Vec Ideal S256x64 .f32) (r : Fin 256) (k : Fin 64) :
    step0 (F := Ideal) x0 x1 x2 x3 acc (ix2 r k)
      = acc (ix2 r k) + ∑ j : Fin 1024, Cert.Spec.quantK X Ep Bp (row r) (cl j) * Wp (ix2 k (cl j)) := by
  have hq := qblk_apply X Ep Bp row cl x0 x1 x2 h0 h1 h2 r
  unfold qblk at hq
  unfold step0
  rw [Pay.pay12_apply]
  simp only [hq, h3]

/-- … to the second accumulator the squared length of the quantised encoding along the tile, -/
theorem step1_apply
    (h0 : ∀ (r : Fin 256) (cc : Fin 4) (f : Fin 64), x0 (ix3 r cc f) = X (ix3 (row r) cc f))
    (h1 : ∀ (j : Fin 1024) (f : Fin 64), x1 (ix2 j f) = Ep (ix2 (cl j) f))
    (h2 : ∀ (j : Fin 1024), x2 (ix2 (0 : Fin 1) j) = Bp (ix2 (0 : Fin 1) (cl j)))
    (acc : Vec Ideal S256x1 .f32) (r : Fin 256) :
    step1 (F := Ideal) x0 x1 x2 acc (ix2 r (0 : Fin 1))
      = acc (ix2 r (0 : Fin 1)) + ∑ j : Fin 1024, Cert.Spec.quantK X Ep Bp (row r) (cl j) * Cert.Spec.quantK X Ep Bp (row r) (cl j) := by
  have hq := qblk_apply X Ep Bp row cl x0 x1 x2 h0 h1 h2 r
  unfold qblk at hq
  unfold step1
  rw [Pay.pay10_apply]
  simp only [hq]

/-- … and to the third the squared length of each class vector along the tile. -/
theorem step2_apply
    (h3 : ∀ (k : Fin 64) (j : Fin 1024), x3 (ix2 k j) = Wp (ix2 k (cl j)))
    (acc : Vec Ideal S1x64 .f32) (k : Fin 64) :
    step2 (F := Ideal) x3 acc (ix2 (0 : Fin 1) k)
      = acc (ix2 (0 : Fin 1) k) + ∑ j : Fin 1024, Wp (ix2 k (cl j)) * Wp (ix2 k (cl j)) := by
  unfold step2
  rw [Pay.pay1_apply, Pay.pay13_apply]
  simp only [h3]

end Cert.KernelIdeal.Step

end
-- ==== Proof.Blocks.lean ====
/-
  What a grid point is handed and what the run leaves.

  The grid has 4 · 10 points, point t = 10 · bb + dd.  Each input window's block at point t is the window's array read at the
  block's offset: rows 256 · bb + r of the samples, columns 1024 · dd + j of the padded encoder weights, phases and class
  weights.
-/
import proofs.«156150_g34050500723079_cont_8to1_b_1240_2_alg».proof.Proof.Gen.KernelIdeal.Value
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F] (m : (ℓ : Loc nD τ sig) → Buf (Elt F) ℓ) (c : Dev nD)

/-! ### The windows' index maps, decided over the grid -/

theorem idx0 : ∀ t : Fin cfg0.N, win0_0.index t 0 = t.val / 10 ∧ win0_0.index t 1 = 0 ∧ win0_0.index t 2 = 0 :=
  (by decide +kernel : ∀ t : Fin grid0.N, _)

theorem idx1 : ∀ t : Fin cfg0.N, win0_1.index t 0 = t.val % 10 ∧ win0_1.index t 1 = 0 :=
  (by decide +kernel : ∀ t : Fin grid0.N, _)

theorem idx2 : ∀ t : Fin cfg0.N, win0_2.index t 0 = 0 ∧ win0_2.index t 1 = t.val % 10 :=
  (by decide +kernel : ∀ t : Fin grid0.N, _)

theorem idx3 : ∀ t : Fin cfg0.N, win0_3.index t 0 = 0 ∧ win0_3.index t 1 = t.val % 10 :=
  (by decide +kernel : ∀ t : Fin grid0.N, _)

theorem idx4 : ∀ t : Fin cfg0.N, win0_4.index t 0 = t.val / 10 ∧ win0_4.index t 1 = 0 :=
  (by decide +kernel : ∀ t : Fin grid0.N, _)

/-! ### The input blocks at an index -/

/-- Point t's block of the samples is rows 256 · (t / 10) + r of the sample array. -/
theorem blk0_apply (t : Fin cfg0.N) (r : Fin 256) (cc : Fin 4) (f : Fin 64) (h : 256 * (t.val / 10) + r.val < 1024) :
    (iblk m c 0 t : Vec F S256x4x64 .f32) (ix3 r cc f)
      = (V m c main_arg0 : Vec F S1024x4x64 .f32) (ix3 (⟨256 * (t.val / 10) + r.val, h⟩ : Fin 1024) cc f) := by
  obtain ⟨e0, e1, e2⟩ := idx0 t
  unfold iblk
  rw [View.read_apply]
  show V m c main_arg0 _ = V m c main_arg0 _
  refine congrArg (V m c main_arg0) (funext fun a => Fin.ext ?_)
  match a with
  | ⟨0, _⟩ => show win0_0.index t 0 * 256 + 1 * r.val = 256 * (t.val / 10) + r.val; rw [e0]; omega
  | ⟨1, _⟩ => show win0_0.index t 1 * 4 + 1 * cc.val = cc.val; rw [e1]; omega
  | ⟨2, _⟩ => show win0_0.index t 2 * 64 + 1 * f.val = f.val; rw [e2]; omega

/-- Point t's block of the padded encoder weights is columns 1024 · (t % 10) + j of the padded array. -/
theorem blk1_apply (t : Fin cfg0.N) (j : Fin 1024) (f : Fin 64) (h : 1024 * (t.val % 10) + j.val < 10240) :
    (iblk m c 1 t : Vec F S1024x64 .f32) (ix2 j f)
      = (V m c main_call0_v0 : Vec F S10240x64 .f32) (ix2 (⟨1024 * (t.val % 10) + j.val, h⟩ : Fin 10240) f) := by
  obtain ⟨e0, e1⟩ := idx1 t
  unfold iblk
  rw [View.read_apply]
  show V m c main_call0_v0 _ = V m c main_call0_v0 _
  refine congrArg (V m c main_call0_v0) (funext fun a => Fin.ext ?_)
  match a with
  | ⟨0, _⟩ => show win0_1.index t 0 * 1024 + 1 * j.val = 1024 * (t.val % 10) + j.val; rw [e0]; omega
  | ⟨1, _⟩ => show win0_1.index t 1 * 64 + 1 * f.val = f.val; rw [e1]; omega

/-- Point t's block of the padded phases is columns 1024 · (t % 10) + j of the padded row. -/
theorem blk2_apply (t : Fin cfg0.N) (j : Fin 1024) (h : 1024 * (t.val % 10) + j.val < 10240) :
    (iblk m c 2 t : Vec F S1x1024 .f32) (ix2 (0 : Fin 1) j)
      = (V m c main_call0_v1 : Vec F S1x10240 .f32) (ix2 (0 : Fin 1) (⟨1024 * (t.val % 10) + j.val, h⟩ : Fin 10240)) := by
  obtain ⟨e0, e1⟩ := idx2 t
  unfold iblk
  rw [View.read_apply]
  show V m c main_call0_v1 _ = V m c main_call0_v1 _
  refine congrArg (V m c main_call0_v1) (funext fun a => Fin.ext ?_)
  match a with
  | ⟨0, _⟩ => show win0_2.index t 0 * 1 + 1 * (0 : Fin 1).val = (0 : Fin 1).val; rw [e0]; omega
  | ⟨1, _⟩ => show win0_2.index t 1 * 1024 + 1 * j.val = 1024 * (t.val % 10) + j.val; rw [e1]; omega

/-- Point t's block of the padded class weights is columns 1024 · (t % 10) + j of the padded array. -/
theorem blk3_apply (t : Fin cfg0.N) (k : Fin 64) (j : Fin 1024) (h : 1024 * (t.val % 10) + j.val < 10240) :
    (iblk m c 3 t : Vec F S64x1024 .f32) (ix2 k j)
      = (V m c main_call0_v2 : Vec F S64x10240 .f32) (ix2 k (⟨1024 * (t.val % 10) + j.val, h⟩ : Fin 10240)) := by
  obtain ⟨e0, e1⟩ := idx3 t
  unfold iblk
  rw [View.read_apply]
  show V m c main_call0_v2 _ = V m c main_call0_v2 _
  refine congrArg (V m c main_call0_v2) (funext fun a => Fin.ext ?_)
  match a with
  | ⟨0, _⟩ => show win0_3.index t 0 * 64 + 1 * k.val = k.val; rw [e0]; omega
  | ⟨1, _⟩ => show win0_3.index t 1 * 1024 + 1 * j.val = 1024 * (t.val % 10) + j.val; rw [e1]; omega

end Cert.KernelIdeal.Blocks

end
-- ==== Proof.Trig.lean ====
/-
  The law that joins the two programs, over the reals: a product of a cosine and a sine is half a difference of sines,
  cos (p + b) · sin p = ½ · (sin (2p + b) − sin b),
  and its sum over four angles p₀ … p₃ sharing one phase b.
-/
import Mathlib

namespace Cert.Spec

/-- Product to sum: `cos (p + b) * sin p = (sin (2 p + b) - sin b) / 2`. -/
theorem cos_add_mul_sin (p b : ℝ) :
    Real.cos (p + b) * Real.sin p = (1 / 2 : ℝ) * (Real.sin (2 * p + b) - Real.sin b) := by
  rw [Real.sin_add, Real.sin_two_mul, Real.cos_two_mul, Real.cos_add]
  linear_combination (-Real.sin b) * Real.sin_sq_add_cos_sq p

/-- Four angles, one phase: the sum of the four products is half the sum of the four sines of the doubled angles,
    less twice the sine of the phase. -/
theorem four_angles (p0 p1 p2 p3 b : ℝ) :
    Real.cos (p0 + b) * Real.sin p0 + Real.cos (p1 + b) * Real.sin p1
      + Real.cos (p2 + b) * Real.sin p2 + Real.cos (p3 + b) * Real.sin p3
    = (1 / 2 : ℝ) * (Real.sin (2 * p0 + b) + Real.sin (2 * p1 + b) + Real.sin (2 * p2 + b) + Real.sin (2 * p3 + b))
      - 2 * Real.sin b := by
  rw [cos_add_mul_sin, cos_add_mul_sin, cos_add_mul_sin, cos_add_mul_sin]
  ring

end Cert.Spec
-- ==== Proof.Join.lean ====
/-
  The tiled form of the result equals the plain form.

  Three facts carry it.  Where a column lies among the first 10000, the padded arrays read the original ones, the
  projections are real numbers, and the sum of four products cos (p + β) · sin p equals
  ½ · (sin (2p₀ + β) + … + sin (2p₃ + β)) − 2 · sin β.  Where a column lies in the padded tail, every factor read there
  is zero, so the encoding is tanh 0 = 0 and the class weight is 0.  And a sum over ten tiles of 1024 columns is a sum
  over all 10240 columns, of which only the first 10000 contribute.
-/
import proofs.«156150_g34050500723079_cont_8to1_b_1240_2_alg».proof.Proof.SpecK
import proofs.«156150_g34050500723079_cont_8to1_b_1240_2_alg».proof.Proof.Trig

open scoped BigOperators

noncomputable section

namespace Cert.Spec

open Idealize.ShloMosaic Idealize.ShloMosaic.ValueIdx

/-! ### The three literals -/

theorem half_eq : half = (((1 / 2 : ℝ)) : EReal) := by
  simp [half, Ideal.ofBits, Ideal.ieee, -EReal.coe_mul]; norm_num

theorem two_eq : two = ((2 : ℝ) : EReal) := by
  simp [two, Ideal.ofBits, Ideal.ieee, -EReal.coe_mul]; norm_num

theorem zero_eq : zero = 0 := by
  simp [zero, Ideal.ofBits, Ideal.ieee]

/-! ### Real numbers inside the extended reals -/

/-- The coercion of a finite sum of reals is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The four-angle law read in the extended reals at real arguments, in the shape the two programs spell it. -/
theorem enc_real (p0 p1 p2 p3 s : ℝ) :
    half * ((((zero + Ideal.sin (two * (p0 : EReal) + (s : EReal))) + Ideal.sin (two * (p1 : EReal) + (s : EReal)))
        + Ideal.sin (two * (p2 : EReal) + (s : EReal))) + Ideal.sin (two * (p3 : EReal) + (s : EReal)))
      - two * Ideal.sin (s : EReal)
    = Ideal.cos ((p0 : EReal) + (s : EReal)) * Ideal.sin (p0 : EReal)
      + Ideal.cos ((p1 : EReal) + (s : EReal)) * Ideal.sin (p1 : EReal)
      + Ideal.cos ((p2 : EReal) + (s : EReal)) * Ideal.sin (p2 : EReal)
      + Ideal.cos ((p3 : EReal) + (s : EReal)) * Ideal.sin (p3 : EReal) := by
  rw [half_eq, two_eq, zero_eq, zero_add]
  simp only [← EReal.coe_mul, ← EReal.coe_add, Ideal.sin_coe, Ideal.cos_coe, ← EReal.coe_sub]
  rw [four_angles]

/-! ### Columns among the first 10000 -/

variable (x : SX.Idx → EReal) (E : SE.Idx → EReal) (β : SB.Idx → EReal) (W : SW.Idx → EReal)
  (Ep : SEp.Idx → EReal) (Bp : SBp.Idx → EReal) (Wp : SWp.Idx → EReal)

/-- On a column below 10000 the padded projection is the projection. -/
theorem projK_eq_proj (hEp : PadE Ep E) (b : Fin 1024) (c : Fin 4) (n : Fin 10240) (h : n.val < 10000) :
    projK x Ep b c n = proj x E b c ⟨n.val, h⟩ := by
  unfold projK proj
  refine Finset.sum_congr rfl fun f _ => ?_
  rw [hEp n f, dif_pos h]

/-- The projection of finite samples on finite weights is a real number. -/
theorem proj_real (hx : Finite x) (hE : Finite E) (b : Fin 1024) (c : Fin 4) (d : Fin 10000) :
    ∃ r : ℝ, proj x E b c d = (r : EReal) := by
  choose xr hxr using hx
  choose er her using hE
  refine ⟨∑ f : Fin 64, xr (ix3 b c f) * er (ix2 d f), ?_⟩
  unfold proj
  rw [coe_sum]
  refine Finset.sum_congr rfl fun f _ => ?_
  rw [hxr, her, EReal.coe_mul]

/-- On a column below 10000 the doubled-angle encoding is the sum of the four channel encodings. -/
theorem summedK_eq_summed (hx : Finite x) (hE : Finite E) (hβ : Finite β) (hEp : PadE Ep E) (hBp : PadB Bp β)
    (b : Fin 1024) (n : Fin 10240) (h : n.val < 10000) :
    summedK x Ep Bp b n = summed x E β b ⟨n.val, h⟩ := by
  obtain ⟨p0, hp0⟩ := proj_real x E hx hE b 0 ⟨n.val, h⟩
  obtain ⟨p1, hp1⟩ := proj_real x E hx hE b 1 ⟨n.val, h⟩
  obtain ⟨p2, hp2⟩ := proj_real x E hx hE b 2 ⟨n.val, h⟩
  obtain ⟨p3, hp3⟩ := proj_real x E hx hE b 3 ⟨n.val, h⟩
  obtain ⟨s, hs⟩ := hβ (ix2 (0 : Fin 1) (⟨n.val, h⟩ : Fin 10000))
  have hB : Bp (ix2 (0 : Fin 1) n) = (s : EReal) := by rw [hBp n, dif_pos h, hs]
  unfold summedK sinK summed enc
  rw [Fin.sum_univ_four]
  simp only [projK_eq_proj x E Ep hEp b _ n h, hp0, hp1, hp2, hp3, hB, hs]
  exact enc_real p0 p1 p2 p3 s

theorem quantK_eq_quant (hx : Finite x) (hE : Finite E) (hβ : Finite β) (hEp : PadE Ep E) (hBp : PadB Bp β)
    (b : Fin 1024) (n : Fin 10240) (h : n.val < 10000) :
    quantK x Ep Bp b n = quant x E β b ⟨n.val, h⟩ := by
  unfold quantK quant
  rw [summedK_eq_summed x E β Ep Bp hx hE hβ hEp hBp b n h]

/-! ### Columns of the padded tail -/

theorem sin_zero' : Ideal.sin (0 : EReal) = 0 := by
  rw [← EReal.coe_zero, Ideal.sin_coe, Real.sin_zero]

theorem tanh_zero' : Ideal.tanh (0 : EReal) = 0 := by
  rw [← EReal.coe_zero, Ideal.tanh_coe, Real.tanh_zero]

/-- On a column of the tail the padded projection is a sum of products with zero. -/
theorem projK_tail (hEp : PadE Ep E) (b : Fin 1024) (c : Fin 4) (n : Fin 10240) (h : ¬ n.val < 10000) :
    projK x Ep b c n = 0 := by
  unfold projK
  refine Finset.sum_eq_zero fun f _ => ?_
  rw [hEp n f, dif_neg h, mul_zero]

theorem sinK_tail (hEp : PadE Ep E) (hBp : PadB Bp β) (b : Fin 1024) (c : Fin 4) (n : Fin 10240)
    (h : ¬ n.val < 10000) : sinK x Ep Bp b c n = 0 := by
  unfold sinK
  rw [projK_tail x E Ep hEp b c n h, hBp n, dif_neg h, mul_zero, add_zero, sin_zero']

theorem summedK_tail (hEp : PadE Ep E) (hBp : PadB Bp β) (b : Fin 1024) (n : Fin 10240)
    (h : ¬ n.val < 10000) : summedK x Ep Bp b n = 0 := by
  unfold summedK
  simp only [sinK_tail x E β Ep Bp hEp hBp b _ n h]
  rw [hBp n, dif_neg h, sin_zero', zero_eq]
  simp only [add_zero, mul_zero, sub_zero]

theorem quantK_tail (hEp : PadE Ep E) (hBp : PadB Bp β) (b : Fin 1024) (n : Fin 10240)
    (h : ¬ n.val < 10000) : quantK x Ep Bp b n = 0 := by
  unfold quantK
  rw [summedK_tail x E β Ep Bp hEp hBp b n h, tanh_zero']

/-! ### Ten tiles of 1024 columns are 10240 columns, of which the first 10000 count -/

/-- A sum tile by tile is the sum over all columns. -/
theorem sum_tiles {M : Type*} [AddCommMonoid M] (g : Fin 10240 → M) :
    ∑ dd : Fin 10, ∑ j : Fin 1024, g (col dd j) = ∑ n : Fin 10240, g n := by
  refine (Fintype.sum_prod_type' (fun dd j => g (col dd j))).symm.trans ?_
  refine Fintype.sum_equiv (finProdFinEquiv (m := 10) (n := 1024)) _ _ fun p => ?_
  congr 1
  apply Fin.ext
  simp only [col, finProdFinEquiv, Equiv.coe_fn_mk]
  omega

/-- A sum over all columns of a function that vanishes on the tail is the sum over the first 10000. -/
theorem sum_first {M : Type*} [AddCommMonoid M] (g : Fin 10240 → M)
    (hg : ∀ n : Fin 10240, ¬ n.val < 10000 → g n = 0) :
    ∑ n : Fin 10240, g n = ∑ d : Fin 10000, g (Fin.castAdd 240 d) := by
  refine (Fin.sum_univ_add (a := 10000) (b := 240) g).trans ?_
  rw [Finset.sum_eq_zero (s := Finset.univ) (f := fun i : Fin 240 => g (Fin.natAdd 10000 i)), add_zero]
  intro i _
  refine hg _ ?_
  simp only [Fin.coe_natAdd]
  omega

/-- The two together, against a function on the 10000 columns that agrees with the padded one there. -/
theorem sum_cols {M : Type*} [AddCommMonoid M] (gK : Fin 10240 → M) (g : Fin 10000 → M)
    (hlo : ∀ (n : Fin 10240) (h : n.val < 10000), gK n = g ⟨n.val, h⟩)
    (hhi : ∀ n : Fin 10240, ¬ n.val < 10000 → gK n = 0) :
    ∑ dd : Fin 10, ∑ j : Fin 1024, gK (col dd j) = ∑ d : Fin 10000, g d := by
  rw [sum_tiles gK, sum_first gK hhi]
  refine Finset.sum_congr rfl fun d _ => ?_
  exact hlo (Fin.castAdd 240 d) d.isLt

/-! ### The three sums and the result -/

theorem numK_eq_num (hx : Finite x) (hE : Finite E) (hβ : Finite β) (hEp : PadE Ep E) (hBp : PadB Bp β)
    (hWp : PadW Wp W) (b : Fin 1024) (k : Fin 64) :
    numK x Ep Bp Wp b k = num x E β W b k := by
  unfold numK numTile num
  refine sum_cols (fun n => quantK x Ep Bp b n * Wp (ix2 k n)) (fun d => quant x E β b d * W (ix2 k d))
    (fun n h => ?_) (fun n h => ?_)
  · show quantK x Ep Bp b n * Wp (ix2 k n) = quant x E β b ⟨n.val, h⟩ * W (ix2 k ⟨n.val, h⟩)
    rw [quantK_eq_quant x E β Ep Bp hx hE hβ hEp hBp b n h, hWp k n, dif_pos h]
  · show quantK x Ep Bp b n * Wp (ix2 k n) = 0
    rw [quantK_tail x E β Ep Bp hEp hBp b n h, zero_mul]

theorem qn2K_eq_qn2 (hx : Finite x) (hE : Finite E) (hβ : Finite β) (hEp : PadE Ep E) (hBp : PadB Bp β)
    (b : Fin 1024) :
    qn2K x Ep Bp b = qn2 x E β b := by
  unfold qn2K qn2Tile qn2
  refine sum_cols (fun n => quantK x Ep Bp b n * quantK x Ep Bp b n) (fun d => quant x E β b d * quant x E β b d)
    (fun n h => ?_) (fun n h => ?_)
  · show quantK x Ep Bp b n * quantK x Ep Bp b n = quant x E β b ⟨n.val, h⟩ * quant x E β b ⟨n.val, h⟩
    rw [quantK_eq_quant x E β Ep Bp hx hE hβ hEp hBp b n h]
  · show quantK x Ep Bp b n * quantK x Ep Bp b n = 0
    rw [quantK_tail x E β Ep Bp hEp hBp b n h, zero_mul]

theorem wn2K_eq_wn2 (hWp : PadW Wp W) (k : Fin 64) : wn2K Wp k = wn2 W k := by
  unfold wn2K wn2Tile wn2
  refine sum_cols (fun n => Wp (ix2 k n) * Wp (ix2 k n)) (fun d => W (ix2 k d) * W (ix2 k d))
    (fun n h => ?_) (fun n h => ?_)
  · show Wp (ix2 k n) * Wp (ix2 k n) = W (ix2 k ⟨n.val, h⟩) * W (ix2 k ⟨n.val, h⟩)
    rw [hWp k n, dif_pos h]
  · show Wp (ix2 k n) * Wp (ix2 k n) = 0
    rw [hWp k n, dif_neg h, mul_zero]

/-- The tiled form of the result is the plain form. -/
theorem outK_eq_out (x : SX.Idx → EReal) (E : SE.Idx → EReal) (β : SB.Idx → EReal) (W : SW.Idx → EReal)
    (Ep : SEp.Idx → EReal) (Bp : SBp.Idx → EReal) (Wp : SWp.Idx → EReal)
    (hx : Finite x) (hE : Finite E) (hβ : Finite β) (hEp : PadE Ep E) (hBp : PadB Bp β) (hWp : PadW Wp W)
    (b : Fin 1024) (k : Fin 64) :
    outK x Ep Bp Wp b k = out x E β W b k := by
  unfold outK out
  rw [numK_eq_num x E β W Ep Bp Wp hx hE hβ hEp hBp hWp b k, qn2K_eq_qn2 x E β Ep Bp hx hE hβ hEp hBp b,
    wn2K_eq_wn2 W Wp hWp k]

end Cert.Spec

end
-- ==== Proof.Inv.lean ====
/-
  What the three accumulators hold after every grid point, and what the output block holds at the last tile.

  The 40 points run sample block by sample block (four of them), ten tiles of the direction axis each. Within a sample
  block the first tile starts the accumulators from zero and every tile adds its share, so after tile `d` each
  accumulator is zero plus the sum of the shares of tiles 0 … d; after the tenth tile these are the three full sums
  over the padded direction axis, and the output block written there is their quotient.
-/
import proofs.«156150_g34050500723079_cont_8to1_b_1240_2_alg».proof.Proof.Gen.KernelIdeal.Frame
import proofs.«156150_g34050500723079_cont_8to1_b_1240_2_alg».proof.Proof.StepValue
import proofs.«156150_g34050500723079_cont_8to1_b_1240_2_alg».proof.Proof.Blocks
import proofs.«156150_g34050500723079_cont_8to1_b_1240_2_alg».proof.Proof.Join
import Idealize.ShloMosaic.Lib.Pipeline.Value

noncomputable section

open Idealize.ShloMosaic Idealize.ShloMosaic.TcCoe Idealize.SL.Sem Idealize.ShloMosaic.ValueIdx
open scoped BigOperators

namespace Cert.KernelIdeal.Inv

open Cert.KernelIdeal Cert.KernelIdeal.Gen

/-! ## Sums over the first tiles -/

/-- The sum of `g` over tiles `0 … n - 1`. -/
def tilesum (g : Fin 10 → EReal) (n : ℕ) : EReal := ∑ d ∈ Finset.range n, if h : d < 10 then g ⟨d, h⟩ else 0

theorem tilesum_succ (g : Fin 10 → EReal) (n : ℕ) (h : n < 10) : tilesum g (n + 1) = tilesum g n + g ⟨n, h⟩ := by
  unfold tilesum; rw [Finset.sum_range_succ, dif_pos h]

theorem tilesum_one (g : Fin 10 → EReal) : tilesum g 1 = g ⟨0, by decide⟩ := by
  rw [tilesum_succ g 0 (by decide)]; unfold tilesum; rw [Finset.sum_range_zero, zero_add]

theorem tilesum_ten (g : Fin 10 → EReal) : tilesum g 10 = ∑ dd : Fin 10, g dd := by
  unfold tilesum; rw [Finset.sum_range]
  exact Finset.sum_congr rfl (fun i _ => by rw [dif_pos i.isLt])

/-- An accumulator that starts from zero at the first tile of each sample block and adds `G bb dd` at tile `dd` of
    sample block `bb` holds, after point `n`, zero plus the shares of the tiles so far. -/
theorem closed_form (N : ℕ) (hN : N = 40) (a : (n : ℕ) → n < N → EReal) (G : ℕ → Fin 10 → EReal)
    (hfirst : ∀ (n : ℕ) (hn : n < N), n % 10 = 0 → a n hn = Cert.Spec.zero + G (n / 10) ⟨n % 10, Nat.mod_lt _ (by decide)⟩)
    (hnext : ∀ (n : ℕ) (hn : n + 1 < N), ¬ (n + 1) % 10 = 0 →
      a (n + 1) hn = a n (Nat.lt_of_succ_lt hn) + G ((n + 1) / 10) ⟨(n + 1) % 10, Nat.mod_lt _ (by decide)⟩) :
    ∀ (n : ℕ) (hn : n < N), a n hn = Cert.Spec.zero + tilesum (G (n / 10)) (n % 10 + 1)
  | 0, hn => by
    rw [hfirst 0 hn rfl, tilesum_one]
  | n + 1, hn => by
    by_cases h0 : (n + 1) % 10 = 0
    · rw [hfirst (n + 1) hn h0]
      have e : tilesum (G ((n + 1) / 10)) ((n + 1) % 10 + 1) = G ((n + 1) / 10) ⟨(n + 1) % 10, Nat.mod_lt _ (by decide)⟩ := by
        have h1 : (n + 1) % 10 + 1 = 0 + 1 := by omega
        rw [h1, tilesum_succ _ 0 (by decide)]
        have h2 : (⟨0, by decide⟩ : Fin 10) = ⟨(n + 1) % 10, Nat.mod_lt _ (by decide)⟩ := Fin.ext (show (0 : ℕ) = (n + 1) % 10 by omega)
        rw [h2]; unfold tilesum; rw [Finset.sum_range_zero, zero_add]
      rw [e]
    · rw [hnext n hn h0, closed_form N hN a G hfirst hnext n (Nat.lt_of_succ_lt hn)]
      have hd : n / 10 = (n + 1) / 10 := by omega
      have hm : n % 10 + 1 = (n + 1) % 10 := by omega
      have hlt : (n + 1) % 10 < 10 := Nat.mod_lt _ (by decide)
      rw [hd, hm, tilesum_succ _ ((n + 1) % 10) hlt, add_assoc]

/-! ## The points of the grid -/

variable (m : (ℓ : Loc nD τ sig) → Buf (Elt Ideal) ℓ) (c : Dev nD)

local notation "XA" => (V m c main_arg0 : S1024x4x64.Idx → EReal)
local notation "EA" => (V m c main_call0_v0 : S10240x64.Idx → EReal)
local notation "BA" => (V m c main_call0_v1 : S1x10240.Idx → EReal)
local notation "WA" => (V m c main_call0_v2 : S64x10240.Idx → EReal)

/-- Row `r` of sample block `bb`. -/
def rowN (bb : ℕ) (r : Fin 256) : Fin 1024 := ⟨(256 * bb + r.val) % 1024, Nat.mod_lt _ (by decide)⟩

theorem rowN_eq (bb : ℕ) (r : Fin 256) (h : 256 * bb + r.val < 1024) : (⟨256 * bb + r.val, h⟩ : Fin 1024) = rowN bb r :=
  Fin.ext (Nat.mod_eq_of_lt h).symm

/-- The tile of point `t`. -/
def tileOf (t : Fin cfg0.N) : Fin 10 := ⟨t.val % 10, Nat.mod_lt _ (by decide)⟩

theorem row_lt (t : Fin cfg0.N) (r : Fin 256) : 256 * (t.val / 10) + r.val < 1024 := by
  have h := t.isLt; have hN : cfg0.N = 40 := N_0; have := r.isLt; omega

theorem col_lt (t : Fin cfg0.N) (j : Fin 1024) : 1024 * (t.val % 10) + j.val < 10240 := by
  have := j.isLt; have := Nat.mod_lt t.val (show 10 > 0 by decide); omega

/-- The blocks point `t` is handed are the arrays at sample block `t / 10` and tile `t % 10`. -/
theorem hb0 (t : Fin cfg0.N) (r : Fin 256) (cc : Fin 4) (f : Fin 64) :
    (iblk m c 0 t : Vec Ideal S256x4x64 .f32) (ix3 r cc f) = XA (ix3 (rowN (t.val / 10) r) cc f) := by
  rw [Blocks.blk0_apply m c t r cc f (row_lt t r), rowN_eq]

theorem hb1 (t : Fin cfg0.N) (j : Fin 1024) (f : Fin 64) :
    (iblk m c 1 t : Vec Ideal S1024x64 .f32) (ix2 j f) = EA (ix2 (Cert.Spec.col (tileOf t) j) f) :=
  Blocks.blk1_apply m c t j f (col_lt t j)

theorem hb2 (t : Fin cfg0.N) (j : Fin 1024) :
    (iblk m c 2 t : Vec Ideal S1x1024 .f32) (ix2 (0 : Fin 1) j) = BA (ix2 (0 : Fin 1) (Cert.Spec.col (tileOf t) j)) :=
  Blocks.blk2_apply m c t j (col_lt t j)

theorem hb3 (t : Fin cfg0.N) (k : Fin 64) (j : Fin 1024) :
    (iblk m c 3 t : Vec Ideal S64x1024 .f32) (ix2 k j) = WA (ix2 k (Cert.Spec.col (tileOf t) j)) :=
  Blocks.blk3_apply m c t k j (col_lt t j)

/-- The three updates at point `t`: each adds the tile's share. -/
theorem st0 (t : Fin cfg0.N) (acc : Vec Ideal S256x64 .f32) (r : Fin 256) (k : Fin 64) :
    Pieces.step0 (F := Ideal) (iblk m c 0 t) (iblk m c 1 t) (iblk m c 2 t) (iblk m c 3 t) acc (ix2 r k)
      = acc (ix2 r k) + Cert.Spec.numTile XA EA BA WA (rowN (t.val / 10) r) k (tileOf t) :=
  Step.step0_apply XA EA BA WA (rowN (t.val / 10)) (Cert.Spec.col (tileOf t)) (iblk m c 0 t) (iblk m c 1 t) (iblk m c 2 t) (iblk m c 3 t)
    (hb0 m c t) (hb1 m c t) (hb2 m c t) (hb3 m c t) acc r k

theorem st1 (t : Fin cfg0.N) (acc : Vec Ideal S256x1 .f32) (r : Fin 256) :
    Pieces.step1 (F := Ideal) (iblk m c 0 t) (iblk m c 1 t) (iblk m c 2 t) acc (ix2 r (0 : Fin 1))
      = acc (ix2 r (0 : Fin 1)) + Cert.Spec.qn2Tile XA EA BA (rowN (t.val / 10) r) (tileOf t) :=
  Step.step1_apply XA EA BA (rowN (t.val / 10)) (Cert.Spec.col (tileOf t)) (iblk m c 0 t) (iblk m c 1 t) (iblk m c 2 t)
    (hb0 m c t) (hb1 m c t) (hb2 m c t) acc r

theorem st2 (t : Fin cfg0.N) (acc : Vec Ideal S1x64 .f32) (k : Fin 64) :
    Pieces.step2 (F := Ideal) (iblk m c 3 t) acc (ix2 (0 : Fin 1) k)
      = acc (ix2 (0 : Fin 1) k) + Cert.Spec.wn2Tile WA k (tileOf t) :=
  Step.step2_apply WA (Cert.Spec.col (tileOf t)) (iblk m c 3 t) (hb3 m c t) acc k

/-! ## The accumulators point by point -/

theorem s0_first (t : Fin cfg0.N) (h0 : t.val % 10 = 0) (r : Fin 256) (k : Fin 64) :
    (outsAt0 m c t.val t.isLt).2.1 (ix2 r k) = Cert.Spec.zero + Cert.Spec.numTile XA EA BA WA (rowN (t.val / 10) r) k (tileOf t) := by
  have h1 : ¬ t.val % 10 = 9 := by omega
  rw [outsAt0_A m c t h0 h1]
  dsimp only
  rw [Pieces.sout_A_0]
  refine (st0 m c t _ r k).trans ?_
  rw [Pay.pay3_apply]

theorem s0_next (t : Fin cfg0.N) (h0 : ¬ t.val % 10 = 0) (r : Fin 256) (k : Fin 64) :
    (outsAt0 m c t.val t.isLt).2.1 (ix2 r k)
      = (outsAt0 m c (t.val - 1) (Nat.lt_of_le_of_lt (Nat.sub_le _ _) t.isLt)).2.1 (ix2 r k)
        + Cert.Spec.numTile XA EA BA WA (rowN (t.val / 10) r) k (tileOf t) := by
  by_cases h1 : t.val % 10 = 9
  · rw [outsAt0_C m c t h0 h1]; dsimp only; rw [Pieces.sout_C_0]; exact st0 m c t _ r k
  · rw [outsAt0_B m c t h0 h1]; dsimp only; rw [Pieces.sout_B_0]; exact st0 m c t _ r k

theorem s1_first (t : Fin cfg0.N) (h0 : t.val % 10 = 0) (r : Fin 256) :
    (outsAt0 m c t.val t.isLt).2.2.1 (ix2 r (0 : Fin 1)) = Cert.Spec.zero + Cert.Spec.qn2Tile XA EA BA (rowN (t.val / 10) r) (tileOf t) := by
  have h1 : ¬ t.val % 10 = 9 := by omega
  rw [outsAt0_A m c t h0 h1]
  dsimp only
  rw [Pieces.sout_A_1]
  refine (st1 m c t _ r).trans ?_
  rw [Pay.pay4_apply]

theorem s1_next (t : Fin cfg0.N) (h0 : ¬ t.val % 10 = 0) (r : Fin 256) :
    (outsAt0 m c t.val t.isLt).2.2.1 (ix2 r (0 : Fin 1))
      = (outsAt0 m c (t.val - 1) (Nat.lt_of_le_of_lt (Nat.sub_le _ _) t.isLt)).2.2.1 (ix2 r (0 : Fin 1))
        + Cert.Spec.qn2Tile XA EA BA (rowN (t.val / 10) r) (tileOf t) := by
  by_cases h1 : t.val % 10 = 9
  · rw [outsAt0_C m c t h0 h1]; dsimp only; rw [Pieces.sout_C_1]; exact st1 m c t _ r
  · rw [outsAt0_B m c t h0 h1]; dsimp only; rw [Pieces.sout_B_1]; exact st1 m c t _ r

theorem s2_first (t : Fin cfg0.N) (h0 : t.val % 10 = 0) (k : Fin 64) :
    (outsAt0 m c t.val t.isLt).2.2.2 (ix2 (0 : Fin 1) k) = Cert.Spec.zero + Cert.Spec.wn2Tile WA k (tileOf t) := by
  have h1 : ¬ t.val % 10 = 9 := by omega
  rw [outsAt0_A m c t h0 h1]
  dsimp only
  rw [Pieces.sout_A_2]
  refine (st2 m c t _ k).trans ?_
  rw [Pay.pay5_apply]

theorem s2_next (t : Fin cfg0.N) (h0 : ¬ t.val % 10 = 0) (k : Fin 64) :
    (outsAt0 m c t.val t.isLt).2.2.2 (ix2 (0 : Fin 1) k)
      = (outsAt0 m c (t.val - 1) (Nat.lt_of_le_of_lt (Nat.sub_le _ _) t.isLt)).2.2.2 (ix2 (0 : Fin 1) k)
        + Cert.Spec.wn2Tile WA k (tileOf t) := by
  by_cases h1 : t.val % 10 = 9
  · rw [outsAt0_C m c t h0 h1]; dsimp only; rw [Pieces.sout_C_2]; exact st2 m c t _ k
  · rw [outsAt0_B m c t h0 h1]; dsimp only; rw [Pieces.sout_B_2]; exact st2 m c t _ k

/-! ## The accumulators in closed form -/

theorem acc0 (n : ℕ) (hn : n < cfg0.N) (r : Fin 256) (k : Fin 64) :
    (outsAt0 m c n hn).2.1 (ix2 r k)
      = Cert.Spec.zero + tilesum (fun dd => Cert.Spec.numTile XA EA BA WA (rowN (n / 10) r) k dd) (n % 10 + 1) :=
  closed_form cfg0.N N_0 (fun n hn => (outsAt0 m c n hn).2.1 (ix2 r k))
    (fun bb dd => Cert.Spec.numTile XA EA BA WA (rowN bb r) k dd)
    (fun n hn h0 => s0_first m c ⟨n, hn⟩ h0 r k)
    (fun n hn h0 => s0_next m c ⟨n + 1, hn⟩ h0 r k) n hn

theorem acc1 (n : ℕ) (hn : n < cfg0.N) (r : Fin 256) :
    (outsAt0 m c n hn).2.2.1 (ix2 r (0 : Fin 1))
      = Cert.Spec.zero + tilesum (fun dd => Cert.Spec.qn2Tile XA EA BA (rowN (n / 10) r) dd) (n % 10 + 1) :=
  closed_form cfg0.N N_0 (fun n hn => (outsAt0 m c n hn).2.2.1 (ix2 r (0 : Fin 1)))
    (fun bb dd => Cert.Spec.qn2Tile XA EA BA (rowN bb r) dd)
    (fun n hn h0 => s1_first m c ⟨n, hn⟩ h0 r)
    (fun n hn h0 => s1_next m c ⟨n + 1, hn⟩ h0 r) n hn

theorem acc2 (n : ℕ) (hn : n < cfg0.N) (k : Fin 64) :
    (outsAt0 m c n hn).2.2.2 (ix2 (0 : Fin 1) k)
      = Cert.Spec.zero + tilesum (fun dd => Cert.Spec.wn2Tile WA k dd) (n % 10 + 1) :=
  closed_form cfg0.N N_0 (fun n hn => (outsAt0 m c n hn).2.2.2 (ix2 (0 : Fin 1) k))
    (fun _ dd => Cert.Spec.wn2Tile WA k dd)
    (fun n hn h0 => s2_first m c ⟨n, hn⟩ h0 k)
    (fun n hn h0 => s2_next m c ⟨n + 1, hn⟩ h0 k) n hn

/-! ## The output block at the last tile -/

/-- At the last tile the output block is the quotient of the accumulators as that point leaves them. -/
theorem out_last (t : Fin cfg0.N) (h9 : t.val % 10 = 9) (r : Fin 256) (k : Fin 64) :
    (outsAt0 m c t.val t.isLt).1 (ix2 r k)
      = Ideal.div ((outsAt0 m c t.val t.isLt).2.1 (ix2 r k))
          (Ideal.sqrt ((outsAt0 m c t.val t.isLt).2.2.1 (ix2 r (0 : Fin 1))) * Ideal.sqrt ((outsAt0 m c t.val t.isLt).2.2.2 (ix2 (0 : Fin 1) k))
            + Cert.Spec.eps) := by
  have h0 : ¬ t.val % 10 = 0 := by omega
  rw [outsAt0_C m c t h0 h9]
  dsimp only
  rw [Pieces.out_C_4, Pieces.sout_C_0, Pieces.sout_C_1, Pieces.sout_C_2, Pay.pay2_apply]

/-- … which is the tiled form of the result at the block's row. -/
theorem out_block (t : Fin cfg0.N) (h9 : t.val % 10 = 9) (r : Fin 256) (k : Fin 64) (h : 256 * (t.val / 10) + r.val < 1024) :
    (outsAt0 m c t.val t.isLt).1 (ix2 r k)
      = Cert.Spec.outK XA EA BA WA (⟨256 * (t.val / 10) + r.val, h⟩ : Fin 1024) k := by
  rw [out_last m c t h9 r k, acc0 m c t.val t.isLt r k, acc1 m c t.val t.isLt r, acc2 m c t.val t.isLt k, h9, rowN_eq]
  simp only [tilesum_ten, Cert.Spec.zero_eq, zero_add]
  rfl

end Cert.KernelIdeal.Inv

end
-- ==== Proof.Cover.lean ====
/-
  From the flushing points' blocks to the output array.

  The output window's block is written back exactly at the points t with t % 10 = 9, where it is rows
  256 · (t / 10) … 256 · (t / 10) + 255 of the array.  The four such points' blocks tile the 1024 rows, so an array `G`
  that every flushing point's block agrees with is what the output array holds after the run.
-/
import proofs.«156150_g34050500723079_cont_8to1_b_1240_2_alg».proof.Proof.Blocks

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F] (m : (ℓ : Loc nD τ sig) → Buf (Elt F) ℓ) (c : Dev nD)

/-! ### From the flushed blocks to the array -/

/-- What a flushing point writes back is its block of `G`, once every flushing point's block holds `G` at the
    block's rows. -/
theorem flushed_eq (G : Vec F S1024x64 .f32)
    (hblk : ∀ (t : Fin cfg0.N), t.val % 10 = 9 → ∀ (r : Fin 256) (k : Fin 64) (h : 256 * (t.val / 10) + r.val < 1024),
      (outsAt0 m c t.val t.isLt).1 (ix2 r k) = G (ix2 (⟨256 * (t.val / 10) + r.val, h⟩ : Fin 1024) k))
    (t : Fin cfg0.N) (hf : (cfg0.win 4).flush t = true) :
    (dats m 0 c).flushed 4 t = ((cfg0.win 4).blk t).view.read (Elt F) G := by
  have h9 : t.val % 10 = 9 := (flush0_4 t).mp hf
  obtain ⟨e0, e1⟩ := idx4 t
  have hN : cfg0.N = 40 := N_0
  have ht := t.isLt
  rw [Value.flushed4]
  funext y
  rw [View.read_apply]
  have hy0 : (y 0).val < 256 := (y 0).isLt
  have hy1 : (y 1).val < 64 := (y 1).isLt
  have hr : 256 * (t.val / 10) + (y 0).val < 1024 := by omega
  have hx : (cfg0.win 4).xinj (grid0.coords t) y = ix2 (⟨(y 0).val, hy0⟩ : Fin 256) (⟨(y 1).val, hy1⟩ : Fin 64) :=
    funext fun a => by match a with | ⟨0, _⟩ => rfl | ⟨1, _⟩ => rfl
  show (outsAt0 m c t.val t.isLt).1 ((cfg0.win 4).xinj (grid0.coords t) y) = G _
  rw [hx, hblk t h9 ⟨(y 0).val, hy0⟩ ⟨(y 1).val, hy1⟩ hr]
  refine congrArg G (funext fun a => Fin.ext ?_)
  match a with
  | ⟨0, _⟩ => show 256 * (t.val / 10) + (y 0).val = win0_4.index t 0 * 256 + 1 * (y 0).val; rw [e0]; omega
  | ⟨1, _⟩ => show (y 1).val = win0_4.index t 1 * 64 + 1 * (y 1).val; rw [e1]; omega

/-- An index of the array lies in point t's block exactly when each coordinate lies in the block's range on its axis. -/
theorem mem_blk4 (t : Fin cfg0.N) (i : S1024x64.Idx) :
    i ∈ ((cfg0.win 4).blk t).view.set ↔ ∀ a : Fin 2, win0_4.index t a * S256x64.size a ≤ (i a).val
      ∧ (i a).val < win0_4.index t a * S256x64.size a + S256x64.size a := by
  show i ∈ ((View.whole main_v0).slice (win0_4.rect t)).set ↔ _
  rw [View.set_slice_whole, Rect.mem_set_unit]
  exact Iff.rfl

/-- Row i₀ of the array is covered by the flushing point t = 10 · (i₀ / 256) + 9. -/
theorem covered (i : S1024x64.Idx) :
    ∃ t : Fin cfg0.N, (cfg0.win 4).flush t = true ∧ i ∈ ((cfg0.win 4).blk t).view.set := by
  have hN : cfg0.N = 40 := N_0
  have hi0 : (i 0).val < 1024 := (i 0).isLt
  have hi1 : (i 1).val < 64 := (i 1).isLt
  obtain ⟨t, tv⟩ : ∃ t : Fin cfg0.N, t.val = 10 * ((i 0).val / 256) + 9 :=
    ⟨⟨10 * ((i 0).val / 256) + 9, lt_of_lt_of_eq (by omega : 10 * ((i 0).val / 256) + 9 < 40) hN.symm⟩, rfl⟩
  obtain ⟨e0, e1⟩ := idx4 t
  refine ⟨t, (flush0_4 t).mpr (by omega), ?_⟩
  rw [mem_blk4]
  intro a
  match a with
  | ⟨0, _⟩ =>
    show win0_4.index t 0 * 256 ≤ (i 0).val ∧ (i 0).val < win0_4.index t 0 * 256 + 256
    rw [e0]; omega
  | ⟨1, _⟩ =>
    show win0_4.index t 1 * 64 ≤ (i 1).val ∧ (i 1).val < win0_4.index t 1 * 64 + 64
    rw [e1]; omega

/-- The output array after the run is `G`, once every flushing point's block holds `G` at the block's rows. -/
theorem final_of (G : Vec F S1024x64 .f32)
    (hblk : ∀ (t : Fin cfg0.N), t.val % 10 = 9 → ∀ (r : Fin 256) (k : Fin 64) (h : 256 * (t.val / 10) + r.val < 1024),
      (outsAt0 m c t.val t.isLt).1 (ix2 r k) = G (ix2 (⟨256 * (t.val / 10) + r.val, h⟩ : Fin 1024) k)) :
    (dats m 0 c).arrAt 4 cfg0.N = G :=
  (dats m 0 c).arrAt_eq_of_cover 4 G (fun t hf => flushed_eq m c G hblk t hf) covered

end Cert.KernelIdeal.Blocks

end
-- ==== Proof.Pads.lean ====
/-
  The three arrays the tiled program reads are the arguments padded with zeros from 10000 to 10240 along the
  direction axis: each is a `pad` with low padding 0, high padding 240 on that axis and no interior padding, so
  an index below 10000 on that axis reads the argument there and every other index reads the padding value,
  the integer 0 converted to a float, which is the real number 0.
-/
import proofs.«156150_g34050500723079_cont_8to1_b_1240_2_alg».proof.Proof.Gen.KernelIdeal.Frame.Runs
import proofs.«156150_g34050500723079_cont_8to1_b_1240_2_alg».proof.Proof.SpecK
import Idealize.ShloMosaic.Lib.StableHlo.Run
import Idealize.ShloMosaic.Lib.Pipeline.Value
import Idealize.ShloMosaic.Lib.KernelVsHost

noncomputable section

namespace Cert.KernelIdeal.Pads

open Cert.KernelIdeal Cert.KernelIdeal.Gen Idealize.ShloMosaic Idealize.ShloMosaic.TcCoe Idealize.ShloMosaic.ValueIdx
open Cert.KernelIdeal.Facts₀ Cert.KernelIdeal.Facts

variable [Cert.KernelIdeal.Facts] (m : (ℓ : Loc nD τ sig) → Buf (Elt Ideal) ℓ) (c : Dev nD)

/-- The padding value: the integer `0` converted to a float is the real number `0`. -/
theorem padval_eq_zero (i : S_.Idx) : (sitofp (F := Ideal) .f32 (constantI S_ 32 0#32) : S_.Idx → EReal) i = 0 := by
  show (((0#32 : BitVec 32).toInt : ℝ) : EReal) = 0
  simp

/-! ## The three arrays as the host's `pad` of the arguments -/

theorem eE : (V m c main_call0_v0 : S10240x64.Idx → EReal) =
    pad (s := S10000x64) S10240x64 ![0, 0] ![240, 0] ![0, 0] (m ((c : Thread nD τ).loc main_arg1) : S10000x64.Idx → EReal)
      (sitofp (F := Ideal) .f32 (constantI S_ 32 0#32)) Facts₀.pads_S10000x64_S10240x64_02400_000 Facts₀.h_S_ := by
  dsimp only [Gen.V, Gen.hostOps0]
  after_results
  rfl

theorem eB : (V m c main_call0_v1 : S1x10240.Idx → EReal) =
    pad (s := S1x10000) S1x10240 ![0, 0] ![0, 240] ![0, 0] (m ((c : Thread nD τ).loc main_arg2) : S1x10000.Idx → EReal)
      (sitofp (F := Ideal) .f32 (constantI S_ 32 0#32)) Facts₀.pads_S1x10000_S1x10240_000_02400 Facts₀.h_S_ := by
  dsimp only [Gen.V, Gen.hostOps0]
  after_results
  rfl

theorem eW : (V m c main_call0_v2 : S64x10240.Idx → EReal) =
    pad (s := S64x10000) S64x10240 ![0, 0] ![0, 240] ![0, 0] (m ((c : Thread nD τ).loc main_arg3) : S64x10000.Idx → EReal)
      (sitofp (F := Ideal) .f32 (constantI S_ 32 0#32)) Facts₀.pads_S64x10000_S64x10240_000_02400 Facts₀.h_S_ := by
  dsimp only [Gen.V, Gen.hostOps0]
  after_results
  rfl

/-! ## Read at an index: rows (columns) below 10000 read the argument, the others the padding value `0` -/

theorem padE : Cert.Spec.PadE (V m c main_call0_v0 : S10240x64.Idx → EReal) (m ((c : Thread nD τ).loc main_arg1) : S10000x64.Idx → EReal) := by
  intro n f
  rw [eE m c]
  by_cases hn : n.val < 10000
  · rw [dif_pos hn]
    refine pad_apply_of_inside _ _ _ _ _ _ _ (ix2 n f) (ix2 (⟨n.val, hn⟩ : Fin 10000) f) ?_
    intro a
    fin_cases a
    · show n.val = 0 + n.val * (0 + 1)
      omega
    · show f.val = 0 + f.val * (0 + 1)
      omega
  · rw [dif_neg hn]
    refine (pad_apply_of_not_inside _ _ _ _ _ _ _ (ix2 n f) (0 : Fin 2) ?_).trans (padval_eq_zero _)
    rintro ⟨_, _, h3⟩
    have h3' : (n.val - 0) / 1 < 10000 := h3
    omega

theorem padB : Cert.Spec.PadB (V m c main_call0_v1 : S1x10240.Idx → EReal) (m ((c : Thread nD τ).loc main_arg2) : S1x10000.Idx → EReal) := by
  intro n
  rw [eB m c]
  by_cases hn : n.val < 10000
  · rw [dif_pos hn]
    refine pad_apply_of_inside _ _ _ _ _ _ _ (ix2 (0 : Fin 1) n) (ix2 (0 : Fin 1) (⟨n.val, hn⟩ : Fin 10000)) ?_
    intro a
    fin_cases a
    · show (0 : Fin 1).val = 0 + (0 : Fin 1).val * (0 + 1)
      rfl
    · show n.val = 0 + n.val * (0 + 1)
      omega
  · rw [dif_neg hn]
    refine (pad_apply_of_not_inside _ _ _ _ _ _ _ (ix2 (0 : Fin 1) n) (1 : Fin 2) ?_).trans (padval_eq_zero _)
    rintro ⟨_, _, h3⟩
    have h3' : (n.val - 0) / 1 < 10000 := h3
    omega

theorem padW : Cert.Spec.PadW (V m c main_call0_v2 : S64x10240.Idx → EReal) (m ((c : Thread nD τ).loc main_arg3) : S64x10000.Idx → EReal) := by
  intro k n
  rw [eW m c]
  by_cases hn : n.val < 10000
  · rw [dif_pos hn]
    refine pad_apply_of_inside _ _ _ _ _ _ _ (ix2 k n) (ix2 k (⟨n.val, hn⟩ : Fin 10000)) ?_
    intro a
    fin_cases a
    · show k.val = 0 + k.val * (0 + 1)
      omega
    · show n.val = 0 + n.val * (0 + 1)
      omega
  · rw [dif_neg hn]
    refine (pad_apply_of_not_inside _ _ _ _ _ _ _ (ix2 k n) (1 : Fin 2) ?_).trans (padval_eq_zero _)
    rintro ⟨_, _, h3⟩
    have h3' : (n.val - 0) / 1 < 10000 := h3
    omega

end Cert.KernelIdeal.Pads

end
-- ==== Proof.FiniteOfPre.lean ====
/-
  Finiteness of the four input arrays from the precondition `jnp.all(|a| < +∞)` on each:
  an extended real whose absolute value `max a (-a)` is strictly below `⊤` is neither `⊥` nor `⊤`,
  hence a real number.
-/
import proofs.«156150_g34050500723079_cont_8to1_b_1240_2_alg».proof.Proof.Gen.Pre_finite_inputs
import proofs.«156150_g34050500723079_cont_8to1_b_1240_2_alg».proof.Proof.SpecK
import Idealize.ShloMosaic.Lib.ReduceAll

noncomputable section

namespace Cert.Proof.Fin

open Idealize.ShloMosaic Idealize.ShloMosaic.ValueIdx

/-- The rank-0 shape has one index. -/
instance : Subsingleton Cert.Pre_finite_inputs.S_.Idx := ⟨fun a b => funext fun d => d.elim0⟩

/-- `|a| < +∞` (the pattern `0x7F800000` denotes `⊤`) makes `a` a real number. -/
theorem real_of_abs_lt (a : EReal) (h : Ideal.cmp .olt (max a (-a)) (Ideal.ofBits .f32 0x7F800000#32) = 1#1) :
    ∃ r : ℝ, a = (r : EReal) := by
  have hT : Ideal.ofBits .f32 0x7F800000#32 = (⊤ : EReal) := by
    simp [Ideal.ofBits, Ideal.ieee]
  rw [hT] at h
  induction a using EReal.rec with
  | bot => simp [Ideal.cmp] at h
  | top => simp [Ideal.cmp] at h
  | coe r => exact ⟨r, rfl⟩

/-- One array: the conjunction over all its indices of `|a i| < +∞` being true gives every entry real. -/
theorem finite_of_all {s : Shape} {axes : List (Fin s.rank)} (a : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a) (broadcastInDim s ![] bc (constant (F := Ideal) Cert.Pre_finite_inputs.S_ .f32 0x7F800000#32)))
          (constantI Cert.Pre_finite_inputs.S_ 1 1#1) hr hu ix0 = 1#1) :
    Cert.Spec.Finite a := by
  intro i
  have hi := Host.reduce_andi_all _ _ hr hu ix0 e i
  exact real_of_abs_lt (a i) hi

/-- The precondition is the conjunction of the four per-array tests. -/
theorem finite_of_pre [Cert.Pre_finite_inputs.Facts] (x : FVec Ideal Cert.Pre_finite_inputs.S1024x4x64 .f32) (E : FVec Ideal Cert.Pre_finite_inputs.S10000x64 .f32) (β : FVec Ideal Cert.Pre_finite_inputs.S1x10000 .f32) (W : FVec Ideal Cert.Pre_finite_inputs.S64x10000 .f32)
    (h : Cert.Pre_finite_inputs.fn (F := Ideal) x E β W = fun _ => 1#1) :
    Cert.Spec.Finite x ∧ Cert.Spec.Finite E ∧ Cert.Spec.Finite β ∧ Cert.Spec.Finite W := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨finite_of_all x _ _ _ h1, finite_of_all E _ _ _ h2, finite_of_all β _ _ _ h3, finite_of_all W _ _ _ h4⟩

end Cert.Proof.Fin

end
-- ==== Proof.KernelValue.lean ====
/-
  The tiled program's result, named by the specification.

  Each block the program writes back at the last tile of a row block holds the tiled form of the result over the
  arrays the program reads; these blocks cover the result array. The arrays read are the arguments with zero
  rows (columns) appended, the arguments are finite by the precondition, and on such arrays the tiled form
  equals the plain form `out`. Hence the result array is `G` of the four arguments.
-/
import proofs.«156150_g34050500723079_cont_8to1_b_1240_2_alg».proof.Defs
import proofs.«156150_g34050500723079_cont_8to1_b_1240_2_alg».proof.Proof.Gen.KernelIdeal.Value
import proofs.«156150_g34050500723079_cont_8to1_b_1240_2_alg».proof.Proof.Inv
import proofs.«156150_g34050500723079_cont_8to1_b_1240_2_alg».proof.Proof.Cover
import proofs.«156150_g34050500723079_cont_8to1_b_1240_2_alg».proof.Proof.Join
import proofs.«156150_g34050500723079_cont_8to1_b_1240_2_alg».proof.Proof.Pads
import proofs.«156150_g34050500723079_cont_8to1_b_1240_2_alg».proof.Proof.FiniteOfPre

noncomputable section

namespace Cert.KernelIdeal.KValue

open Cert.KernelIdeal Cert.KernelIdeal.Gen Idealize.ShloMosaic Idealize.ShloMosaic.TcCoe Idealize.SL.Sem Idealize.ShloMosaic.ValueIdx

/-- The result array after the run is the plain form of the specification over the four arguments: each block the
    tiled program writes back holds the tiled form over the padded arrays, the padded arrays are the arguments
    with zero columns (rows) appended, the arguments are finite, and on such arrays the tiled form is the plain one. -/
theorem result_eq [Cert.Pre_finite_inputs.Facts] (m : (ℓ : Loc nD τ sig) → Buf (Elt Ideal) ℓ) (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) = fun _ => 1#1) :
    (dats m 0 c).arrAt 4 cfg0.N = Cert.Spec.G (m ((c : Thread nD τ).loc main_arg0)) (m ((c : Thread nD τ).loc main_arg1)) (m ((c : Thread nD τ).loc main_arg2)) (m ((c : Thread nD τ).loc main_arg3)) := by
  obtain ⟨hx, hE, hβ, hW⟩ := Cert.Proof.Fin.finite_of_pre _ _ _ _ hpre
  refine Cert.KernelIdeal.Blocks.final_of m c _ (fun t h9 r k h => ?_)
  rw [Cert.KernelIdeal.Inv.out_block m c t h9 r k h, V_main_arg0 m c, Cert.Spec.G_ix2]
  exact Cert.Spec.outK_eq_out _ _ _ _ _ _ _ hx hE hβ (Cert.KernelIdeal.Pads.padE m c) (Cert.KernelIdeal.Pads.padB m c) (Cert.KernelIdeal.Pads.padW m c) _ k

/-- The run of the tiled program, its result named by the specification. -/
theorem run [Cert.Pre_finite_inputs.Facts] (m : (ℓ : Loc nD τ sig) → Buf (Elt Ideal) ℓ) (ρ : Dev nD → PrngReg) (hpre : Cert.Pre_KernelIdeal m) :
    θ_run defs (onTc (τ := τ) (main (F := Ideal))) ⟨m, fun _ => 0, ρ⟩ fun r => ∀ c : Dev nD,
      r.2.mem ((c : Thread nD τ).loc main_v0) = Cert.Spec.G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_eq m c (hpre c)), (h c).2⟩) (Cert.KernelIdeal.Value.run_blocks m ρ)

end Cert.KernelIdeal.KValue

end
-- ==== Proof.RefOps.lean ====
/-
  The reference program's @main as one list of its host operations: the four outlined functions
  (the two remainders with their select, the two row norms) are written out at their call sites over
  the buffers of each call.
-/
import proofs.«156150_g34050500723079_cont_8to1_b_1240_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 104 operations, in order, each call's body in place of the call. -/
abbrev ops : List (HloOp τ sig (Elt F)) :=
  [
    binary main_arg0 main_arg1 main_v0 ((fun l r => Host.dotGeneral dot_S1024x4x64_S10000x64_S1024x4x10000_2_1_01_0_n_n none l r) : (⟨S1024x4x64, .f32⟩ : BufTy).Contents (Elt F) → (⟨S10000x64, .f32⟩ : BufTy).Contents (Elt F) → (⟨S1024x4x10000, .f32⟩ : BufTy).Contents (Elt F)),
    unary main_arg2 main_v1 (broadcastInDim S1x1x10000 ![1, 2] bcast_S1x10000_S1x1x10000_1_2 : (⟨S1x10000, .f32⟩ : BufTy).Contents (Elt F) → (⟨S1x1x10000, .f32⟩ : BufTy).Contents (Elt F)),
    unary main_v1 main_v2 (broadcastInDim S1024x4x10000 ![0, 1, 2] bcast_S1x1x10000_S1024x4x10000_0_1_2 : (⟨S1x1x10000, .f32⟩ : BufTy).Contents (Elt F) → (⟨S1024x4x10000, .f32⟩ : BufTy).Contents (Elt F)),
    binary main_v0 main_v2 main_v3 (addf : (⟨S1024x4x10000, .f32⟩ : BufTy).Contents (Elt F) → (⟨S1024x4x10000, .f32⟩ : BufTy).Contents (Elt F) → (⟨S1024x4x10000, .f32⟩ : BufTy).Contents (Elt F)),
    unary main_v3 main_v4 (Host.cos : (⟨S1024x4x10000, .f32⟩ : BufTy).Contents (Elt F) → (⟨S1024x4x10000, .f32⟩ : BufTy).Contents (Elt F)),
    unary main_v0 main_v5 (Host.sin : (⟨S1024x4x10000, .f32⟩ : BufTy).Contents (Elt F) → (⟨S1024x4x10000, .f32⟩ : BufTy).Contents (Elt F)),
    binary main_v4 main_v5 main_v6 (mulf : (⟨S1024x4x10000, .f32⟩ : BufTy).Contents (Elt F) → (⟨S1024x4x10000, .f32⟩ : BufTy).Contents (Elt F) → (⟨S1024x4x10000, .f32⟩ : BufTy).Contents (Elt F)),
    nullary main_v7 (iotaInDim S10000 32 0),
    nullary main_c (constantI S_ 32 9999#32),
    unary main_c main_v8 (broadcastInDim S10000 ![] bcast_S_S10000 : (⟨S_, .i32⟩ : BufTy).Contents (Elt F) → (⟨S10000, .i32⟩ : BufTy).Contents (Elt F)),
    binary main_v8 main_v7 main_v9 (subi : (⟨S10000, .i32⟩ : BufTy).Contents (Elt F) → (⟨S10000, .i32⟩ : BufTy).Contents (Elt F) → (⟨S10000, .i32⟩ : BufTy).Contents (Elt F)),
    nullary main_c_0 (constantI S_ 32 4#32),
    TRef.unary (.of main_c_0) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S10000 ![] bcast_S_S10000),
    TRef.binary (.of main_v9) main_call0.v3 main_call0.v4 Host.remsi,
    TRef.nullary main_call0.c_1 (constantI S_ 32 0#32),
    TRef.unary main_call0.c_1 main_call0.v5 (broadcastInDim S10000 ![] bcast_S_S10000),
    TRef.binary main_call0.v4 main_call0.v5 main_call0.v6 (cmpi .ne),
    TRef.nullary main_call0.c_2 (constantI S_ 32 0#32),
    TRef.unary main_call0.c_2 main_call0.v7 (broadcastInDim S10000 ![] bcast_S_S10000),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S10000 ![] bcast_S_S10000),
    TRef.binary main_call0.v8 main_call0.v10 main_call0.v11 (cmpi .ne),
    TRef.binary main_call0.v11 main_call0.v6 main_call0.v12 andi,
    TRef.unary main_call0.call0.v0 main_call0.v13 (broadcastInDim S10000 ![] bcast_S_S10000),
    TRef.binary main_call0.v4 main_call0.v13 main_call0.v14 addi,
    TRef.ternary main_call0.v12 main_call0.v14 main_call0.v4 main_call0.v15 select,
    nullary main_v11 (iotaInDim S4 32 0),
    unary main_v11 main_v12 (broadcastInDim S4x1 ![0] bcast_S4_S4x1_0 : (⟨S4, .i32⟩ : BufTy).Contents (Elt F) → (⟨S4x1, .i32⟩ : BufTy).Contents (Elt F)),
    unary main_v10 main_v13 (broadcastInDim S1x10000 ![1] bcast_S10000_S1x10000_1 : (⟨S10000, .i32⟩ : BufTy).Contents (Elt F) → (⟨S1x10000, .i32⟩ : BufTy).Contents (Elt F)),
    unary main_v12 main_v14 (broadcastInDim S4x10000 ![0, 1] bcast_S4x1_S4x10000_0_1 : (⟨S4x1, .i32⟩ : BufTy).Contents (Elt F) → (⟨S4x10000, .i32⟩ : BufTy).Contents (Elt F)),
    unary main_v13 main_v15 (broadcastInDim S4x10000 ![0, 1] bcast_S1x10000_S4x10000_0_1 : (⟨S1x10000, .i32⟩ : BufTy).Contents (Elt F) → (⟨S4x10000, .i32⟩ : BufTy).Contents (Elt F)),
    binary main_v14 main_v15 main_v16 (subi : (⟨S4x10000, .i32⟩ : BufTy).Contents (Elt F) → (⟨S4x10000, .i32⟩ : BufTy).Contents (Elt F) → (⟨S4x10000, .i32⟩ : BufTy).Contents (Elt F)),
    nullary main_c_1 (constantI S_ 32 4#32),
    TRef.unary (.of main_c_1) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S4x10000 ![] bcast_S_S4x10000),
    TRef.binary (.of main_v16) main_call1.v3 main_call1.v4 Host.remsi,
    TRef.nullary main_call1.c_1 (constantI S_ 32 0#32),
    TRef.unary main_call1.c_1 main_call1.v5 (broadcastInDim S4x10000 ![] bcast_S_S4x10000),
    TRef.binary main_call1.v4 main_call1.v5 main_call1.v6 (cmpi .ne),
    TRef.nullary main_call1.c_2 (constantI S_ 32 0#32),
    TRef.unary main_call1.c_2 main_call1.v7 (broadcastInDim S4x10000 ![] bcast_S_S4x10000),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S4x10000 ![] bcast_S_S4x10000),
    TRef.binary main_call1.v8 main_call1.v10 main_call1.v11 (cmpi .ne),
    TRef.binary main_call1.v11 main_call1.v6 main_call1.v12 andi,
    TRef.unary main_call1.call0.v0 main_call1.v13 (broadcastInDim S4x10000 ![] bcast_S_S4x10000),
    TRef.binary main_call1.v4 main_call1.v13 main_call1.v14 addi,
    TRef.ternary main_call1.v12 main_call1.v14 main_call1.v4 main_call1.v15 select,
    unary main_v7 main_v18 (broadcastInDim S1x10000 ![1] bcast_S10000_S1x10000_1 : (⟨S10000, .i32⟩ : BufTy).Contents (Elt F) → (⟨S1x10000, .i32⟩ : BufTy).Contents (Elt F)),
    nullary main_c_2 (constantI S_ 32 0#32),
    unary main_c_2 main_v19 (broadcastInDim S4x10000 ![] bcast_S_S4x10000 : (⟨S_, .i32⟩ : BufTy).Contents (Elt F) → (⟨S4x10000, .i32⟩ : BufTy).Contents (Elt F)),
    binary main_v17 main_v19 main_v20 (cmpi .slt : (⟨S4x10000, .i32⟩ : BufTy).Contents (Elt F) → (⟨S4x10000, .i32⟩ : BufTy).Contents (Elt F) → (⟨S4x10000, .i1⟩ : BufTy).Contents (Elt F)),
    nullary main_c_3 (constantI S_ 32 4#32),
    unary main_c_3 main_v21 (broadcastInDim S4x10000 ![] bcast_S_S4x10000 : (⟨S_, .i32⟩ : BufTy).Contents (Elt F) → (⟨S4x10000, .i32⟩ : BufTy).Contents (Elt F)),
    binary main_v17 main_v21 main_v22 (addi : (⟨S4x10000, .i32⟩ : BufTy).Contents (Elt F) → (⟨S4x10000, .i32⟩ : BufTy).Contents (Elt F) → (⟨S4x10000, .i32⟩ : BufTy).Contents (Elt F)),
    ternary main_v20 main_v22 main_v17 main_v23 (select : (⟨S4x10000, .i1⟩ : BufTy).Contents (Elt F) → (⟨S4x10000, .i32⟩ : BufTy).Contents (Elt F) → (⟨S4x10000, .i32⟩ : BufTy).Contents (Elt F) → (⟨S4x10000, .i32⟩ : BufTy).Contents (Elt F)),
    nullary main_c_4 (constantI S_ 32 0#32),
    unary main_c_4 main_v24 (broadcastInDim S1x10000 ![] bcast_S_S1x10000 : (⟨S_, .i32⟩ : BufTy).Contents (Elt F) → (⟨S1x10000, .i32⟩ : BufTy).Contents (Elt F)),
    binary main_v18 main_v24 main_v25 (cmpi .slt : (⟨S1x10000, .i32⟩ : BufTy).Contents (Elt F) → (⟨S1x10000, .i32⟩ : BufTy).Contents (Elt F) → (⟨S1x10000, .i1⟩ : BufTy).Contents (Elt F)),
    nullary main_c_5 (constantI S_ 32 10000#32),
    unary main_c_5 main_v26 (broadcastInDim S1x10000 ![] bcast_S_S1x10000 : (⟨S_, .i32⟩ : BufTy).Contents (Elt F) → (⟨S1x10000, .i32⟩ : BufTy).Contents (Elt F)),
    binary main_v18 main_v26 main_v27 (addi : (⟨S1x10000, .i32⟩ : BufTy).Contents (Elt F) → (⟨S1x10000, .i32⟩ : BufTy).Contents (Elt F) → (⟨S1x10000, .i32⟩ : BufTy).Contents (Elt F)),
    ternary main_v25 main_v27 main_v18 main_v28 (select : (⟨S1x10000, .i1⟩ : BufTy).Contents (Elt F) → (⟨S1x10000, .i32⟩ : BufTy).Contents (Elt F) → (⟨S1x10000, .i32⟩ : BufTy).Contents (Elt F) → (⟨S1x10000, .i32⟩ : BufTy).Contents (Elt F)),
    unary main_v28 main_v29 (broadcastInDim S4x10000 ![0, 1] bcast_S1x10000_S4x10000_0_1 : (⟨S1x10000, .i32⟩ : BufTy).Contents (Elt F) → (⟨S4x10000, .i32⟩ : BufTy).Contents (Elt F)),
    unary main_v23 main_v30 (broadcastInDim S4x10000x1 ![0, 1] bcast_S4x10000_S4x10000x1_0_1 : (⟨S4x10000, .i32⟩ : BufTy).Contents (Elt F) → (⟨S4x10000x1, .i32⟩ : BufTy).Contents (Elt F)),
    unary main_v29 main_v31 (broadcastInDim S4x10000x1 ![0, 1] bcast_S4x10000_S4x10000x1_0_1 : (⟨S4x10000, .i32⟩ : BufTy).Contents (Elt F) → (⟨S4x10000x1, .i32⟩ : BufTy).Contents (Elt F)),
    binary main_v30 main_v31 main_v32 ((fun a b => concatenate S4x10000x2 2 [⟨S4x10000x1, a⟩, ⟨S4x10000x1, b⟩] concatenates_S4x10000x1_S4x10000x1_S4x10000x2_d2) : (⟨S4x10000x1, .i32⟩ : BufTy).Contents (Elt F) → (⟨S4x10000x1, .i32⟩ : BufTy).Contents (Elt F) → (⟨S4x10000x2, .i32⟩ : BufTy).Contents (Elt F)),
    binary main_v6 main_v32 main_v33 ((fun x i => Host.gather gather_S1024x4x10000_S4x10000x2_S1024x4x10000_0_12_n_n_12_2_102411 x i) : (⟨S1024x4x10000, .f32⟩ : BufTy).Contents (Elt F) → (⟨S4x10000x2, .i32⟩ : BufTy).Contents (Elt F) → (⟨S1024x4x10000, .f32⟩ : BufTy).Contents (Elt F)),
    nullary main_cst (constant S_ .f32 0x00000000#32),
    binary main_v33 main_cst main_v34 ((fun x v => Host.reduceAdd x v reducesTo_S1024x4x10000_S1024x10000_d1 h_S_) : (⟨S1024x4x10000, .f32⟩ : BufTy).Contents (Elt F) → (⟨S_, .f32⟩ : BufTy).Contents (Elt F) → (⟨S1024x10000, .f32⟩ : BufTy).Contents (Elt F)),
    unary main_v34 main_v35 (Host.tanh : (⟨S1024x10000, .f32⟩ : BufTy).Contents (Elt F) → (⟨S1024x10000, .f32⟩ : BufTy).Contents (Elt F)),
    TRef.binary (.of main_v35) (.of main_v35) main_call2.v0 mulf,
    TRef.nullary main_call2.cst (constant S_ .f32 0x00000000#32),
    TRef.binary main_call2.v0 main_call2.cst main_call2.v1 (fun x v => Host.reduceAdd x v reducesTo_S1024x10000_S1024_d1 h_S_),
    TRef.unary main_call2.v1 main_call2.v2 (broadcastInDim S1024x1 ![0] bcast_S1024_S1024x1_0),
    TRef.unary main_call2.v2 main_call2.v3 Host.sqrt,
    TRef.binary (.of main_arg3) (.of main_arg3) main_call3.v0 mulf,
    TRef.nullary main_call3.cst (constant S_ .f32 0x00000000#32),
    TRef.binary main_call3.v0 main_call3.cst main_call3.v1 (fun x v => Host.reduceAdd x v reducesTo_S64x10000_S64_d1 h_S_),
    TRef.unary main_call3.v1 main_call3.v2 (broadcastInDim S64x1 ![0] bcast_S64_S64x1_0),
    TRef.unary main_call3.v2 main_call3.v3 Host.sqrt,
    unary main_arg3 main_v38 ((transpose S10000x64 [1, 0] · transposes_S64x10000_S10000x64_1_0) : (⟨S64x10000, .f32⟩ : BufTy).Contents (Elt F) → (⟨S10000x64, .f32⟩ : BufTy).Contents (Elt F)),
    binary main_v35 main_v38 main_v39 ((fun l r => Host.dotGeneral dot_S1024x10000_S10000x64_S1024x64_1_0_0_1_n_n none l r) : (⟨S1024x10000, .f32⟩ : BufTy).Contents (Elt F) → (⟨S10000x64, .f32⟩ : BufTy).Contents (Elt F) → (⟨S1024x64, .f32⟩ : BufTy).Contents (Elt F)),
    unary main_v37 main_v40 ((transpose S1x64 [1, 0] · transposes_S64x1_S1x64_1_0) : (⟨S64x1, .f32⟩ : BufTy).Contents (Elt F) → (⟨S1x64, .f32⟩ : BufTy).Contents (Elt F)),
    unary main_v36 main_v41 (broadcastInDim S1024x64 ![0, 1] bcast_S1024x1_S1024x64_0_1 : (⟨S1024x1, .f32⟩ : BufTy).Contents (Elt F) → (⟨S1024x64, .f32⟩ : BufTy).Contents (Elt F)),
    unary main_v40 main_v42 (broadcastInDim S1024x64 ![0, 1] bcast_S1x64_S1024x64_0_1 : (⟨S1x64, .f32⟩ : BufTy).Contents (Elt F) → (⟨S1024x64, .f32⟩ : BufTy).Contents (Elt F)),
    binary main_v41 main_v42 main_v43 (mulf : (⟨S1024x64, .f32⟩ : BufTy).Contents (Elt F) → (⟨S1024x64, .f32⟩ : BufTy).Contents (Elt F) → (⟨S1024x64, .f32⟩ : BufTy).Contents (Elt F)),
    nullary main_cst_6 (constant S_ .f32 0x2B8CBCCC#32),
    unary main_cst_6 main_v44 (broadcastInDim S1024x64 ![] bcast_S_S1024x64 : (⟨S_, .f32⟩ : BufTy).Contents (Elt F) → (⟨S1024x64, .f32⟩ : BufTy).Contents (Elt F)),
    binary main_v43 main_v44 main_v45 (addf : (⟨S1024x64, .f32⟩ : BufTy).Contents (Elt F) → (⟨S1024x64, .f32⟩ : BufTy).Contents (Elt F) → (⟨S1024x64, .f32⟩ : BufTy).Contents (Elt F)),
    binary main_v39 main_v45 main_v46 (Host.divf : (⟨S1024x64, .f32⟩ : BufTy).Contents (Elt F) → (⟨S1024x64, .f32⟩ : BufTy).Contents (Elt F) → (⟨S1024x64, .f32⟩ : BufTy).Contents (Elt F)) ]

set_option maxRecDepth 4096 in
set_option maxHeartbeats 4000000 in
/-- @main is that straight line: the functions' bodies unfolded at their calls, the binds reassociated. -/
theorem main_eq (c : Dev nD) : main (F := F) c = seq ops := by
  simp only [main, fn_remainder.body, fn_remainder_0.body, fn_where.body, fn_norm.body, fn_norm_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., nullary_bufs_sub .., nullary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., unary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., binary_bufs_sub .., unary_bufs_sub .., binary_bufs_sub .., nullary_bufs_sub .., binary_bufs_sub .., unary_bufs_sub .., unary_bufs_sub .., binary_bufs_sub .., nullary_bufs_sub .., binary_bufs_sub .., unary_bufs_sub .., unary_bufs_sub .., unary_bufs_sub .., binary_bufs_sub .., unary_bufs_sub .., unary_bufs_sub .., unary_bufs_sub .., binary_bufs_sub .., nullary_bufs_sub .., unary_bufs_sub .., binary_bufs_sub .., binary_bufs_sub ..⟩

end Cert.ReferenceIdeal.RefValue

end
-- ==== Proof.RefTerm.lean ====
/-
  The reference's result as one composed term of its host operations over the four argument arrays:
  one named term per buffer, in the program's order, each over the arguments it depends on. The integer
  index table (buffers 7 to 32) depends on no argument.
-/
import proofs.«156150_g34050500723079_cont_8to1_b_1240_2_alg».proof.Proof.Gen.ReferenceIdeal
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

def r_main_v0 (x : FVec F S1024x4x64 .f32) (E : FVec F S10000x64 .f32) : FVec F S1024x4x10000 .f32 :=
  Host.dotGeneral dot_S1024x4x64_S10000x64_S1024x4x10000_2_1_01_0_n_n none x E
def r_main_v1 (β : FVec F S1x10000 .f32) : FVec F S1x1x10000 .f32 :=
  broadcastInDim S1x1x10000 ![1, 2] bcast_S1x10000_S1x1x10000_1_2 β
def r_main_v2 (β : FVec F S1x10000 .f32) : FVec F S1024x4x10000 .f32 :=
  broadcastInDim S1024x4x10000 ![0, 1, 2] bcast_S1x1x10000_S1024x4x10000_0_1_2 (r_main_v1 β)
def r_main_v3 (x : FVec F S1024x4x64 .f32) (E : FVec F S10000x64 .f32) (β : FVec F S1x10000 .f32) : FVec F S1024x4x10000 .f32 :=
  addf (r_main_v0 x E) (r_main_v2 β)
def r_main_v4 (x : FVec F S1024x4x64 .f32) (E : FVec F S10000x64 .f32) (β : FVec F S1x10000 .f32) : FVec F S1024x4x10000 .f32 :=
  Host.cos (r_main_v3 x E β)
def r_main_v5 (x : FVec F S1024x4x64 .f32) (E : FVec F S10000x64 .f32) : FVec F S1024x4x10000 .f32 :=
  Host.sin (r_main_v0 x E)
def r_main_v6 (x : FVec F S1024x4x64 .f32) (E : FVec F S10000x64 .f32) (β : FVec F S1x10000 .f32) : FVec F S1024x4x10000 .f32 :=
  mulf (r_main_v4 x E β) (r_main_v5 x E)
def r_main_v7 : IVec S10000 32 :=
  iotaInDim S10000 32 0
def r_main_c : IVec S_ 32 :=
  constantI S_ 32 9999#32
def r_main_v8 : IVec S10000 32 :=
  broadcastInDim S10000 ![] bcast_S_S10000 r_main_c
def r_main_v9 : IVec S10000 32 :=
  subi r_main_v8 r_main_v7
def r_main_c_0 : IVec S_ 32 :=
  constantI S_ 32 4#32
def r_main_call0_v0 : IVec S_ 32 :=
  id r_main_c_0
def r_main_call0_c : IVec S_ 32 :=
  constantI S_ 32 0#32
def r_main_call0_v1 : IVec S_ 1 :=
  cmpi .eq r_main_call0_v0 r_main_call0_c
def r_main_call0_c_0 : IVec S_ 32 :=
  constantI S_ 32 1#32
def r_main_call0_v2 : IVec S_ 32 :=
  select r_main_call0_v1 r_main_call0_c_0 r_main_call0_v0
def r_main_call0_v3 : IVec S10000 32 :=
  broadcastInDim S10000 ![] bcast_S_S10000 r_main_call0_v2
def r_main_call0_v4 : IVec S10000 32 :=
  Host.remsi r_main_v9 r_main_call0_v3
def r_main_call0_c_1 : IVec S_ 32 :=
  constantI S_ 32 0#32
def r_main_call0_v5 : IVec S10000 32 :=
  broadcastInDim S10000 ![] bcast_S_S10000 r_main_call0_c_1
def r_main_call0_v6 : IVec S10000 1 :=
  cmpi .ne r_main_call0_v4 r_main_call0_v5
def r_main_call0_c_2 : IVec S_ 32 :=
  constantI S_ 32 0#32
def r_main_call0_v7 : IVec S10000 32 :=
  broadcastInDim S10000 ![] bcast_S_S10000 r_main_call0_c_2
def r_main_call0_v8 : IVec S10000 1 :=
  cmpi .slt r_main_call0_v4 r_main_call0_v7
def r_main_call0_c_3 : IVec S_ 32 :=
  constantI S_ 32 0#32
def r_main_call0_v9 : IVec S_ 1 :=
  cmpi .slt r_main_call0_v2 r_main_call0_c_3
def r_main_call0_v10 : IVec S10000 1 :=
  broadcastInDim S10000 ![] bcast_S_S10000 r_main_call0_v9
def r_main_call0_v11 : IVec S10000 1 :=
  cmpi .ne r_main_call0_v8 r_main_call0_v10
def r_main_call0_v12 : IVec S10000 1 :=
  andi r_main_call0_v11 r_main_call0_v6
def r_main_call0_v13 : IVec S10000 32 :=
  broadcastInDim S10000 ![] bcast_S_S10000 r_main_call0_v2
def r_main_call0_v14 : IVec S10000 32 :=
  addi r_main_call0_v4 r_main_call0_v13
def r_main_v10 : IVec S10000 32 :=
  select r_main_call0_v12 r_main_call0_v14 r_main_call0_v4
def r_main_v11 : IVec S4 32 :=
  iotaInDim S4 32 0
def r_main_v12 : IVec S4x1 32 :=
  broadcastInDim S4x1 ![0] bcast_S4_S4x1_0 r_main_v11
def r_main_v13 : IVec S1x10000 32 :=
  broadcastInDim S1x10000 ![1] bcast_S10000_S1x10000_1 r_main_v10
def r_main_v14 : IVec S4x10000 32 :=
  broadcastInDim S4x10000 ![0, 1] bcast_S4x1_S4x10000_0_1 r_main_v12
def r_main_v15 : IVec S4x10000 32 :=
  broadcastInDim S4x10000 ![0, 1] bcast_S1x10000_S4x10000_0_1 r_main_v13
def r_main_v16 : IVec S4x10000 32 :=
  subi r_main_v14 r_main_v15
def r_main_c_1 : IVec S_ 32 :=
  constantI S_ 32 4#32
def r_main_call1_v0 : IVec S_ 32 :=
  id r_main_c_1
def r_main_call1_c : IVec S_ 32 :=
  constantI S_ 32 0#32
def r_main_call1_v1 : IVec S_ 1 :=
  cmpi .eq r_main_call1_v0 r_main_call1_c
def r_main_call1_c_0 : IVec S_ 32 :=
  constantI S_ 32 1#32
def r_main_call1_v2 : IVec S_ 32 :=
  select r_main_call1_v1 r_main_call1_c_0 r_main_call1_v0
def r_main_call1_v3 : IVec S4x10000 32 :=
  broadcastInDim S4x10000 ![] bcast_S_S4x10000 r_main_call1_v2
def r_main_call1_v4 : IVec S4x10000 32 :=
  Host.remsi r_main_v16 r_main_call1_v3
def r_main_call1_c_1 : IVec S_ 32 :=
  constantI S_ 32 0#32
def r_main_call1_v5 : IVec S4x10000 32 :=
  broadcastInDim S4x10000 ![] bcast_S_S4x10000 r_main_call1_c_1
def r_main_call1_v6 : IVec S4x10000 1 :=
  cmpi .ne r_main_call1_v4 r_main_call1_v5
def r_main_call1_c_2 : IVec S_ 32 :=
  constantI S_ 32 0#32
def r_main_call1_v7 : IVec S4x10000 32 :=
  broadcastInDim S4x10000 ![] bcast_S_S4x10000 r_main_call1_c_2
def r_main_call1_v8 : IVec S4x10000 1 :=
  cmpi .slt r_main_call1_v4 r_main_call1_v7
def r_main_call1_c_3 : IVec S_ 32 :=
  constantI S_ 32 0#32
def r_main_call1_v9 : IVec S_ 1 :=
  cmpi .slt r_main_call1_v2 r_main_call1_c_3
def r_main_call1_v10 : IVec S4x10000 1 :=
  broadcastInDim S4x10000 ![] bcast_S_S4x10000 r_main_call1_v9
def r_main_call1_v11 : IVec S4x10000 1 :=
  cmpi .ne r_main_call1_v8 r_main_call1_v10
def r_main_call1_v12 : IVec S4x10000 1 :=
  andi r_main_call1_v11 r_main_call1_v6
def r_main_call1_v13 : IVec S4x10000 32 :=
  broadcastInDim S4x10000 ![] bcast_S_S4x10000 r_main_call1_v2
def r_main_call1_v14 : IVec S4x10000 32 :=
  addi r_main_call1_v4 r_main_call1_v13
def r_main_v17 : IVec S4x10000 32 :=
  select r_main_call1_v12 r_main_call1_v14 r_main_call1_v4
def r_main_v18 : IVec S1x10000 32 :=
  broadcastInDim S1x10000 ![1] bcast_S10000_S1x10000_1 r_main_v7
def r_main_c_2 : IVec S_ 32 :=
  constantI S_ 32 0#32
def r_main_v19 : IVec S4x10000 32 :=
  broadcastInDim S4x10000 ![] bcast_S_S4x10000 r_main_c_2
def r_main_v20 : IVec S4x10000 1 :=
  cmpi .slt r_main_v17 r_main_v19
def r_main_c_3 : IVec S_ 32 :=
  constantI S_ 32 4#32
def r_main_v21 : IVec S4x10000 32 :=
  broadcastInDim S4x10000 ![] bcast_S_S4x10000 r_main_c_3
def r_main_v22 : IVec S4x10000 32 :=
  addi r_main_v17 r_main_v21
def r_main_v23 : IVec S4x10000 32 :=
  select r_main_v20 r_main_v22 r_main_v17
def r_main_c_4 : IVec S_ 32 :=
  constantI S_ 32 0#32
def r_main_v24 : IVec S1x10000 32 :=
  broadcastInDim S1x10000 ![] bcast_S_S1x10000 r_main_c_4
def r_main_v25 : IVec S1x10000 1 :=
  cmpi .slt r_main_v18 r_main_v24
def r_main_c_5 : IVec S_ 32 :=
  constantI S_ 32 10000#32
def r_main_v26 : IVec S1x10000 32 :=
  broadcastInDim S1x10000 ![] bcast_S_S1x10000 r_main_c_5
def r_main_v27 : IVec S1x10000 32 :=
  addi r_main_v18 r_main_v26
def r_main_v28 : IVec S1x10000 32 :=
  select r_main_v25 r_main_v27 r_main_v18
def r_main_v29 : IVec S4x10000 32 :=
  broadcastInDim S4x10000 ![0, 1] bcast_S1x10000_S4x10000_0_1 r_main_v28
def r_main_v30 : IVec S4x10000x1 32 :=
  broadcastInDim S4x10000x1 ![0, 1] bcast_S4x10000_S4x10000x1_0_1 r_main_v23
def r_main_v31 : IVec S4x10000x1 32 :=
  broadcastInDim S4x10000x1 ![0, 1] bcast_S4x10000_S4x10000x1_0_1 r_main_v29
def r_main_v32 : IVec S4x10000x2 32 :=
  concatenate S4x10000x2 2 [⟨S4x10000x1, r_main_v30⟩, ⟨S4x10000x1, r_main_v31⟩] concatenates_S4x10000x1_S4x10000x1_S4x10000x2_d2
def r_main_v33 (x : FVec F S1024x4x64 .f32) (E : FVec F S10000x64 .f32) (β : FVec F S1x10000 .f32) : FVec F S1024x4x10000 .f32 :=
  Host.gather gather_S1024x4x10000_S4x10000x2_S1024x4x10000_0_12_n_n_12_2_102411 (r_main_v6 x E β) r_main_v32
def r_main_cst : FVec F S_ .f32 :=
  constant S_ .f32 0x00000000#32
def r_main_v34 (x : FVec F S1024x4x64 .f32) (E : FVec F S10000x64 .f32) (β : FVec F S1x10000 .f32) : FVec F S1024x10000 .f32 :=
  Host.reduceAdd (r_main_v33 x E β) (r_main_cst (F := F)) reducesTo_S1024x4x10000_S1024x10000_d1 h_S_
def r_main_v35 (x : FVec F S1024x4x64 .f32) (E : FVec F S10000x64 .f32) (β : FVec F S1x10000 .f32) : FVec F S1024x10000 .f32 :=
  Host.tanh (r_main_v34 x E β)
def r_main_call2_v0 (x : FVec F S1024x4x64 .f32) (E : FVec F S10000x64 .f32) (β : FVec F S1x10000 .f32) : FVec F S1024x10000 .f32 :=
  mulf (r_main_v35 x E β) (r_main_v35 x E β)
def r_main_call2_cst : FVec F S_ .f32 :=
  constant S_ .f32 0x00000000#32
def r_main_call2_v1 (x : FVec F S1024x4x64 .f32) (E : FVec F S10000x64 .f32) (β : FVec F S1x10000 .f32) : FVec F S1024 .f32 :=
  Host.reduceAdd (r_main_call2_v0 x E β) (r_main_call2_cst (F := F)) reducesTo_S1024x10000_S1024_d1 h_S_
def r_main_call2_v2 (x : FVec F S1024x4x64 .f32) (E : FVec F S10000x64 .f32) (β : FVec F S1x10000 .f32) : FVec F S1024x1 .f32 :=
  broadcastInDim S1024x1 ![0] bcast_S1024_S1024x1_0 (r_main_call2_v1 x E β)
def r_main_v36 (x : FVec F S1024x4x64 .f32) (E : FVec F S10000x64 .f32) (β : FVec F S1x10000 .f32) : FVec F S1024x1 .f32 :=
  Host.sqrt (r_main_call2_v2 x E β)
def r_main_call3_v0 (W : FVec F S64x10000 .f32) : FVec F S64x10000 .f32 :=
  mulf W W
def r_main_call3_cst : FVec F S_ .f32 :=
  constant S_ .f32 0x00000000#32
def r_main_call3_v1 (W : FVec F S64x10000 .f32) : FVec F S64 .f32 :=
  Host.reduceAdd (r_main_call3_v0 W) (r_main_call3_cst (F := F)) reducesTo_S64x10000_S64_d1 h_S_
def r_main_call3_v2 (W : FVec F S64x10000 .f32) : FVec F S64x1 .f32 :=
  broadcastInDim S64x1 ![0] bcast_S64_S64x1_0 (r_main_call3_v1 W)
def r_main_v37 (W : FVec F S64x10000 .f32) : FVec F S64x1 .f32 :=
  Host.sqrt (r_main_call3_v2 W)
def r_main_v38 (W : FVec F S64x10000 .f32) : FVec F S10000x64 .f32 :=
  (transpose S10000x64 [1, 0] W transposes_S64x10000_S10000x64_1_0)
def r_main_v39 (x : FVec F S1024x4x64 .f32) (E : FVec F S10000x64 .f32) (β : FVec F S1x10000 .f32) (W : FVec F S64x10000 .f32) : FVec F S1024x64 .f32 :=
  Host.dotGeneral dot_S1024x10000_S10000x64_S1024x64_1_0_0_1_n_n none (r_main_v35 x E β) (r_main_v38 W)
def r_main_v40 (W : FVec F S64x10000 .f32) : FVec F S1x64 .f32 :=
  (transpose S1x64 [1, 0] (r_main_v37 W) transposes_S64x1_S1x64_1_0)
def r_main_v41 (x : FVec F S1024x4x64 .f32) (E : FVec F S10000x64 .f32) (β : FVec F S1x10000 .f32) : FVec F S1024x64 .f32 :=
  broadcastInDim S1024x64 ![0, 1] bcast_S1024x1_S1024x64_0_1 (r_main_v36 x E β)
def r_main_v42 (W : FVec F S64x10000 .f32) : FVec F S1024x64 .f32 :=
  broadcastInDim S1024x64 ![0, 1] bcast_S1x64_S1024x64_0_1 (r_main_v40 W)
def r_main_v43 (x : FVec F S1024x4x64 .f32) (E : FVec F S10000x64 .f32) (β : FVec F S1x10000 .f32) (W : FVec F S64x10000 .f32) : FVec F S1024x64 .f32 :=
  mulf (r_main_v41 x E β) (r_main_v42 W)
def r_main_cst_6 : FVec F S_ .f32 :=
  constant S_ .f32 0x2B8CBCCC#32
def r_main_v44 : FVec F S1024x64 .f32 :=
  broadcastInDim S1024x64 ![] bcast_S_S1024x64 (r_main_cst_6 (F := F))
def r_main_v45 (x : FVec F S1024x4x64 .f32) (E : FVec F S10000x64 .f32) (β : FVec F S1x10000 .f32) (W : FVec F S64x10000 .f32) : FVec F S1024x64 .f32 :=
  addf (r_main_v43 x E β W) (r_main_v44 (F := F))
def r_main_v46 (x : FVec F S1024x4x64 .f32) (E : FVec F S10000x64 .f32) (β : FVec F S1x10000 .f32) (W : FVec F S64x10000 .f32) : FVec F S1024x64 .f32 :=
  Host.divf (r_main_v39 x E β W) (r_main_v45 x E β W)

/-- The composed term of @main's host operations at the ideal instance: the result buffer's contents as a
    function of the four arguments' contents. -/
def refTerm (x : FVec Ideal S1024x4x64 .f32) (E : FVec Ideal S10000x64 .f32) (β : FVec Ideal S1x10000 .f32) (W : FVec Ideal S64x10000 .f32) : FVec Ideal S1024x64 .f32 :=
  r_main_v46 (F := Ideal) x E β W

end Cert.ReferenceIdeal.RefValue

end
-- ==== Proof.RefRun.lean ====
/-
  The reference program's run: every weakly fair execution of @main terminates with the result buffer at the
  composed term of the four arguments' launch contents, the arguments unchanged.
-/
import proofs.«156150_g34050500723079_cont_8to1_b_1240_2_alg».proof.Proof.RefOps
import proofs.«156150_g34050500723079_cont_8to1_b_1240_2_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

attribute [local irreducible] Host.gather Host.reduceAdd Host.divf Host.sin Host.cos Host.tanh Host.sqrt broadcastInDim iotaInDim constantI constant concatenate transpose select cmpi subi addi andi mulf addf Host.remsi in
set_option maxRecDepth 16384 in
set_option maxHeartbeats 2000000 in
/-- The fold of the operations at the result buffer is the composed term of the arguments' contents, by
    computation: the fold unrolled, each operation's result deciding whether the buffer read is the one it
    writes. The operations themselves are kept folded meanwhile — the equation never looks inside them. -/
theorem out_eq (V : Valuation τ sig (Elt Ideal)) :
    after (ops (F := Ideal)) V (main_v46 : DevRef τ sig)
      = refTerm (V (main_arg0 : DevRef τ sig)) (V (main_arg1 : DevRef τ sig)) (V (main_arg2 : DevRef τ sig)) (V (main_arg3 : DevRef τ sig)) := by
  simp only [after_cons, after_nil]
  rfl

set_option maxRecDepth 8192 in
set_option maxHeartbeats 4000000 in
theorem arg0_eq (V : Valuation τ sig (Elt Ideal)) :
    after (ops (F := Ideal)) V (main_arg0 : DevRef τ sig) = V (main_arg0 : DevRef τ sig) := by
  after_results_simp

set_option maxRecDepth 8192 in
set_option maxHeartbeats 4000000 in
theorem arg1_eq (V : Valuation τ sig (Elt Ideal)) :
    after (ops (F := Ideal)) V (main_arg1 : DevRef τ sig) = V (main_arg1 : DevRef τ sig) := by
  after_results_simp

set_option maxRecDepth 8192 in
set_option maxHeartbeats 4000000 in
theorem arg2_eq (V : Valuation τ sig (Elt Ideal)) :
    after (ops (F := Ideal)) V (main_arg2 : DevRef τ sig) = V (main_arg2 : DevRef τ sig) := by
  after_results_simp

set_option maxRecDepth 8192 in
set_option maxHeartbeats 4000000 in
theorem arg3_eq (V : Valuation τ sig (Elt Ideal)) :
    after (ops (F := Ideal)) V (main_arg3 : DevRef τ sig) = V (main_arg3 : DevRef τ sig) := by
  after_results_simp

set_option maxRecDepth 8192 in
set_option maxHeartbeats 4000000 in
/-- On every device, from any memory with zero counters: every weakly fair execution of @main terminates with the
    result at the composed term of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v46) = refTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v46).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.RefValue

end
-- ==== Proof.RefWord.lean ====
/-
  The integer side of the reference's channel permutation, on single 32-bit words: the floored remainder (the signed
  remainder with its sign fix-up) by four of a word that is not negative is the natural remainder, and the
  channel index it builds, (c − s) mod 4 brought back into 0..3, is for each shift s a cyclic shift of the
  four channels, under which a sum over the channels is unchanged.
-/
import Idealize.ShloMosaic.Lib.Affine
import Idealize.ShloMosaic.Lib.ValueIdx
import Mathlib.Tactic.IntervalCases
import Mathlib.Algebra.BigOperators.Fin

open scoped BigOperators

namespace Cert.ReferenceIdeal.RefValue

open Idealize.ShloMosaic

/-- The floored remainder of word `n` by word `m`: the divisor `m` replaced by one when it is zero, the signed
    remainder, and the divisor added back when the remainder is not zero and its sign differs from the divisor's. -/
def frem (n m : BitVec 32) : BitVec 32 :=
  Scalar.select
    (IntOp.andi
      (IntOp.cmpi .ne (IntOp.cmpi .slt (IntOp.remsi .host n (Scalar.select (IntOp.cmpi .eq m 0#32) 1#32 m)) 0#32)
        (IntOp.cmpi .slt (Scalar.select (IntOp.cmpi .eq m 0#32) 1#32 m) 0#32))
      (IntOp.cmpi .ne (IntOp.remsi .host n (Scalar.select (IntOp.cmpi .eq m 0#32) 1#32 m)) 0#32))
    (IntOp.addi (IntOp.remsi .host n (Scalar.select (IntOp.cmpi .eq m 0#32) 1#32 m)) (Scalar.select (IntOp.cmpi .eq m 0#32) 1#32 m))
    (IntOp.remsi .host n (Scalar.select (IntOp.cmpi .eq m 0#32) 1#32 m))

/-- Of a word that is not negative, the floored remainder by four is the natural remainder. -/
theorem frem_four_of_nonneg (n : BitVec 32) (hn : 2 * n.toNat < 2 ^ 32) :
    frem n 4#32 = BitVec.ofNat 32 (n.toNat % 4) := by
  have hM : Scalar.select (IntOp.cmpi .eq (4#32) 0#32) 1#32 (4#32) = 4#32 := by decide
  unfold frem
  rw [hM]
  have hR := IntOp.toNat_remsi .host hn 4 (by decide) (by decide)
  generalize IntOp.remsi .host n (BitVec.ofNat 32 4) = R at hR ⊢
  have hlt : n.toNat % 4 < 4 := Nat.mod_lt _ (by decide)
  generalize n.toNat % 4 = r at hR hlt ⊢
  have hRr : R = BitVec.ofNat 32 r := by
    apply BitVec.eq_of_toNat_eq
    rw [hR, BitVec.toNat_ofNat]
    omega
  subst hRr
  interval_cases r <;> decide

/-- The channel index the reference builds for channel `c` at shift word `s`: the floored remainder of `c − s` by four,
    and four added when that is negative. -/
def chan (c : Fin 4) (s : BitVec 32) : BitVec 32 :=
  Scalar.select (IntOp.cmpi .slt (frem (IntOp.subi (BitVec.ofNat 32 c.val) s) 4#32) 0#32)
    (IntOp.addi (frem (IntOp.subi (BitVec.ofNat 32 c.val) s) 4#32) 4#32)
    (frem (IntOp.subi (BitVec.ofNat 32 c.val) s) 4#32)

/-- At a shift `r` below four it is the channel `c − r` modulo four. -/
theorem chan_ofNat (c : Fin 4) (r : Nat) (hr : r < 4) :
    chan c (BitVec.ofNat 32 r) = BitVec.ofNat 32 ((c.val + 4 - r) % 4) := by
  interval_cases r <;> revert c <;> decide

/-- A sum over the four channels is unchanged by the cyclic shift by `r`. -/
theorem sum_shift {M : Type} [AddCommMonoid M] (f : Fin 4 → M) (r : Nat) (hr : r < 4) :
    ∑ c : Fin 4, f ⟨(c.val + 4 - r) % 4, Nat.mod_lt _ (by decide)⟩ = ∑ c : Fin 4, f c := by
  refine Fintype.sum_bijective (fun c : Fin 4 => (⟨(c.val + 4 - r) % 4, Nat.mod_lt _ (by decide)⟩ : Fin 4)) ?_ _ _ (fun _ => rfl)
  interval_cases r <;> decide

end Cert.ReferenceIdeal.RefValue
-- ==== Proof.RefTable.lean ====
/-
  The reference's integer index table read at an index. At (c, d) its first component is the channel
  (c − s_d) mod 4 with s_d = (9999 − d) mod 4, brought back into 0..3, and its second component is d.
-/
import proofs.«156150_g34050500723079_cont_8to1_b_1240_2_alg».proof.Proof.RefTerm
import proofs.«156150_g34050500723079_cont_8to1_b_1240_2_alg».proof.Proof.RefWord
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The shift word at direction `d`, as the program computes it: the floored remainder of `9999 − d` by four. -/
theorem v10_apply (d : Fin 10000) :
    r_main_v10 (ix1 d) = frem (IntOp.subi 9999#32 (BitVec.ofNat 32 d.val)) 4#32 := rfl

/-- The dividend `9999 − d` is not negative, so that remainder is the natural one. -/
theorem shift_val (d : Fin 10000) :
    frem (IntOp.subi 9999#32 (BitVec.ofNat 32 d.val)) 4#32 = BitVec.ofNat 32 ((9999 - d.val) % 4) := by
  have hd := d.isLt
  have ht : (IntOp.subi 9999#32 (BitVec.ofNat 32 d.val)).toNat = 9999 - d.val := by
    show (9999#32 - BitVec.ofNat 32 d.val).toNat = _
    rw [BitVec.toNat_sub, BitVec.toNat_ofNat, BitVec.toNat_ofNat]
    omega
  rw [frem_four_of_nonneg _ (by rw [ht]; omega), ht]

/-- The channel column of the table, before the two columns are joined. -/
theorem v30_apply (c : Fin 4) (d : Fin 10000) :
    r_main_v30 (ix3 c d (0 : Fin 1)) = chan c (frem (IntOp.subi 9999#32 (BitVec.ofNat 32 d.val)) 4#32) := rfl

/-- The direction column of the table, before the two columns are joined. -/
theorem v31_apply (c : Fin 4) (d : Fin 10000) :
    r_main_v31 (ix3 c d (0 : Fin 1))
      = Scalar.select (IntOp.cmpi .slt (BitVec.ofNat 32 d.val) 0#32) (IntOp.addi (BitVec.ofNat 32 d.val) 10000#32)
          (BitVec.ofNat 32 d.val) := rfl

/-- A direction below 10000 is not negative as a word: the wrap-around branch is not taken. -/
theorem dir_val (d : Fin 10000) :
    Scalar.select (IntOp.cmpi .slt (BitVec.ofNat 32 d.val) 0#32) (IntOp.addi (BitVec.ofNat 32 d.val) 10000#32)
      (BitVec.ofNat 32 d.val) = BitVec.ofNat 32 d.val := by
  have hd := d.isLt
  have h : ¬ IntOp.cmpi .slt (BitVec.ofNat 32 d.val) 0#32 = 1#1 := by
    rw [IntOp.cmpi_slt, BitVec.toInt_eq_toNat_of_lt (by rw [BitVec.toNat_ofNat]; omega), BitVec.toNat_ofNat]
    show ¬ ((d.val % 2 ^ 32 : Nat) : Int) < (0#32 : BitVec 32).toInt
    rw [show (0#32 : BitVec 32).toInt = 0 from by decide]
    omega
  rw [eq_zero_of_ne_one h, select_zero]

/-- The table's first component at (c, d): the channel (c − s_d) mod 4. -/
theorem v32_chan (c : Fin 4) (d : Fin 10000) :
    r_main_v32 (ix3 c d (0 : Fin 2)) = BitVec.ofNat 32 ((c.val + 4 - (9999 - d.val) % 4) % 4) := by
  unfold r_main_v32
  refine (concatenate_pair_apply_left (2 : Fin S4x10000x2.rank) r_main_v30 r_main_v31
    concatenates_S4x10000x1_S4x10000x1_S4x10000x2_d2 (ix3 c d (0 : Fin 2)) rfl (ix3 c d (0 : Fin 1)) ?_).trans ?_
  · intro b
    match b with
    | ⟨0, _⟩ => rfl
    | ⟨1, _⟩ => rfl
    | ⟨2, _⟩ => rfl
  · rw [v30_apply, shift_val, chan_ofNat _ _ (Nat.mod_lt _ (by decide))]

/-- The table's second component at (c, d): the direction d. -/
theorem v32_dir (c : Fin 4) (d : Fin 10000) :
    r_main_v32 (ix3 c d (1 : Fin 2)) = BitVec.ofNat 32 d.val := by
  unfold r_main_v32
  refine (concatenate_pair_apply_right (2 : Fin S4x10000x2.rank) r_main_v30 r_main_v31
    concatenates_S4x10000x1_S4x10000x1_S4x10000x2_d2 (ix3 c d (1 : Fin 2)) rfl rfl (ix3 c d (0 : Fin 1)) ?_ ?_).trans ?_
  · intro b hb
    match b with
    | ⟨0, _⟩ => rfl
    | ⟨1, _⟩ => rfl
    | ⟨2, _⟩ => exact absurd rfl hb
  · rfl
  · rw [v31_apply, dir_val]

end Cert.ReferenceIdeal.RefValue

end
-- ==== Proof.RefGather.lean ====
/-
  The reference's gather read at an index: with one offset axis (the samples) and the two other operand axes
  collapsed and named by the start index, the result at (b, c, d) is the operand at sample b and at the channel
  and direction the index table gives at (c, d), each read signed and clamped into its axis.
-/
import proofs.«156150_g34050500723079_cont_8to1_b_1240_2_alg».proof.Proof.Gen.ReferenceIdeal
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

abbrev G := gather_S1024x4x10000_S4x10000x2_S1024x4x10000_0_12_n_n_12_2_102411

theorem gather_apply {α : Type} (x : S1024x4x10000.Idx → α) (idx : IVec S4x10000x2 32) (b : Fin 1024) (c : Fin 4) (d : Fin 10000) :
    Host.gather G x idx (ix3 b c d)
      = x (ix3 b (⟨min (idx (ix3 c d (0 : Fin 2))).toInt.toNat 3, by omega⟩ : Fin 4)
                 (⟨min (idx (ix3 c d (1 : Fin 2))).toInt.toNat 9999, by omega⟩ : Fin 10000)) := by
  have e0 : G.start (ix3 b c d) idx (⟨0, by decide⟩ : Fin S1024x4x10000.rank) + G.batchCoord (ix3 b c d) (⟨0, by decide⟩ : Fin S1024x4x10000.rank)
      + G.offCoord (ix3 b c d) (⟨0, by decide⟩ : Fin S1024x4x10000.rank) = b.val := by
    have h0 : (⟨0, by decide⟩ : Fin S1024x4x10000.rank) ∉ G.startIndexMap := by decide
    have hk0 : (⟨0, by decide⟩ : Fin S1024x4x10000.rank) ∈ G.sKept := by decide
    have e : ∀ (h : List.idxOf (⟨0, by decide⟩ : Fin S1024x4x10000.rank) G.sKept < G.offsetDims.length),
        G.offsetDims[List.idxOf (⟨0, by decide⟩ : Fin S1024x4x10000.rank) G.sKept]'h = (⟨0, by decide⟩ : Fin S1024x4x10000.rank) := by decide
    rw [GatherDims.batchCoord_eq_zero _ _ _ List.not_mem_nil]
    unfold GatherDims.start GatherDims.offCoord
    rw [dif_neg h0, dif_pos hk0, e]
    simp only [Nat.zero_add]
  have e1 : G.start (ix3 b c d) idx (⟨1, by decide⟩ : Fin S1024x4x10000.rank) + G.batchCoord (ix3 b c d) (⟨1, by decide⟩ : Fin S1024x4x10000.rank)
      + G.offCoord (ix3 b c d) (⟨1, by decide⟩ : Fin S1024x4x10000.rank) = min (idx (ix3 c d (0 : Fin 2))).toInt.toNat 3 := by
    have h1 : (⟨1, by decide⟩ : Fin S1024x4x10000.rank) ∈ G.startIndexMap := by decide
    have hc1 : (⟨1, by decide⟩ : Fin S1024x4x10000.rank) ∈ G.collapsedSliceDims := by decide
    rw [GatherDims.batchCoord_eq_zero _ _ _ List.not_mem_nil,
      GatherDims.offCoord_eq_zero _ _ _ (fun h => ((GatherDims.mem_sKept _ _).mp h).1 hc1)]
    unfold GatherDims.start
    rw [dif_pos h1]
    have hsi : G.siIdx (ix3 b c d) ⟨List.idxOf (⟨1, by decide⟩ : Fin S1024x4x10000.rank) G.startIndexMap,
        List.idxOf_lt_length_iff.2 h1⟩ = ix3 c d (0 : Fin 2) := by
      funext e; refine Fin.ext ?_
      match e with
      | ⟨0, _⟩ => rfl
      | ⟨1, _⟩ => rfl
      | ⟨2, _⟩ => rfl
    rw [hsi]
    rfl
  have e2 : G.start (ix3 b c d) idx (⟨2, by decide⟩ : Fin S1024x4x10000.rank) + G.batchCoord (ix3 b c d) (⟨2, by decide⟩ : Fin S1024x4x10000.rank)
      + G.offCoord (ix3 b c d) (⟨2, by decide⟩ : Fin S1024x4x10000.rank) = min (idx (ix3 c d (1 : Fin 2))).toInt.toNat 9999 := by
    have h2 : (⟨2, by decide⟩ : Fin S1024x4x10000.rank) ∈ G.startIndexMap := by decide
    have hc2 : (⟨2, by decide⟩ : Fin S1024x4x10000.rank) ∈ G.collapsedSliceDims := by decide
    rw [GatherDims.batchCoord_eq_zero _ _ _ List.not_mem_nil,
      GatherDims.offCoord_eq_zero _ _ _ (fun h => ((GatherDims.mem_sKept _ _).mp h).1 hc2)]
    unfold GatherDims.start
    rw [dif_pos h2]
    have hsi : G.siIdx (ix3 b c d) ⟨List.idxOf (⟨2, by decide⟩ : Fin S1024x4x10000.rank) G.startIndexMap,
        List.idxOf_lt_length_iff.2 h2⟩ = ix3 c d (1 : Fin 2) := by
      funext e; refine Fin.ext ?_
      match e with
      | ⟨0, _⟩ => rfl
      | ⟨1, _⟩ => rfl
      | ⟨2, _⟩ => rfl
    rw [hsi]
    rfl
  unfold Host.gather
  congr 1
  funext a
  refine Fin.ext ?_
  match a with
  | ⟨0, _⟩ => exact e0
  | ⟨1, _⟩ => exact e1
  | ⟨2, _⟩ => exact e2

end Cert.ReferenceIdeal.RefValue

end
-- ==== Proof.RefPerm.lean ====
/-
  The gathered array and its sum over the channels. At (b, c, d) the gather reads the encoding at sample b,
  direction d and channel (c − s_d) mod 4; for each d that is a cyclic shift of the four channels, so the sum
  over c of the gathered array is the sum over c of the encoding itself.
-/
import proofs.«156150_g34050500723079_cont_8to1_b_1240_2_alg».proof.Proof.RefTable
import proofs.«156150_g34050500723079_cont_8to1_b_1240_2_alg».proof.Proof.RefGather
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

variable (x : FVec Ideal S1024x4x64 .f32) (E : FVec Ideal S10000x64 .f32) (β : FVec Ideal S1x10000 .f32)

/-- A word below 2³¹ read signed is itself. -/
theorem toInt_toNat_ofNat (k : Nat) (hk : k < 2 ^ 31) : (BitVec.ofNat 32 k).toInt.toNat = k := by
  have hn : (BitVec.ofNat 32 k).toNat = k := by rw [BitVec.toNat_ofNat]; omega
  rw [BitVec.toInt_eq_toNat_of_lt (by rw [hn]; omega), hn, Int.toNat_natCast]

/-- The gathered array at (b, c, d) is the encoding at channel (c − s_d) mod 4. -/
theorem v33_apply (b : Fin 1024) (c : Fin 4) (d : Fin 10000) :
    r_main_v33 (F := Ideal) x E β (ix3 b c d)
      = r_main_v6 (F := Ideal) x E β (ix3 b (⟨(c.val + 4 - (9999 - d.val) % 4) % 4, Nat.mod_lt _ (by decide)⟩ : Fin 4) d) := by
  have hd := d.isLt
  have h1 : min (r_main_v32 (ix3 c d (0 : Fin 2))).toInt.toNat 3 = (c.val + 4 - (9999 - d.val) % 4) % 4 := by
    rw [v32_chan, toInt_toNat_ofNat _ (by omega)]; omega
  have h2 : min (r_main_v32 (ix3 c d (1 : Fin 2))).toInt.toNat 9999 = d.val := by
    rw [v32_dir, toInt_toNat_ofNat _ (by omega)]; omega
  unfold r_main_v33
  refine (gather_apply (r_main_v6 (F := Ideal) x E β) r_main_v32 b c d).trans ?_
  refine congrArg (r_main_v6 (F := Ideal) x E β) ?_
  funext a
  match a with
  | ⟨0, _⟩ => rfl
  | ⟨1, _⟩ => exact Fin.ext h1
  | ⟨2, _⟩ => exact Fin.ext h2

/-- The sum over the channels of the gathered array is the sum over the channels of the encoding. -/
theorem v34_apply (b : Fin 1024) (d : Fin 10000) :
    r_main_v34 (F := Ideal) x E β (ix2 b d) = ∑ c : Fin 4, r_main_v6 (F := Ideal) x E β (ix3 b c d) := by
  have hR : S1024x4x10000.Reduces [1] S1024x10000 := by decide
  have hl : ∀ k : Fin 4, hR.lift (ix2 b d) k = ix3 b k d := by
    intro k; funext a; refine Fin.ext ?_
    match a with
    | ⟨0, _⟩ => rfl
    | ⟨1, _⟩ => rfl
    | ⟨2, _⟩ => rfl
  unfold r_main_v34
  rw [hostReduceAdd_apply, Ideal.hostReduceAdd_single reducesTo_S1024x4x10000_S1024x10000_d1 hR]
  show Ideal.ofBits .f32 0x00000000#32 + ∑ k : Fin 4, r_main_v33 (F := Ideal) x E β (hR.lift (ix2 b d) k) = _
  rw [Ideal.ofBits_zero_f32, zero_add]
  simp only [hl, v33_apply]
  exact sum_shift (fun c => r_main_v6 (F := Ideal) x E β (ix3 b c d)) ((9999 - d.val) % 4) (Nat.mod_lt _ (by decide))

end Cert.ReferenceIdeal.RefValue

end
-- ==== Proof.RefReadA.lean ====
/-
  The reference's two contractions read at an index: the projection of each channel onto each direction, and the
  inner product of the encoding with each class (whose array enters transposed).
-/
import proofs.«156150_g34050500723079_cont_8to1_b_1240_2_alg».proof.Proof.RefTerm
import proofs.«156150_g34050500723079_cont_8to1_b_1240_2_alg».proof.Proof.Spec
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.ReferenceIdeal.RefValue

open Cert.ReferenceIdeal Idealize.ShloMosaic Idealize.ShloMosaic.ValueIdx

variable (x : FVec Ideal S1024x4x64 .f32) (E : FVec Ideal S10000x64 .f32) (β : FVec Ideal S1x10000 .f32) (W : FVec Ideal S64x10000 .f32)

/-! ## The projection: `x`'s last axis against `E`'s last axis -/

local notation "Dp" => dot_S1024x4x64_S10000x64_S1024x4x10000_2_1_01_0_n_n

/-- The left operand's index of the projection at `(b, c, d)` and contraction coordinate `f` is `(b, c, f)`. -/
theorem Dp_lhs (b : Fin 1024) (c : Fin 4) (d : Fin 10000) (f : Fin 64) :
    DotDims.lhsIdx Dp (ix3 b c d) ((contrEquiv1 Dp 64 rfl rfl).symm f) = ix3 b c f := by
  funext a
  match a with
  | ⟨0, _⟩ => exact Fin.ext rfl
  | ⟨1, _⟩ => exact Fin.ext rfl
  | ⟨2, _⟩ => exact Fin.ext ((DotDims.lhsIdx_val_of_single Dp (cl := 2) rfl _ _).trans (contrEquiv1_symm_val Dp 64 rfl rfl f))

/-- The right operand's index there is `(d, f)`. -/
theorem Dp_rhs (b : Fin 1024) (c : Fin 4) (d : Fin 10000) (f : Fin 64) :
    DotDims.rhsIdx Dp (ix3 b c d) ((contrEquiv1 Dp 64 rfl rfl).symm f) = ix2 d f := by
  funext a
  match a with
  | ⟨0, _⟩ => exact Fin.ext rfl
  | ⟨1, _⟩ => exact Fin.ext ((DotDims.rhsIdx_val_of_single Dp (cr := 1) rfl _ _).trans (contrEquiv1_symm_val Dp 64 rfl rfl f))

theorem v0_apply (b : Fin 1024) (c : Fin 4) (d : Fin 10000) :
    r_main_v0 (F := Ideal) x E (ix3 b c d) = ∑ f : Fin 64, x (ix3 b c f) * E (ix2 d f) := by
  unfold r_main_v0
  refine (Ideal.dotGeneral_apply Dp none .single x E (ix3 b c d)).trans ?_
  refine (Equiv.sum_comp (contrEquiv1 Dp 64 rfl rfl).symm _).symm.trans ?_
  refine Finset.sum_congr rfl fun f _ => ?_
  rw [Dp_lhs, Dp_rhs]

/-! ## The inner product with the classes: the encoding's direction axis against the transposed array's -/

local notation "Dn" => dot_S1024x10000_S10000x64_S1024x64_1_0_0_1_n_n

/-- The left operand's index of the inner product at `(b, k)` and contraction coordinate `d` is `(b, d)`. -/
theorem Dn_lhs (b : Fin 1024) (k : Fin 64) (d : Fin 10000) :
    DotDims.lhsIdx Dn (ix2 b k) ((contrEquiv1 Dn 10000 rfl rfl).symm d) = ix2 b d := by
  funext a
  match a with
  | ⟨0, _⟩ => exact Fin.ext rfl
  | ⟨1, _⟩ => exact Fin.ext ((DotDims.lhsIdx_val_of_single Dn (cl := 1) rfl _ _).trans (contrEquiv1_symm_val Dn 10000 rfl rfl d))

/-- The right operand's index there is `(d, k)`. -/
theorem Dn_rhs (b : Fin 1024) (k : Fin 64) (d : Fin 10000) :
    DotDims.rhsIdx Dn (ix2 b k) ((contrEquiv1 Dn 10000 rfl rfl).symm d) = ix2 d k := by
  funext a
  match a with
  | ⟨0, _⟩ => exact Fin.ext ((DotDims.rhsIdx_val_of_single Dn (cr := 0) rfl _ _).trans (contrEquiv1_symm_val Dn 10000 rfl rfl d))
  | ⟨1, _⟩ => exact Fin.ext rfl

theorem v39_apply (b : Fin 1024) (k : Fin 64) :
    r_main_v39 (F := Ideal) x E β W (ix2 b k) = ∑ d : Fin 10000, r_main_v35 (F := Ideal) x E β (ix2 b d) * W (ix2 k d) := by
  unfold r_main_v39
  refine (Ideal.dotGeneral_apply Dn none .single (r_main_v35 (F := Ideal) x E β) (r_main_v38 (F := Ideal) W) (ix2 b k)).trans ?_
  refine (Equiv.sum_comp (contrEquiv1 Dn 10000 rfl rfl).symm _).symm.trans ?_
  refine Finset.sum_congr rfl fun d _ => ?_
  rw [Dn_lhs, Dn_rhs]
  exact congrArg (r_main_v35 (F := Ideal) x E β (ix2 b d) * ·) (transpose_ix2_apply W _ d k)

end Cert.ReferenceIdeal.RefValue
-- ==== Proof.RefReadB.lean ====
/-
  The two norms of the reference read at an index.

  The reference takes the length of the quantised encoding of sample b as the square root of 0 + Σ_d q[b,d]², kept as a
  column [1024, 1] and copied along the classes; and the length of class vector k as the square root of 0 + Σ_d W[k,d]², kept
  as a column [64, 1], turned into a row [1, 64] and copied along the samples.
-/
import proofs.«156150_g34050500723079_cont_8to1_b_1240_2_alg».proof.Proof.RefTerm
import proofs.«156150_g34050500723079_cont_8to1_b_1240_2_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.RefValue

open Cert.ReferenceIdeal Idealize.ShloMosaic Idealize.ShloMosaic.ValueIdx

variable (x : FVec Ideal S1024x4x64 .f32) (E : FVec Ideal S10000x64 .f32) (β : FVec Ideal S1x10000 .f32)
  (W : FVec Ideal S64x10000 .f32)

/-- A row sum of a matrix of 10000 columns from a zero initial value: the sum of the row. -/
theorem rowSum_apply {n : Nat} (X : FVec Ideal ⟨2, ![n, 10000]⟩ .f32) (init : S_.Idx → Ideal .f32)
    (hinit : ∀ i, init i = 0)
    (h' : (⟨2, ![n, 10000]⟩ : Shape).ReducesTo [1] ⟨1, ![n]⟩) (hu : 0 < S_.numel) (b : Fin n) :
    Host.reduceAdd X init h' hu (ix1 b) = ∑ d : Fin 10000, X (ix2 b d) := by
  have h : (⟨2, ![n, 10000]⟩ : Shape).Reduces [1] ⟨1, ![n]⟩ := ⟨h'.1, Nat.one_pos, h'.2⟩
  rw [hostReduceAdd_apply, Ideal.hostReduceAdd_single h' h, hinit, zero_add]
  show ∑ d : Fin 10000, X (h.lift (ix1 b) d) = _
  refine Finset.sum_congr rfl fun d _ => congrArg X (funext fun a => Fin.ext ?_)
  match a with
  | ⟨0, _⟩ => rfl
  | ⟨1, _⟩ => rfl

/-- The zero literal the two norms start their sums from. -/
theorem call2_cst_apply (i : S_.Idx) : r_main_call2_cst (F := Ideal) i = 0 := by
  unfold r_main_call2_cst; rw [constant_apply, Ideal.ofBits_zero_f32]

theorem call3_cst_apply (i : S_.Idx) : r_main_call3_cst (F := Ideal) i = 0 := by
  unfold r_main_call3_cst; rw [constant_apply, Ideal.ofBits_zero_f32]

/-- The column of sample lengths at row b. -/
theorem v36_apply (b : Fin 1024) :
    r_main_v36 (F := Ideal) x E β (ix2 b (0 : Fin 1))
      = Ideal.sqrt (∑ d : Fin 10000, r_main_v35 (F := Ideal) x E β (ix2 b d) * r_main_v35 (F := Ideal) x E β (ix2 b d)) := by
  unfold r_main_v36
  show Ideal.sqrt (r_main_call2_v2 (F := Ideal) x E β (ix2 b (0 : Fin 1))) = _
  refine congrArg Ideal.sqrt ?_
  unfold r_main_call2_v2
  rw [broadcastInDim_apply _ _ _ _ (ix1 b) (fun a => by
    match a with
    | ⟨0, _⟩ => show b.val = if (1024 : ℕ) = 1 then 0 else b.val; rw [if_neg (by decide)])]
  unfold r_main_call2_v1
  rw [rowSum_apply _ _ call2_cst_apply]
  rfl

/-- The column of class lengths at row k. -/
theorem v37_apply (k : Fin 64) :
    r_main_v37 (F := Ideal) W (ix2 k (0 : Fin 1)) = Ideal.sqrt (∑ d : Fin 10000, W (ix2 k d) * W (ix2 k d)) := by
  unfold r_main_v37
  show Ideal.sqrt (r_main_call3_v2 (F := Ideal) W (ix2 k (0 : Fin 1))) = _
  refine congrArg Ideal.sqrt ?_
  unfold r_main_call3_v2
  rw [broadcastInDim_apply _ _ _ _ (ix1 k) (fun a => by
    match a with
    | ⟨0, _⟩ => show k.val = if (64 : ℕ) = 1 then 0 else k.val; rw [if_neg (by decide)])]
  unfold r_main_call3_v1
  rw [rowSum_apply _ _ call3_cst_apply]
  rfl

/-- The sample lengths copied along the classes. -/
theorem v41_apply (b : Fin 1024) (k : Fin 64) :
    r_main_v41 (F := Ideal) x E β (ix2 b k)
      = Ideal.sqrt (∑ d : Fin 10000, r_main_v35 (F := Ideal) x E β (ix2 b d) * r_main_v35 (F := Ideal) x E β (ix2 b d)) := by
  unfold r_main_v41
  rw [broadcastInDim_apply _ _ _ _ (ix2 b (0 : Fin 1)) (fun a => by
    match a with
    | ⟨0, _⟩ => show b.val = if (1024 : ℕ) = 1 then 0 else b.val; rw [if_neg (by decide)]
    | ⟨1, _⟩ => show (0 : Fin 1).val = if (1 : ℕ) = 1 then 0 else k.val; rw [if_pos rfl]; rfl)]
  exact v36_apply x E β b

/-- The class lengths turned into a row and copied along the samples. -/
theorem v42_apply (b : Fin 1024) (k : Fin 64) :
    r_main_v42 (F := Ideal) W (ix2 b k) = Ideal.sqrt (∑ d : Fin 10000, W (ix2 k d) * W (ix2 k d)) := by
  unfold r_main_v42
  rw [broadcastInDim_apply _ _ _ _ (ix2 (0 : Fin 1) k) (fun a => by
    match a with
    | ⟨0, _⟩ => show (0 : Fin 1).val = if (1 : ℕ) = 1 then 0 else b.val; rw [if_pos rfl]; rfl
    | ⟨1, _⟩ => show k.val = if (64 : ℕ) = 1 then 0 else k.val; rw [if_neg (by decide)])]
  unfold r_main_v40
  rw [transpose_apply _ _ _ _ (ix2 k (0 : Fin 1)) (fun a => by
    match a with
    | ⟨0, _⟩ => rfl
    | ⟨1, _⟩ => rfl)]
  exact v37_apply W k

end Cert.ReferenceIdeal.RefValue

end
-- ==== Proof.RefReadC.lean ====
/-
  Two buffers of the reference read at an index: the product cos (p + β_d) · sin p over the projection p, and
  the constant ε added to the denominator.
-/
import proofs.«156150_g34050500723079_cont_8to1_b_1240_2_alg».proof.Proof.RefTerm
import proofs.«156150_g34050500723079_cont_8to1_b_1240_2_alg».proof.Proof.Spec
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.ReferenceIdeal.RefValue

open Cert.ReferenceIdeal Idealize.ShloMosaic Idealize.ShloMosaic.ValueIdx

variable (x : FVec Ideal S1024x4x64 .f32) (E : FVec Ideal S10000x64 .f32) (β : FVec Ideal S1x10000 .f32) (W : FVec Ideal S64x10000 .f32)

/-- The phases broadcast over samples and channels read the phase of the direction. -/
theorem v2_apply (b : Fin 1024) (c : Fin 4) (d : Fin 10000) :
    r_main_v2 (F := Ideal) β (ix3 b c d) = β (ix2 (0 : Fin 1) d) := by
  unfold r_main_v2 r_main_v1 broadcastInDim
  exact congrArg β (funext fun a => by fin_cases a <;> rfl)

/-- One channel's encoding at an index: cosine of the shifted projection times sine of the projection. -/
theorem v6_apply (b : Fin 1024) (c : Fin 4) (d : Fin 10000) : r_main_v6 (F := Ideal) x E β (ix3 b c d) = Ideal.cos (r_main_v0 (F := Ideal) x E (ix3 b c d) + β (ix2 (0 : Fin 1) d)) * Ideal.sin (r_main_v0 (F := Ideal) x E (ix3 b c d)) := by
  show Ideal.cos (r_main_v0 (F := Ideal) x E (ix3 b c d) + r_main_v2 (F := Ideal) β (ix3 b c d)) * Ideal.sin (r_main_v0 (F := Ideal) x E (ix3 b c d)) = _
  rw [v2_apply β b c d]

/-- The constant added to the denominator, at every index. -/
theorem v44_apply (b : Fin 1024) (k : Fin 64) : r_main_v44 (F := Ideal) (ix2 b k) = Cert.Spec.eps := by
  unfold Cert.Spec.eps
  rfl

end Cert.ReferenceIdeal.RefValue

end
-- ==== Proof.RefValue.lean ====
/-
  The reference's composed term is the shared specification: read at (b, k) it is the inner product of the
  quantised encoding with class k over the product of the two lengths plus the shared literal, the quantised
  encoding being the hyperbolic tangent of the four channels' encodings added up.
-/
import proofs.«156150_g34050500723079_cont_8to1_b_1240_2_alg».proof.Proof.RefPerm
import proofs.«156150_g34050500723079_cont_8to1_b_1240_2_alg».proof.Proof.RefReadA
import proofs.«156150_g34050500723079_cont_8to1_b_1240_2_alg».proof.Proof.RefReadB
import proofs.«156150_g34050500723079_cont_8to1_b_1240_2_alg».proof.Proof.RefReadC
import proofs.«156150_g34050500723079_cont_8to1_b_1240_2_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

variable (x : FVec Ideal S1024x4x64 .f32) (E : FVec Ideal S10000x64 .f32) (β : FVec Ideal S1x10000 .f32) (W : FVec Ideal S64x10000 .f32)

/-- The quantised encoding: the hyperbolic tangent of the four channels' encodings added. -/
theorem v35_apply (b : Fin 1024) (d : Fin 10000) :
    r_main_v35 (F := Ideal) x E β (ix2 b d) = Cert.Spec.quant x E β b d := by
  unfold r_main_v35
  show Ideal.tanh (r_main_v34 (F := Ideal) x E β (ix2 b d)) = _
  rw [v34_apply]
  simp only [v6_apply, v0_apply]
  rfl

/-- The reference's composed term is the shared specification, index by index. -/
theorem refTerm_eq : refTerm x E β W = Cert.Spec.G x E β W := by
  funext j
  obtain ⟨b, k, rfl⟩ : ∃ (b : Fin 1024) (k : Fin 64), j = ix2 b k := ⟨j 0, j 1, eq_ix2 j⟩
  rw [Cert.Spec.G_ix2]
  unfold refTerm r_main_v46
  rw [hostDivf_apply]
  unfold r_main_v45 r_main_v43
  rw [addf_apply, mulf_apply, v39_apply, v41_apply, v42_apply, v44_apply]
  simp only [v35_apply]
  rfl

end Cert.ReferenceIdeal.RefValue

end
-- ==== Proof.lean ====
/-
  The claim: the tiled program and the reference compute one function of the four arguments,
    out b k = (Σ_d q b d · W[k,d]) / (√(Σ_d q b d²) · √(Σ_d W[k,d]²) + ε),   q b d = tanh (Σ_c cos (p + β_d) · sin p),  p = Σ_f x[b,c,f] · E[d,f].
  The two texts meet by three facts: cos (p + β) · sin p = ½ · (sin (2p + β) − sin β), which the tiled program uses
  channel by channel; the reference's roll of the channels is a permutation, which a sum over the channels absorbs;
  and the zero padding from 10000 to 10240 directions contributes nothing to any of the three sums over directions.
-/
import proofs.«156150_g34050500723079_cont_8to1_b_1240_2_alg».proof.Defs
import proofs.«156150_g34050500723079_cont_8to1_b_1240_2_alg».proof.Proof.Gen.Kernel
import proofs.«156150_g34050500723079_cont_8to1_b_1240_2_alg».proof.Proof.Gen.Kernel.Skeleton
import proofs.«156150_g34050500723079_cont_8to1_b_1240_2_alg».proof.Proof.Gen.Kernel.Launch
import proofs.«156150_g34050500723079_cont_8to1_b_1240_2_alg».proof.Proof.Gen.Kernel.Points
import proofs.«156150_g34050500723079_cont_8to1_b_1240_2_alg».proof.Proof.Gen.Kernel.Frame
import proofs.«156150_g34050500723079_cont_8to1_b_1240_2_alg».proof.Proof.Gen.KernelIdeal
import proofs.«156150_g34050500723079_cont_8to1_b_1240_2_alg».proof.Proof.Gen.KernelIdeal.Skeleton
import proofs.«156150_g34050500723079_cont_8to1_b_1240_2_alg».proof.Proof.Gen.KernelIdeal.Launch
import proofs.«156150_g34050500723079_cont_8to1_b_1240_2_alg».proof.Proof.Gen.KernelIdeal.Points
import proofs.«156150_g34050500723079_cont_8to1_b_1240_2_alg».proof.Proof.Gen.KernelIdeal.Frame
import proofs.«156150_g34050500723079_cont_8to1_b_1240_2_alg».proof.Proof.Gen.ReferenceIdeal
import proofs.«156150_g34050500723079_cont_8to1_b_1240_2_alg».proof.Proof.Gen.Pre_finite_inputs
import proofs.«156150_g34050500723079_cont_8to1_b_1240_2_alg».proof.Proof.Gen.KernelIdeal.Value
import Idealize.ShloMosaic.Adequacy
import Idealize.ShloMosaic.Init
import proofs.«156150_g34050500723079_cont_8to1_b_1240_2_alg».proof.Proof.KernelValue
import proofs.«156150_g34050500723079_cont_8to1_b_1240_2_alg».proof.Proof.RefRun
import proofs.«156150_g34050500723079_cont_8to1_b_1240_2_alg».proof.Proof.RefValue

noncomputable section

namespace Cert.Proof

open Idealize.ShloMosaic Idealize.SL.Sem Cert.Kernel

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both programs end at the one function `G` of the four arguments: the tiled program by `KValue.run`, the
    reference by its composed term, which is `G`. -/
theorem algebraic : Cert.algebraic_KernelIdeal_ReferenceIdeal := fun m ρ m' ρ' hpre hagree =>
  ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KValue.run m ρ hpre,
    (θ_run Cert.ReferenceIdeal.defs _ _).mono (fun _ h c =>
      ⟨by rw [(h c).1, Cert.ReferenceIdeal.RefValue.refTerm_eq, (hagree c).1, (hagree c).2.1, (hagree c).2.2.1, (hagree c).2.2.2], (h c).2⟩)
      (Cert.ReferenceIdeal.RefValue.run m' ρ')⟩

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
